-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x256 : Shape := ⟨3, ![64, 128, 256]⟩
abbrev S_ : Shape := ⟨0, ![]⟩

class Facts : Prop where
  bcast_S_S64x128x256 : S_.BroadcastsInDim S64x128x256 (![] : Fin 0 → Fin S64x128x256.rank)
  reducesTo_S64x128x256_S_d0_1_2 : S64x128x256.ReducesTo [0, 1, 2] S_
  h_S_ : 0 < S_.numel
  reducesTo_S_S_d : S_.ReducesTo [] S_

variable [Facts]

def fn {F : FTy → Type} [FloatOps F] (main_arg0 : FVec F S64x128x256 .f32) (main_arg1 : FVec F S64x128x256 .f32) (main_arg2 : FVec F S_ .f32) : IVec S_ 1 :=
  let main_v0 : FVec F S64x128x256 .f32 := Host.absf main_arg0
  let main_cst : FVec F S_ .f32 := constant S_ .f32 0x7F800000#32
  let main_v1 : FVec F S64x128x256 .f32 := broadcastInDim S64x128x256 ![] bcast_S_S64x128x256 main_cst
  let main_v2 : IVec S64x128x256 1 := cmpf .olt main_v0 main_v1
  let main_c : IVec S_ 1 := constantI S_ 1 1#1
  let main_v3 : IVec S_ 1 := (fun x v => Host.reduce IntOp.andi x v reducesTo_S64x128x256_S_d0_1_2 h_S_) main_v2 main_c
  let main_v4 : FVec F S64x128x256 .f32 := Host.absf main_arg1
  let main_cst_0 : FVec F S_ .f32 := constant S_ .f32 0x7F800000#32
  let main_v5 : FVec F S64x128x256 .f32 := broadcastInDim S64x128x256 ![] bcast_S_S64x128x256 main_cst_0
  let main_v6 : IVec S64x128x256 1 := cmpf .olt main_v4 main_v5
  let main_c_1 : IVec S_ 1 := constantI S_ 1 1#1
  let main_v7 : IVec S_ 1 := (fun x v => Host.reduce IntOp.andi x v reducesTo_S64x128x256_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S64x128x256 : Shape := ⟨3, ![64, 128, 256]⟩
abbrev S_ : Shape := ⟨0, ![]⟩
abbrev S64x64x128 : Shape := ⟨3, ![64, 64, 128]⟩
abbrev S8x128x256 : Shape := ⟨3, ![8, 128, 256]⟩
abbrev S8x64x128 : Shape := ⟨3, ![8, 64, 128]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S8x128 : Shape := ⟨2, ![8, 128]⟩
abbrev S8x1x128 : Shape := ⟨3, ![8, 1, 128]⟩
abbrev S128x1024 : Shape := ⟨2, ![128, 1024]⟩
abbrev S1x1024 : Shape := ⟨2, ![1, 1024]⟩
abbrev S1x8x128 : Shape := ⟨3, ![1, 8, 128]⟩
abbrev S64x64 : Shape := ⟨2, ![64, 64]⟩
abbrev S64x64x1 : Shape := ⟨3, ![64, 64, 1]⟩
abbrev S64 : Shape := ⟨1, ![64]⟩
abbrev S64x1 : Shape := ⟨2, ![64, 1]⟩
abbrev S64x1x1 : Shape := ⟨3, ![64, 1, 1]⟩
abbrev S1x1x1 : Shape := ⟨3, ![1, 1, 1]⟩

abbrev nBuf : Space → Nat
  | .hbm => 172
  | .vmem => 7
  | .smem => 0
  | _ => 0

abbrev hbmTy0_0 (i : Nat) : BufTy := match i % 128 with
  | 0 => ⟨S64x128x256, .f32⟩
  | 1 => ⟨S64x128x256, .f32⟩
  | 2 => ⟨S_, .f32⟩
  | 3 => ⟨S64x64x128, .f32⟩
  | 4 => ⟨S64x64x128, .f32⟩
  | 5 => ⟨S_, .f32⟩
  | 6 => ⟨S64x64x128, .f32⟩
  | 7 => ⟨S64x64x128, .f32⟩
  | 8 => ⟨S_, .f32⟩
  | 9 => ⟨S64x64, .f32⟩
  | 10 => ⟨S_, .f32⟩
  | 11 => ⟨S64x64, .f32⟩
  | 12 => ⟨S64x64, .f32⟩
  | 13 => ⟨S64x64x1, .f32⟩
  | 14 => ⟨S64x64x128, .f32⟩
  | 15 => ⟨S64x64x128, .f32⟩
  | 16 => ⟨S64x64x128, .f32⟩
  | 17 => ⟨S_, .f32⟩
  | 18 => ⟨S64x64, .f32⟩
  | 19 => ⟨S64x64x1, .f32⟩
  | 20 => ⟨S64x64x128, .f32⟩
  | 21 => ⟨S64x64x128, .f32⟩
  | 22 => ⟨S64x64x128, .f32⟩
  | 23 => ⟨S_, .f32⟩
  | 24 => ⟨S64x64, .f32⟩
  | 25 => ⟨S_, .f32⟩
  | 26 => ⟨S64x64x128, .f32⟩
  | 27 => ⟨S64x64x128, .f32⟩
  | 28 => ⟨S_, .f32⟩
  | 29 => ⟨S64x64, .f32⟩
  | 30 => ⟨S_, .f32⟩
  | 31 => ⟨S64x64, .f32⟩
  | 32 => ⟨S64x64, .f32⟩
  | 33 => ⟨S64x64x1, .f32⟩
  | 34 => ⟨S64x64x128, .f32⟩
  | 35 => ⟨S64x64x128, .f32⟩
  | 36 => ⟨S64x64x128, .f32⟩
  | 37 => ⟨S_, .f32⟩
  | 38 => ⟨S64x64, .f32⟩
  | 39 => ⟨S64x64x1, .f32⟩
  | 40 => ⟨S64x64x128, .f32⟩
  | 41 => ⟨S64x64x128, .f32⟩
  | 42 => ⟨S64x64x128, .f32⟩
  | 43 => ⟨S_, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S_, .f32⟩
  | 50 => ⟨S_, .f32⟩
  | 51 => ⟨S64x64, .f32⟩
  | 52 => ⟨S64x64, .f32⟩
  | 53 => ⟨S64x64, .f32⟩
  | 54 => ⟨S64, .i32⟩
  | 55 => ⟨S_, .f32⟩
  | 56 => ⟨S64, .f32⟩
  | 57 => ⟨S_, .f32⟩
  | 58 => ⟨S64, .f32⟩
  | 59 => ⟨S64, .f32⟩
  | 60 => ⟨S64x1, .f32⟩
  | 61 => ⟨S64x64, .f32⟩
  | 62 => ⟨S64x64, .f32⟩
  | 63 => ⟨S64x64, .f32⟩
  | 64 => ⟨S_, .f32⟩
  | 65 => ⟨S64, .f32⟩
  | 66 => ⟨S64x1, .f32⟩
  | 67 => ⟨S64x1, .f32⟩
  | 68 => ⟨S64x64, .f32⟩
  | 69 => ⟨S64x64, .f32⟩
  | 70 => ⟨S64x1, .i32⟩
  | 71 => ⟨S_, .i32⟩
  | 72 => ⟨S64x1, .i32⟩
  | 73 => ⟨S64x1, .i1⟩
  | 74 => ⟨S_, .i32⟩
  | 75 => ⟨S64x1, .i32⟩
  | 76 => ⟨S64x1, .i32⟩
  | 77 => ⟨S64x1, .i32⟩
  | 78 => ⟨S64x1x1, .i32⟩
  | 79 => ⟨S1, .i32⟩
  | 80 => ⟨S_, .i32⟩
  | 81 => ⟨S64x1x1, .i32⟩
  | 82 => ⟨S64x1x1, .i1⟩
  | 83 => ⟨S1x1x1, .i32⟩
  | 84 => ⟨S64x1x1, .i32⟩
  | 85 => ⟨S64x1x1, .i1⟩
  | 86 => ⟨S64x1x1, .i1⟩
  | 87 => ⟨S_, .i1⟩
  | 88 => ⟨S64x1, .i1⟩
  | 89 => ⟨S64x1, .f32⟩
  | 90 => ⟨S_, .f32⟩
  | 91 => ⟨S64x1, .f32⟩
  | 92 => ⟨S64x1, .f32⟩
  | 93 => ⟨S64, .f32⟩
  | 94 => ⟨S64, .f32⟩
  | 95 => ⟨S_, .f32⟩
  | 96 => ⟨S64, .f32⟩
  | 97 => ⟨S_, .f32⟩
  | 98 => ⟨S64, .f32⟩
  | 99 => ⟨S64, .f32⟩
  | 100 => ⟨S64, .f32⟩
  | 101 => ⟨S_, .f32⟩
  | 102 => ⟨S64, .f32⟩
  | 103 => ⟨S64, .f32⟩
  | 104 => ⟨S_, .f32⟩
  | 105 => ⟨S64, .f32⟩
  | 106 => ⟨S64, .f32⟩
  | 107 => ⟨S64, .f32⟩
  | 108 => ⟨S_, .f32⟩
  | 109 => ⟨S_, .f32⟩
  | 110 => ⟨S_, .f32⟩
  | 111 => ⟨S_, .f32⟩
  | 112 => ⟨S_, .f32⟩
  | 113 => ⟨S64, .f32⟩
  | 114 => ⟨S_, .f32⟩
  | 115 => ⟨S64, .f32⟩
  | 116 => ⟨S64, .f32⟩
  | 117 => ⟨S64x1, .f32⟩
  | 118 => ⟨S64x64, .f32⟩
  | 119 => ⟨S64x64, .f32⟩
  | 120 => ⟨S64x64, .f32⟩
  | 121 => ⟨S_, .f32⟩
  | 122 => ⟨S64, .f32⟩
  | 123 => ⟨S64x1, .f32⟩
  | 124 => ⟨S64x1, .f32⟩
  | 125 => ⟨S64x64, .f32⟩
  | 126 => ⟨S64x64, .f32⟩
  | 127 => ⟨S64x1, .i32⟩
  | _ => ⟨S64x128x256, .f32⟩

abbrev hbmTy0_1 (i : Nat) : BufTy := match i % 128 with
  | 0 => ⟨S_, .i32⟩
  | 1 => ⟨S64x1, .i32⟩
  | 2 => ⟨S64x1, .i1⟩
  | 3 => ⟨S_, .i32⟩
  | 4 => ⟨S64x1, .i32⟩
  | 5 => ⟨S64x1, .i32⟩
  | 6 => ⟨S64x1, .i32⟩
  | 7 => ⟨S64x1x1, .i32⟩
  | 8 => ⟨S1, .i32⟩
  | 9 => ⟨S_, .i32⟩
  | 10 => ⟨S64x1x1, .i32⟩
  | 11 => ⟨S64x1x1, .i1⟩
  | 12 => ⟨S1x1x1, .i32⟩
  | 13 => ⟨S64x1x1, .i32⟩
  | 14 => ⟨S64x1x1, .i1⟩
  | 15 => ⟨S64x1x1, .i1⟩
  | 16 => ⟨S_, .i1⟩
  | 17 => ⟨S64x1, .i1⟩
  | 18 => ⟨S64x1, .f32⟩
  | 19 => ⟨S_, .f32⟩
  | 20 => ⟨S64x1, .f32⟩
  | 21 => ⟨S64x1, .f32⟩
  | 22 => ⟨S64, .f32⟩
  | 23 => ⟨S64, .f32⟩
  | 24 => ⟨S_, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S64x128x256, .f32⟩

abbrev hbmTy (i : Nat) : BufTy := match i / 128 with
  | 0 => hbmTy0_0 i
  | 1 => hbmTy0_1 i
  | _ => ⟨S64x128x256, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S64x128x256, .f32⟩
  | .local _ .vmem, ⟨3, _⟩ => ⟨S8x64x128, .f32⟩
  | .local _ .vmem, ⟨4, _⟩ => ⟨S8x64x128, .f32⟩
  | .local _ .vmem, ⟨5, _⟩ => ⟨S8x64x128, .f32⟩
  | .local _ .vmem, ⟨6, _⟩ => ⟨S8x64x128, .f32⟩
  | _, _ => ⟨S64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_call0_cst_0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_cst_1 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_v39 : Ref sig .tc := ⟨.hbm, 69, rfl⟩
abbrev main_v40 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_cst : Ref sig .tc := ⟨.hbm, 90, rfl⟩
abbrev main_call1_v14 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_11 : Ref sig .tc := ⟨.hbm, 95, rfl⟩
abbrev main_v44 : Ref sig .tc := ⟨.hbm, 96, rfl⟩
abbrev main_cst_12 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_13 : Ref sig .tc := ⟨.hbm, 101, rfl⟩
abbrev main_v48 : Ref sig .tc := ⟨.hbm, 102, rfl⟩
abbrev main_v49 : Ref sig .tc := ⟨.hbm, 103, rfl⟩
abbrev main_cst_14 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_15 : Ref sig .tc := ⟨.hbm, 108, rfl⟩
abbrev main_v53 : Ref sig .tc := ⟨.hbm, 109, rfl⟩
abbrev main_cst_16 : Ref sig .tc := ⟨.hbm, 110, rfl⟩
abbrev main_v54 : Ref sig .tc := ⟨.hbm, 111, rfl⟩
abbrev main_call2_cst : Ref sig .tc := ⟨.hbm, 112, rfl⟩
abbrev main_call2_v0 : Ref sig .tc := ⟨.hbm, 113, rfl⟩
abbrev main_call2_cst_0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_cst_1 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_v55 : Ref sig .tc := ⟨.hbm, 126, rfl⟩
abbrev main_v56 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_cst : Ref sig .tc := ⟨.hbm, 147, rfl⟩
abbrev main_call3_v14 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_cst_17 : Ref sig .tc := ⟨.hbm, 152, rfl⟩
abbrev main_v60 : Ref sig .tc := ⟨.hbm, 153, rfl⟩
abbrev main_cst_18 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_19 : Ref sig .tc := ⟨.hbm, 158, rfl⟩
abbrev main_v64 : Ref sig .tc := ⟨.hbm, 159, rfl⟩
abbrev main_v65 : Ref sig .tc := ⟨.hbm, 160, rfl⟩
abbrev main_cst_20 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_cst_21 : Ref sig .tc := ⟨.hbm, 165, rfl⟩
abbrev main_v69 : Ref sig .tc := ⟨.hbm, 166, rfl⟩
abbrev main_cst_22 : Ref sig .tc := ⟨.hbm, 167, rfl⟩
abbrev main_v70 : Ref sig .tc := ⟨.hbm, 168, rfl⟩
abbrev main_v71 : Ref sig .tc := ⟨.hbm, 169, rfl⟩
abbrev main_cst_23 : Ref sig .tc := ⟨.hbm, 170, rfl⟩
abbrev main_v72 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x128x256_S8x128x256_0_0_0 : ∀ a, (![0, 0, 0] : Fin 3 → Nat) a + S8x128x256.size a ≤ S8x128x256.size a
  h_S8x128x256 : 0 < S8x128x256.numel
  shapeCasts_S8x128x256_S1024x256 : S8x128x256.ShapeCasts S1024x256
  bitsLt_bf16_f32 : FTy.bits .bf16 < FTy.bits .f32
  inb_S64x128x256_S8x128x256_0_0_0 : ∀ a, (![0, 0, 0] : Fin 3 → Nat) a + S8x128x256.size a ≤ S64x128x256.size a
  transposes_S1024x256_p1_0_S256x1024 : S1024x256.Transposes [1, 0] S256x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S1024x1024 : S1x1.Broadcasts S1024x1024
  slices_S1024x1024_o0_0_S1024x128 : S1024x1024.Slices ![0, 0] S1024x128
  reduces_S1024x128_S1024 : S1024x128.Reduces [1] S1024
  broadcasts_S1024x1_S1024x128 : S1024x1.Broadcasts S1024x128
  shapeCasts_S1024x1_S8x128 : S1024x1.ShapeCasts S8x128
  inb_S8x64x128_S8x1x128_0_0_0 : ∀ a, (![0, 0, 0] : Fin 3 → Nat) a + S8x1x128.size a ≤ S8x64x128.size a
  h_S8x1x128 : 0 < S8x1x128.numel
  shapeCasts_S8x1x128_S8x128 : S8x1x128.ShapeCasts S8x128
  shapeCasts_S8x128_S8x1x128 : S8x128.ShapeCasts S8x1x128
  slices_S1024x1024_o0_128_S1024x128 : S1024x1024.Slices ![0, 128] S1024x128
  inb_S8x64x128_S8x1x128_0_1_0 : ∀ a, (![0, 1, 0] : Fin 3 → Nat) a + S8x1x128.size a ≤ S8x64x128.size a
  slices_S1024x1024_o0_256_S1024x128 : S1024x1024.Slices ![0, 256] S1024x128
  inb_S8x64x128_S8x1x128_0_2_0 : ∀ a, (![0, 2, 0] : Fin 3 → Nat) a + S8x1x128.size a ≤ S8x64x128.size a
  slices_S1024x1024_o0_384_S1024x128 : S1024x1024.Slices ![0, 384] S1024x128
  inb_S8x64x128_S8x1x128_0_3_0 : ∀ a, (![0, 3, 0] : Fin 3 → Nat) a + S8x1x128.size a ≤ S8x64x128.size a
  slices_S1024x1024_o0_512_S1024x128 : S1024x1024.Slices ![0, 512] S1024x128
  inb_S8x64x128_S8x1x128_0_4_0 : ∀ a, (![0, 4, 0] : Fin 3 → Nat) a + S8x1x128.size a ≤ S8x64x128.size a
  slices_S1024x1024_o0_640_S1024x128 : S1024x1024.Slices ![0, 640] S1024x128
  inb_S8x64x128_S8x1x128_0_5_0 : ∀ a, (![0, 5, 0] : Fin 3 → Nat) a + S8x1x128.size a ≤ S8x64x128.size a
  slices_S1024x1024_o0_768_S1024x128 : S1024x1024.Slices ![0, 768] S1024x128
  inb_S8x64x128_S8x1x128_0_6_0 : ∀ a, (![0, 6, 0] : Fin 3 → Nat) a + S8x1x128.size a ≤ S8x64x128.size a
  slices_S1024x1024_o0_896_S1024x128 : S1024x1024.Slices ![0, 896] S1024x128
  inb_S8x64x128_S8x1x128_0_7_0 : ∀ a, (![0, 7, 0] : Fin 3 → Nat) a + S8x1x128.size a ≤ S8x64x128.size a
  slices_S1024x1024_o0_0_S128x1024 : S1024x1024.Slices ![0, 0] S128x1024
  reduces_S128x1024_S1024 : S128x1024.Reduces [0] S1024
  shapeCasts_S1024_S1x1024 : S1024.ShapeCasts S1x1024
  broadcasts_S1x1024_S128x1024 : S1x1024.Broadcasts S128x1024
  shapeCasts_S1x1024_S8x128 : S1x1024.ShapeCasts S8x128
  inb_S8x64x128_S1x8x128_0_0_0 : ∀ a, (![0, 0, 0] : Fin 3 → Nat) a + S1x8x128.size a ≤ S8x64x128.size a
  h_S1x8x128 : 0 < S1x8x128.numel
  shapeCasts_S1x8x128_S8x128 : S1x8x128.ShapeCasts S8x128
  shapeCasts_S8x128_S1x8x128 : S8x128.ShapeCasts S1x8x128
  slices_S1024x1024_o128_0_S128x1024 : S1024x1024.Slices ![128, 0] S128x1024
  inb_S8x64x128_S1x8x128_1_0_0 : ∀ a, (![1, 0, 0] : Fin 3 → Nat) a + S1x8x128.size a ≤ S8x64x128.size a
  slices_S1024x1024_o256_0_S128x1024 : S1024x1024.Slices ![256, 0] S128x1024
  inb_S8x64x128_S1x8x128_2_0_0 : ∀ a, (![2, 0, 0] : Fin 3 → Nat) a + S1x8x128.size a ≤ S8x64x128.size a
  slices_S1024x1024_o384_0_S128x1024 : S1024x1024.Slices ![384, 0] S128x1024
  inb_S8x64x128_S1x8x128_3_0_0 : ∀ a, (![3, 0, 0] : Fin 3 → Nat) a + S1x8x128.size a ≤ S8x64x128.size a
  slices_S1024x1024_o512_0_S128x1024 : S1024x1024.Slices ![512, 0] S128x1024
  inb_S8x64x128_S1x8x128_4_0_0 : ∀ a, (![4, 0, 0] : Fin 3 → Nat) a + S1x8x128.size a ≤ S8x64x128.size a
  slices_S1024x1024_o640_0_S128x1024 : S1024x1024.Slices ![640, 0] S128x1024
  inb_S8x64x128_S1x8x128_5_0_0 : ∀ a, (![5, 0, 0] : Fin 3 → Nat) a + S1x8x128.size a ≤ S8x64x128.size a
  slices_S1024x1024_o768_0_S128x1024 : S1024x1024.Slices ![768, 0] S128x1024
  inb_S8x64x128_S1x8x128_6_0_0 : ∀ a, (![6, 0, 0] : Fin 3 → Nat) a + S1x8x128.size a ≤ S8x64x128.size a
  slices_S1024x1024_o896_0_S128x1024 : S1024x1024.Slices ![896, 0] S128x1024
  inb_S8x64x128_S1x8x128_7_0_0 : ∀ a, (![7, 0, 0] : Fin 3 → Nat) a + S1x8x128.size a ≤ S8x64x128.size a
  inb_S64x128x256_S8x128x256_8_0_0 : ∀ a, (![8, 0, 0] : Fin 3 → Nat) a + S8x128x256.size a ≤ S64x128x256.size a
  inb_S8x64x128_S8x1x128_0_8_0 : ∀ a, (![0, 8, 0] : Fin 3 → Nat) a + S8x1x128.size a ≤ S8x64x128.size a
  inb_S8x64x128_S8x1x128_0_9_0 : ∀ a, (![0, 9, 0] : Fin 3 → Nat) a + S8x1x128.size a ≤ S8x64x128.size a
  inb_S8x64x128_S8x1x128_0_10_0 : ∀ a, (![0, 10, 0] : Fin 3 → Nat) a + S8x1x128.size a ≤ S8x64x128.size a
  inb_S8x64x128_S8x1x128_0_11_0 : ∀ a, (![0, 11, 0] : Fin 3 → Nat) a + S8x1x128.size a ≤ S8x64x128.size a
  inb_S8x64x128_S8x1x128_0_12_0 : ∀ a, (![0, 12, 0] : Fin 3 → Nat) a + S8x1x128.size a ≤ S8x64x128.size a
  inb_S8x64x128_S8x1x128_0_13_0 : ∀ a, (![0, 13, 0] : Fin 3 → Nat) a + S8x1x128.size a ≤ S8x64x128.size a
  inb_S8x64x128_S8x1x128_0_14_0 : ∀ a, (![0, 14, 0] : Fin 3 → Nat) a + S8x1x128.size a ≤ S8x64x128.size a
  inb_S8x64x128_S8x1x128_0_15_0 : ∀ a, (![0, 15, 0] : Fin 3 → Nat) a + S8x1x128.size a ≤ S8x64x128.size a
  inb_S8x64x128_S1x8x128_0_8_0 : ∀ a, (![0, 8, 0] : Fin 3 → Nat) a + S1x8x128.size a ≤ S8x64x128.size a
  inb_S8x64x128_S1x8x128_1_8_0 : ∀ a, (![1, 8, 0] : Fin 3 → Nat) a + S1x8x128.size a ≤ S8x64x128.size a
  inb_S8x64x128_S1x8x128_2_8_0 : ∀ a, (![2, 8, 0] : Fin 3 → Nat) a + S1x8x128.size a ≤ S8x64x128.size a
  inb_S8x64x128_S1x8x128_3_8_0 : ∀ a, (![3, 8, 0] : Fin 3 → Nat) a + S1x8x128.size a ≤ S8x64x128.size a
  inb_S8x64x128_S1x8x128_4_8_0 : ∀ a, (![4, 8, 0] : Fin 3 → Nat) a + S1x8x128.size a ≤ S8x64x128.size a
  inb_S8x64x128_S1x8x128_5_8_0 : ∀ a, (![5, 8, 0] : Fin 3 → Nat) a + S1x8x128.size a ≤ S8x64x128.size a
  inb_S8x64x128_S1x8x128_6_8_0 : ∀ a, (![6, 8, 0] : Fin 3 → Nat) a + S1x8x128.size a ≤ S8x64x128.size a
  inb_S8x64x128_S1x8x128_7_8_0 : ∀ a, (![7, 8, 0] : Fin 3 → Nat) a + S1x8x128.size a ≤ S8x64x128.size a
  inb_S64x128x256_S8x128x256_16_0_0 : ∀ a, (![16, 0, 0] : Fin 3 → Nat) a + S8x128x256.size a ≤ S64x128x256.size a
  inb_S8x64x128_S8x1x128_0_16_0 : ∀ a, (![0, 16, 0] : Fin 3 → Nat) a + S8x1x128.size a ≤ S8x64x128.size a
  inb_S8x64x128_S8x1x128_0_17_0 : ∀ a, (![0, 17, 0] : Fin 3 → Nat) a + S8x1x128.size a ≤ S8x64x128.size a
  inb_S8x64x128_S8x1x128_0_18_0 : ∀ a, (![0, 18, 0] : Fin 3 → Nat) a + S8x1x128.size a ≤ S8x64x128.size a
  inb_S8x64x128_S8x1x128_0_19_0 : ∀ a, (![0, 19, 0] : Fin 3 → Nat) a + S8x1x128.size a ≤ S8x64x128.size a
  inb_S8x64x128_S8x1x128_0_20_0 : ∀ a, (![0, 20, 0] : Fin 3 → Nat) a + S8x1x128.size a ≤ S8x64x128.size a
  inb_S8x64x128_S8x1x128_0_21_0 : ∀ a, (![0, 21, 0] : Fin 3 → Nat) a + S8x1x128.size a ≤ S8x64x128.size a
  inb_S8x64x128_S8x1x128_0_22_0 : ∀ a, (![0, 22, 0] : Fin 3 → Nat) a + S8x1x128.size a ≤ S8x64x128.size a
  inb_S8x64x128_S8x1x128_0_23_0 : ∀ a, (![0, 23, 0] : Fin 3 → Nat) a + S8x1x128.size a ≤ S8x64x128.size a
  inb_S8x64x128_S1x8x128_0_16_0 : ∀ a, (![0, 16, 0] : Fin 3 → Nat) a + S1x8x128.size a ≤ S8x64x128.size a
  inb_S8x64x128_S1x8x128_1_16_0 : ∀ a, (![1, 16, 0] : Fin 3 → Nat) a + S1x8x128.size a ≤ S8x64x128.size a
  inb_S8x64x128_S1x8x128_2_16_0 : ∀ a, (![2, 16, 0] : Fin 3 → Nat) a + S1x8x128.size a ≤ S8x64x128.size a
  inb_S8x64x128_S1x8x128_3_16_0 : ∀ a, (![3, 16, 0] : Fin 3 → Nat) a + S1x8x128.size a ≤ S8x64x128.size a
  inb_S8x64x128_S1x8x128_4_16_0 : ∀ a, (![4, 16, 0] : Fin 3 → Nat) a + S1x8x128.size a ≤ S8x64x128.size a
  inb_S8x64x128_S1x8x128_5_16_0 : ∀ a, (![5, 16, 0] : Fin 3 → Nat) a + S1x8x128.size a ≤ S8x64x128.size a
  inb_S8x64x128_S1x8x128_6_16_0 : ∀ a, (![6, 16, 0] : Fin 3 → Nat) a + S1x8x128.size a ≤ S8x64x128.size a
  inb_S8x64x128_S1x8x128_7_16_0 : ∀ a, (![7, 16, 0] : Fin 3 → Nat) a + S1x8x128.size a ≤ S8x64x128.size a
  inb_S64x128x256_S8x128x256_24_0_0 : ∀ a, (![24, 0, 0] : Fin 3 → Nat) a + S8x128x256.size a ≤ S64x128x256.size a
  inb_S8x64x128_S8x1x128_0_24_0 : ∀ a, (![0, 24, 0] : Fin 3 → Nat) a + S8x1x128.size a ≤ S8x64x128.size a
  inb_S8x64x128_S8x1x128_0_25_0 : ∀ a, (![0, 25, 0] : Fin 3 → Nat) a + S8x1x128.size a ≤ S8x64x128.size a
  inb_S8x64x128_S8x1x128_0_26_0 : ∀ a, (![0, 26, 0] : Fin 3 → Nat) a + S8x1x128.size a ≤ S8x64x128.size a
  inb_S8x64x128_S8x1x128_0_27_0 : ∀ a, (![0, 27, 0] : Fin 3 → Nat) a + S8x1x128.size a ≤ S8x64x128.size a
  inb_S8x64x128_S8x1x128_0_28_0 : ∀ a, (![0, 28, 0] : Fin 3 → Nat) a + S8x1x128.size a ≤ S8x64x128.size a
  inb_S8x64x128_S8x1x128_0_29_0 : ∀ a, (![0, 29, 0] : Fin 3 → Nat) a + S8x1x128.size a ≤ S8x64x128.size a
  inb_S8x64x128_S8x1x128_0_30_0 : ∀ a, (![0, 30, 0] : Fin 3 → Nat) a + S8x1x128.size a ≤ S8x64x128.size a
  inb_S8x64x128_S8x1x128_0_31_0 : ∀ a, (![0, 31, 0] : Fin 3 → Nat) a + S8x1x128.size a ≤ S8x64x128.size a
  inb_S8x64x128_S1x8x128_0_24_0 : ∀ a, (![0, 24, 0] : Fin 3 → Nat) a + S1x8x128.size a ≤ S8x64x128.size a
  inb_S8x64x128_S1x8x128_1_24_0 : ∀ a, (![1, 24, 0] : Fin 3 → Nat) a + S1x8x128.size a ≤ S8x64x128.size a
  inb_S8x64x128_S1x8x128_2_24_0 : ∀ a, (![2, 24, 0] : Fin 3 → Nat) a + S1x8x128.size a ≤ S8x64x128.size a
  inb_S8x64x128_S1x8x128_3_24_0 : ∀ a, (![3, 24, 0] : Fin 3 → Nat) a + S1x8x128.size a ≤ S8x64x128.size a
  inb_S8x64x128_S1x8x128_4_24_0 : ∀ a, (![4, 24, 0] : Fin 3 → Nat) a + S1x8x128.size a ≤ S8x64x128.size a
  inb_S8x64x128_S1x8x128_5_24_0 : ∀ a, (![5, 24, 0] : Fin 3 → Nat) a + S1x8x128.size a ≤ S8x64x128.size a
  inb_S8x64x128_S1x8x128_6_24_0 : ∀ a, (![6, 24, 0] : Fin 3 → Nat) a + S1x8x128.size a ≤ S8x64x128.size a
  inb_S8x64x128_S1x8x128_7_24_0 : ∀ a, (![7, 24, 0] : Fin 3 → Nat) a + S1x8x128.size a ≤ S8x64x128.size a
  inb_S64x128x256_S8x128x256_32_0_0 : ∀ a, (![32, 0, 0] : Fin 3 → Nat) a + S8x128x256.size a ≤ S64x128x256.size a
  inb_S8x64x128_S8x1x128_0_32_0 : ∀ a, (![0, 32, 0] : Fin 3 → Nat) a + S8x1x128.size a ≤ S8x64x128.size a
  inb_S8x64x128_S8x1x128_0_33_0 : ∀ a, (![0, 33, 0] : Fin 3 → Nat) a + S8x1x128.size a ≤ S8x64x128.size a
  inb_S8x64x128_S8x1x128_0_34_0 : ∀ a, (![0, 34, 0] : Fin 3 → Nat) a + S8x1x128.size a ≤ S8x64x128.size a
  inb_S8x64x128_S8x1x128_0_35_0 : ∀ a, (![0, 35, 0] : Fin 3 → Nat) a + S8x1x128.size a ≤ S8x64x128.size a
  inb_S8x64x128_S8x1x128_0_36_0 : ∀ a, (![0, 36, 0] : Fin 3 → Nat) a + S8x1x128.size a ≤ S8x64x128.size a
  inb_S8x64x128_S8x1x128_0_37_0 : ∀ a, (![0, 37, 0] : Fin 3 → Nat) a + S8x1x128.size a ≤ S8x64x128.size a
  inb_S8x64x128_S8x1x128_0_38_0 : ∀ a, (![0, 38, 0] : Fin 3 → Nat) a + S8x1x128.size a ≤ S8x64x128.size a
  inb_S8x64x128_S8x1x128_0_39_0 : ∀ a, (![0, 39, 0] : Fin 3 → Nat) a + S8x1x128.size a ≤ S8x64x128.size a
  inb_S8x64x128_S1x8x128_0_32_0 : ∀ a, (![0, 32, 0] : Fin 3 → Nat) a + S1x8x128.size a ≤ S8x64x128.size a
  inb_S8x64x128_S1x8x128_1_32_0 : ∀ a, (![1, 32, 0] : Fin 3 → Nat) a + S1x8x128.size a ≤ S8x64x128.size a
  inb_S8x64x128_S1x8x128_2_32_0 : ∀ a, (![2, 32, 0] : Fin 3 → Nat) a + S1x8x128.size a ≤ S8x64x128.size a
  inb_S8x64x128_S1x8x128_3_32_0 : ∀ a, (![3, 32, 0] : Fin 3 → Nat) a + S1x8x128.size a ≤ S8x64x128.size a
  inb_S8x64x128_S1x8x128_4_32_0 : ∀ a, (![4, 32, 0] : Fin 3 → Nat) a + S1x8x128.size a ≤ S8x64x128.size a
  inb_S8x64x128_S1x8x128_5_32_0 : ∀ a, (![5, 32, 0] : Fin 3 → Nat) a + S1x8x128.size a ≤ S8x64x128.size a
  inb_S8x64x128_S1x8x128_6_32_0 : ∀ a, (![6, 32, 0] : Fin 3 → Nat) a + S1x8x128.size a ≤ S8x64x128.size a
  inb_S8x64x128_S1x8x128_7_32_0 : ∀ a, (![7, 32, 0] : Fin 3 → Nat) a + S1x8x128.size a ≤ S8x64x128.size a
  inb_S64x128x256_S8x128x256_40_0_0 : ∀ a, (![40, 0, 0] : Fin 3 → Nat) a + S8x128x256.size a ≤ S64x128x256.size a
  inb_S8x64x128_S8x1x128_0_40_0 : ∀ a, (![0, 40, 0] : Fin 3 → Nat) a + S8x1x128.size a ≤ S8x64x128.size a
  inb_S8x64x128_S8x1x128_0_41_0 : ∀ a, (![0, 41, 0] : Fin 3 → Nat) a + S8x1x128.size a ≤ S8x64x128.size a
  inb_S8x64x128_S8x1x128_0_42_0 : ∀ a, (![0, 42, 0] : Fin 3 → Nat) a + S8x1x128.size a ≤ S8x64x128.size a
  inb_S8x64x128_S8x1x128_0_43_0 : ∀ a, (![0, 43, 0] : Fin 3 → Nat) a + S8x1x128.size a ≤ S8x64x128.size a
  inb_S8x64x128_S8x1x128_0_44_0 : ∀ a, (![0, 44, 0] : Fin 3 → Nat) a + S8x1x128.size a ≤ S8x64x128.size a
  inb_S8x64x128_S8x1x128_0_45_0 : ∀ a, (![0, 45, 0] : Fin 3 → Nat) a + S8x1x128.size a ≤ S8x64x128.size a
  inb_S8x64x128_S8x1x128_0_46_0 : ∀ a, (![0, 46, 0] : Fin 3 → Nat) a + S8x1x128.size a ≤ S8x64x128.size a
  inb_S8x64x128_S8x1x128_0_47_0 : ∀ a, (![0, 47, 0] : Fin 3 → Nat) a + S8x1x128.size a ≤ S8x64x128.size a
  inb_S8x64x128_S1x8x128_0_40_0 : ∀ a, (![0, 40, 0] : Fin 3 → Nat) a + S1x8x128.size a ≤ S8x64x128.size a
  inb_S8x64x128_S1x8x128_1_40_0 : ∀ a, (![1, 40, 0] : Fin 3 → Nat) a + S1x8x128.size a ≤ S8x64x128.size a
  inb_S8x64x128_S1x8x128_2_40_0 : ∀ a, (![2, 40, 0] : Fin 3 → Nat) a + S1x8x128.size a ≤ S8x64x128.size a
  inb_S8x64x128_S1x8x128_3_40_0 : ∀ a, (![3, 40, 0] : Fin 3 → Nat) a + S1x8x128.size a ≤ S8x64x128.size a
  inb_S8x64x128_S1x8x128_4_40_0 : ∀ a, (![4, 40, 0] : Fin 3 → Nat) a + S1x8x128.size a ≤ S8x64x128.size a
  inb_S8x64x128_S1x8x128_5_40_0 : ∀ a, (![5, 40, 0] : Fin 3 → Nat) a + S1x8x128.size a ≤ S8x64x128.size a
  inb_S8x64x128_S1x8x128_6_40_0 : ∀ a, (![6, 40, 0] : Fin 3 → Nat) a + S1x8x128.size a ≤ S8x64x128.size a
  inb_S8x64x128_S1x8x128_7_40_0 : ∀ a, (![7, 40, 0] : Fin 3 → Nat) a + S1x8x128.size a ≤ S8x64x128.size a
  inb_S64x128x256_S8x128x256_48_0_0 : ∀ a, (![48, 0, 0] : Fin 3 → Nat) a + S8x128x256.size a ≤ S64x128x256.size a
  inb_S8x64x128_S8x1x128_0_48_0 : ∀ a, (![0, 48, 0] : Fin 3 → Nat) a + S8x1x128.size a ≤ S8x64x128.size a
  inb_S8x64x128_S8x1x128_0_49_0 : ∀ a, (![0, 49, 0] : Fin 3 → Nat) a + S8x1x128.size a ≤ S8x64x128.size a
  inb_S8x64x128_S8x1x128_0_50_0 : ∀ a, (![0, 50, 0] : Fin 3 → Nat) a + S8x1x128.size a ≤ S8x64x128.size a
  inb_S8x64x128_S8x1x128_0_51_0 : ∀ a, (![0, 51, 0] : Fin 3 → Nat) a + S8x1x128.size a ≤ S8x64x128.size a
  inb_S8x64x128_S8x1x128_0_52_0 : ∀ a, (![0, 52, 0] : Fin 3 → Nat) a + S8x1x128.size a ≤ S8x64x128.size a
  inb_S8x64x128_S8x1x128_0_53_0 : ∀ a, (![0, 53, 0] : Fin 3 → Nat) a + S8x1x128.size a ≤ S8x64x128.size a
  inb_S8x64x128_S8x1x128_0_54_0 : ∀ a, (![0, 54, 0] : Fin 3 → Nat) a + S8x1x128.size a ≤ S8x64x128.size a
  inb_S8x64x128_S8x1x128_0_55_0 : ∀ a, (![0, 55, 0] : Fin 3 → Nat) a + S8x1x128.size a ≤ S8x64x128.size a
  inb_S8x64x128_S1x8x128_0_48_0 : ∀ a, (![0, 48, 0] : Fin 3 → Nat) a + S1x8x128.size a ≤ S8x64x128.size a
  inb_S8x64x128_S1x8x128_1_48_0 : ∀ a, (![1, 48, 0] : Fin 3 → Nat) a + S1x8x128.size a ≤ S8x64x128.size a
  inb_S8x64x128_S1x8x128_2_48_0 : ∀ a, (![2, 48, 0] : Fin 3 → Nat) a + S1x8x128.size a ≤ S8x64x128.size a
  inb_S8x64x128_S1x8x128_3_48_0 : ∀ a, (![3, 48, 0] : Fin 3 → Nat) a + S1x8x128.size a ≤ S8x64x128.size a
  inb_S8x64x128_S1x8x128_4_48_0 : ∀ a, (![4, 48, 0] : Fin 3 → Nat) a + S1x8x128.size a ≤ S8x64x128.size a
  inb_S8x64x128_S1x8x128_5_48_0 : ∀ a, (![5, 48, 0] : Fin 3 → Nat) a + S1x8x128.size a ≤ S8x64x128.size a
  inb_S8x64x128_S1x8x128_6_48_0 : ∀ a, (![6, 48, 0] : Fin 3 → Nat) a + S1x8x128.size a ≤ S8x64x128.size a
  inb_S8x64x128_S1x8x128_7_48_0 : ∀ a, (![7, 48, 0] : Fin 3 → Nat) a + S1x8x128.size a ≤ S8x64x128.size a
  inb_S64x128x256_S8x128x256_56_0_0 : ∀ a, (![56, 0, 0] : Fin 3 → Nat) a + S8x128x256.size a ≤ S64x128x256.size a
  inb_S8x64x128_S8x1x128_0_56_0 : ∀ a, (![0, 56, 0] : Fin 3 → Nat) a + S8x1x128.size a ≤ S8x64x128.size a
  inb_S8x64x128_S8x1x128_0_57_0 : ∀ a, (![0, 57, 0] : Fin 3 → Nat) a + S8x1x128.size a ≤ S8x64x128.size a
  inb_S8x64x128_S8x1x128_0_58_0 : ∀ a, (![0, 58, 0] : Fin 3 → Nat) a + S8x1x128.size a ≤ S8x64x128.size a
  inb_S8x64x128_S8x1x128_0_59_0 : ∀ a, (![0, 59, 0] : Fin 3 → Nat) a + S8x1x128.size a ≤ S8x64x128.size a
  inb_S8x64x128_S8x1x128_0_60_0 : ∀ a, (![0, 60, 0] : Fin 3 → Nat) a + S8x1x128.size a ≤ S8x64x128.size a
  inb_S8x64x128_S8x1x128_0_61_0 : ∀ a, (![0, 61, 0] : Fin 3 → Nat) a + S8x1x128.size a ≤ S8x64x128.size a
  inb_S8x64x128_S8x1x128_0_62_0 : ∀ a, (![0, 62, 0] : Fin 3 → Nat) a + S8x1x128.size a ≤ S8x64x128.size a
  inb_S8x64x128_S8x1x128_0_63_0 : ∀ a, (![0, 63, 0] : Fin 3 → Nat) a + S8x1x128.size a ≤ S8x64x128.size a
  inb_S8x64x128_S1x8x128_0_56_0 : ∀ a, (![0, 56, 0] : Fin 3 → Nat) a + S1x8x128.size a ≤ S8x64x128.size a
  inb_S8x64x128_S1x8x128_1_56_0 : ∀ a, (![1, 56, 0] : Fin 3 → Nat) a + S1x8x128.size a ≤ S8x64x128.size a
  inb_S8x64x128_S1x8x128_2_56_0 : ∀ a, (![2, 56, 0] : Fin 3 → Nat) a + S1x8x128.size a ≤ S8x64x128.size a
  inb_S8x64x128_S1x8x128_3_56_0 : ∀ a, (![3, 56, 0] : Fin 3 → Nat) a + S1x8x128.size a ≤ S8x64x128.size a
  inb_S8x64x128_S1x8x128_4_56_0 : ∀ a, (![4, 56, 0] : Fin 3 → Nat) a + S1x8x128.size a ≤ S8x64x128.size a
  inb_S8x64x128_S1x8x128_5_56_0 : ∀ a, (![5, 56, 0] : Fin 3 → Nat) a + S1x8x128.size a ≤ S8x64x128.size a
  inb_S8x64x128_S1x8x128_6_56_0 : ∀ a, (![6, 56, 0] : Fin 3 → Nat) a + S1x8x128.size a ≤ S8x64x128.size a
  inb_S8x64x128_S1x8x128_7_56_0 : ∀ a, (![7, 56, 0] : Fin 3 → Nat) a + S1x8x128.size a ≤ S8x64x128.size a
  bcast_S_S64x64x128 : S_.BroadcastsInDim S64x64x128 (![] : Fin 0 → Fin S64x64x128.rank)
  reducesTo_S64x64x128_S64x64_d2 : S64x64x128.ReducesTo [2] S64x64
  h_S_ : 0 < S_.numel
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x128_0_1_2 : S64x64x1.BroadcastsInDim S64x64x128 (![0, 1, 2] : Fin 3 → Fin S64x64x128.rank)
  transposes_S64x64_S64x64_1_0 : S64x64.Transposes [1, 0] S64x64
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  shapeCasts_S64x1_S64 : S64x1.ShapeCasts S64
  reducesTo_S64_S_d0 : S64.ReducesTo [0] S_
  dot_S1024x256_S256x1024_S1024x1024_1_0_0_1_n_n_wf : DotDims.WF S1024x256 S256x1024 S1024x1024 [1] [0] [0] [1] [] []
  gather_S64x64_S64x1x1_S64x1_n_1_0_0_1_2_11_wf : GatherDims.WF S64x64 S64x1x1 S64x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S64x128x256.size a
  hwx0_0 : ∀ i : grid0.Coords, EltTy.bits .f32 = 32 ∨ (Rect.block (s := S64x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128x256.size a ≤ S64x128x256.size a
  hwx0_1 : ∀ i : grid0.Coords, EltTy.bits .f32 = 32 ∨ (Rect.block (s := S64x128x256) S64x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x128.size a ≤ S64x64x128.size a
  hwx0_2 : ∀ i : grid0.Coords, EltTy.bits .f32 = 32 ∨ (Rect.block (s := S64x64x128) S8x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x128.size a ≤ S64x64x128.size a
  hwx0_3 : ∀ i : grid0.Coords, EltTy.bits .f32 = 32 ∨ (Rect.block (s := S64x64x128) S8x64x128.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def gather_S64x64_S64x1x1_S64x1_n_1_0_0_1_2_11 : GatherDims S64x64 S64x1x1 S64x1 where
  offsetDims := []
  collapsedSliceDims := [1]
  operandBatchingDims := [0]
  startIndicesBatchingDims := [0]
  startIndexMap := [1]
  indexVectorDim := 2
  sliceSizes := ![1, 1]
  wf := gather_S64x64_S64x1x1_S64x1_n_1_0_0_1_2_11_wf

abbrev win0_0 : Pipeline.Window sig grid0 :=
  Pipeline.Window.ofSpec (Memref.whole main_arg0) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128x256 : Shape := ⟨3, ![64, 128, 256]⟩
abbrev S_ : Shape := ⟨0, ![]⟩
abbrev S64x128x64x128 : Shape := ⟨4, ![64, 128, 64, 128]⟩
abbrev S64x64x128x128 : Shape := ⟨4, ![64, 64, 128, 128]⟩
abbrev S64x64x128 : Shape := ⟨3, ![64, 64, 128]⟩
abbrev S64x64x128x1 : Shape := ⟨4, ![64, 64, 128, 1]⟩
abbrev S64x64x1x128 : Shape := ⟨4, ![64, 64, 1, 128]⟩
abbrev S64x64 : Shape := ⟨2, ![64, 64]⟩
abbrev S64x64x1 : Shape := ⟨3, ![64, 64, 1]⟩
abbrev S64 : Shape := ⟨1, ![64]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 212
  | .vmem => 0
  | .smem => 0
  | _ => 0

abbrev hbmTy0_0 (i : Nat) : BufTy := match i % 128 with
  | 0 => ⟨S64x128x256, .f32⟩
  | 1 => ⟨S64x128x256, .f32⟩
  | 2 => ⟨S_, .f32⟩
  | 3 => ⟨S64x128x64x128, .f32⟩
  | 4 => ⟨S64x64x128x128, .f32⟩
  | 5 => ⟨S_, .f32⟩
  | 6 => ⟨S64x64x128x128, .f32⟩
  | 7 => ⟨S64x64x128x128, .f32⟩
  | 8 => ⟨S_, .f32⟩
  | 9 => ⟨S64x64x128, .f32⟩
  | 10 => ⟨S_, .f32⟩
  | 11 => ⟨S64x64x128, .f32⟩
  | 12 => ⟨S64x64x128, .f32⟩
  | 13 => ⟨S64x64x128x1, .f32⟩
  | 14 => ⟨S64x64x128x128, .f32⟩
  | 15 => ⟨S64x64x128x128, .f32⟩
  | 16 => ⟨S64x64x128x128, .f32⟩
  | 17 => ⟨S_, .f32⟩
  | 18 => ⟨S64x64x128, .f32⟩
  | 19 => ⟨S64x64x128x1, .f32⟩
  | 20 => ⟨S64x64x128x128, .f32⟩
  | 21 => ⟨S64x64x128x128, .f32⟩
  | 22 => ⟨S64x64x128x128, .f32⟩
  | 23 => ⟨S_, .f32⟩
  | 24 => ⟨S64x64x128, .f32⟩
  | 25 => ⟨S_, .f32⟩
  | 26 => ⟨S64x64x128x128, .f32⟩
  | 27 => ⟨S64x64x128x128, .f32⟩
  | 28 => ⟨S_, .f32⟩
  | 29 => ⟨S64x64x128, .f32⟩
  | 30 => ⟨S_, .f32⟩
  | 31 => ⟨S64x64x128, .f32⟩
  | 32 => ⟨S64x64x128, .f32⟩
  | 33 => ⟨S64x64x1x128, .f32⟩
  | 34 => ⟨S64x64x128x128, .f32⟩
  | 35 => ⟨S64x64x128x128, .f32⟩
  | 36 => ⟨S64x64x128x128, .f32⟩
  | 37 => ⟨S_, .f32⟩
  | 38 => ⟨S64x64x128, .f32⟩
  | 39 => ⟨S64x64x1x128, .f32⟩
  | 40 => ⟨S64x64x128x128, .f32⟩
  | 41 => ⟨S64x64x128x128, .f32⟩
  | 42 => ⟨S64x64x128x128, .f32⟩
  | 43 => ⟨S_, .f32⟩
  | 44 => ⟨S64x64x128, .f32⟩
  | 45 => ⟨S_, .f32⟩
  | 46 => ⟨S64x64x128, .f32⟩
  | 47 => ⟨S64x64x128, .f32⟩
  | 48 => ⟨S_, .f32⟩
  | 49 => ⟨S64x64, .f32⟩
  | 50 => ⟨S_, .f32⟩
  | 51 => ⟨S64x64, .f32⟩
  | 52 => ⟨S64x64, .f32⟩
  | 53 => ⟨S64x64x1, .f32⟩
  | 54 => ⟨S64x64x128, .f32⟩
  | 55 => ⟨S64x64x128, .f32⟩
  | 56 => ⟨S64x64x128, .f32⟩
  | 57 => ⟨S_, .f32⟩
  | 58 => ⟨S64x64, .f32⟩
  | 59 => ⟨S64x64x1, .f32⟩
  | 60 => ⟨S64x64x128, .f32⟩
  | 61 => ⟨S64x64x128, .f32⟩
  | 62 => ⟨S64x64x128, .f32⟩
  | 63 => ⟨S_, .f32⟩
  | 64 => ⟨S64x64, .f32⟩
  | 65 => ⟨S_, .f32⟩
  | 66 => ⟨S64x64x128, .f32⟩
  | 67 => ⟨S64x64x128, .f32⟩
  | 68 => ⟨S_, .f32⟩
  | 69 => ⟨S64x64, .f32⟩
  | 70 => ⟨S_, .f32⟩
  | 71 => ⟨S64x64, .f32⟩
  | 72 => ⟨S64x64, .f32⟩
  | 73 => ⟨S64x64x1, .f32⟩
  | 74 => ⟨S64x64x128, .f32⟩
  | 75 => ⟨S64x64x128, .f32⟩
  | 76 => ⟨S64x64x128, .f32⟩
  | 77 => ⟨S_, .f32⟩
  | 78 => ⟨S64x64, .f32⟩
  | 79 => ⟨S64x64x1, .f32⟩
  | 80 => ⟨S64x64x128, .f32⟩
  | 81 => ⟨S64x64x128, .f32⟩
  | 82 => ⟨S64x64x128, .f32⟩
  | 83 => ⟨S_, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S_, .f32⟩
  | 90 => ⟨S_, .f32⟩
  | 91 => ⟨S64x64, .f32⟩
  | 92 => ⟨S64x64, .f32⟩
  | 93 => ⟨S64x64, .f32⟩
  | 94 => ⟨S64, .i32⟩
  | 95 => ⟨S_, .f32⟩
  | 96 => ⟨S64, .f32⟩
  | 97 => ⟨S_, .f32⟩
  | 98 => ⟨S64, .f32⟩
  | 99 => ⟨S64, .f32⟩
  | 100 => ⟨S64x1, .f32⟩
  | 101 => ⟨S64x64, .f32⟩
  | 102 => ⟨S64x64, .f32⟩
  | 103 => ⟨S64x64, .f32⟩
  | 104 => ⟨S_, .f32⟩
  | 105 => ⟨S64, .f32⟩
  | 106 => ⟨S64x1, .f32⟩
  | 107 => ⟨S64x1, .f32⟩
  | 108 => ⟨S64x64, .f32⟩
  | 109 => ⟨S64x64, .f32⟩
  | 110 => ⟨S64x1, .i32⟩
  | 111 => ⟨S_, .i32⟩
  | 112 => ⟨S64x1, .i32⟩
  | 113 => ⟨S64x1, .i1⟩
  | 114 => ⟨S_, .i32⟩
  | 115 => ⟨S64x1, .i32⟩
  | 116 => ⟨S64x1, .i32⟩
  | 117 => ⟨S64x1, .i32⟩
  | 118 => ⟨S64x1x1, .i32⟩
  | 119 => ⟨S1, .i32⟩
  | 120 => ⟨S_, .i32⟩
  | 121 => ⟨S64x1x1, .i32⟩
  | 122 => ⟨S64x1x1, .i1⟩
  | 123 => ⟨S1x1x1, .i32⟩
  | 124 => ⟨S64x1x1, .i32⟩
  | 125 => ⟨S64x1x1, .i1⟩
  | 126 => ⟨S64x1x1, .i1⟩
  | 127 => ⟨S_, .i1⟩
  | _ => ⟨S64x128x256, .f32⟩

abbrev hbmTy0_1 (i : Nat) : BufTy := match i % 128 with
  | 0 => ⟨S64x1, .i1⟩
  | 1 => ⟨S64x1, .f32⟩
  | 2 => ⟨S_, .f32⟩
  | 3 => ⟨S64x1, .f32⟩
  | 4 => ⟨S64x1, .f32⟩
  | 5 => ⟨S64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | 25 => ⟨S64, .f32⟩
  | 26 => ⟨S_, .f32⟩
  | 27 => ⟨S64, .f32⟩
  | 28 => ⟨S64, .f32⟩
  | 29 => ⟨S64x1, .f32⟩
  | 30 => ⟨S64x64, .f32⟩
  | 31 => ⟨S64x64, .f32⟩
  | 32 => ⟨S64x64, .f32⟩
  | 33 => ⟨S_, .f32⟩
  | 34 => ⟨S64, .f32⟩
  | 35 => ⟨S64x1, .f32⟩
  | 36 => ⟨S64x1, .f32⟩
  | 37 => ⟨S64x64, .f32⟩
  | 38 => ⟨S64x64, .f32⟩
  | 39 => ⟨S64x1, .i32⟩
  | 40 => ⟨S_, .i32⟩
  | 41 => ⟨S64x1, .i32⟩
  | 42 => ⟨S64x1, .i1⟩
  | 43 => ⟨S_, .i32⟩
  | 44 => ⟨S64x1, .i32⟩
  | 45 => ⟨S64x1, .i32⟩
  | 46 => ⟨S64x1, .i32⟩
  | 47 => ⟨S64x1x1, .i32⟩
  | 48 => ⟨S1, .i32⟩
  | 49 => ⟨S_, .i32⟩
  | 50 => ⟨S64x1x1, .i32⟩
  | 51 => ⟨S64x1x1, .i1⟩
  | 52 => ⟨S1x1x1, .i32⟩
  | 53 => ⟨S64x1x1, .i32⟩
  | 54 => ⟨S64x1x1, .i1⟩
  | 55 => ⟨S64x1x1, .i1⟩
  | 56 => ⟨S_, .i1⟩
  | 57 => ⟨S64x1, .i1⟩
  | 58 => ⟨S64x1, .f32⟩
  | 59 => ⟨S_, .f32⟩
  | 60 => ⟨S64x1, .f32⟩
  | 61 => ⟨S64x1, .f32⟩
  | 62 => ⟨S64, .f32⟩
  | 63 => ⟨S64, .f32⟩
  | 64 => ⟨S_, .f32⟩
  | 65 => ⟨S64, .f32⟩
  | 66 => ⟨S_, .f32⟩
  | 67 => ⟨S64, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S64, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S64x128x256, .f32⟩

abbrev hbmTy (i : Nat) : BufTy := match i / 128 with
  | 0 => hbmTy0_0 i
  | 1 => hbmTy0_1 i
  | _ => ⟨S64x128x256, .f32⟩

abbrev bufTy : (tb : Table) → Fin (tcTables nBuf tb) → BufTy
  | .hbm, ⟨i, _⟩ => hbmTy i
  | _, _ => ⟨S64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_cst_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_18 : Ref sig .tc := ⟨.hbm, 83, rfl⟩
abbrev main_v61 : Ref sig .tc := ⟨.hbm, 84, rfl⟩
abbrev main_v62 : Ref sig .tc := ⟨.hbm, 85, rfl⟩
abbrev main_cst_19 : Ref sig .tc := ⟨.hbm, 86, rfl⟩
abbrev main_v63 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call0_cst : Ref sig .tc := ⟨.hbm, 95, rfl⟩
abbrev main_call0_v0 : Ref sig .tc := ⟨.hbm, 96, rfl⟩
abbrev main_call0_cst_0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_cst_1 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_v70 : Ref sig .tc := ⟨.hbm, 109, rfl⟩
abbrev main_v71 : Ref sig .tc := ⟨.hbm, 110, rfl⟩
abbrev main_call1_c : Ref sig .tc := ⟨.hbm, 111, rfl⟩
abbrev main_call1_v0 : Ref sig .tc := ⟨.hbm, 112, rfl⟩
abbrev main_call1_v1 : Ref sig .tc := ⟨.hbm, 113, rfl⟩
abbrev main_call1_c_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_c_1 : Ref sig .tc := ⟨.hbm, 119, rfl⟩
abbrev main_call1_c_2 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_c_3 : Ref sig .tc := ⟨.hbm, 127, rfl⟩
abbrev main_call1_v12 : Ref sig .tc := ⟨.hbm, 128, rfl⟩
abbrev main_call1_v13 : Ref sig .tc := ⟨.hbm, 129, rfl⟩
abbrev main_call1_cst : Ref sig .tc := ⟨.hbm, 130, rfl⟩
abbrev main_call1_v14 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_21 : Ref sig .tc := ⟨.hbm, 135, rfl⟩
abbrev main_v75 : Ref sig .tc := ⟨.hbm, 136, rfl⟩
abbrev main_cst_22 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_23 : Ref sig .tc := ⟨.hbm, 141, rfl⟩
abbrev main_v79 : Ref sig .tc := ⟨.hbm, 142, rfl⟩
abbrev main_v80 : Ref sig .tc := ⟨.hbm, 143, rfl⟩
abbrev main_cst_24 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_25 : Ref sig .tc := ⟨.hbm, 148, rfl⟩
abbrev main_v84 : Ref sig .tc := ⟨.hbm, 149, rfl⟩
abbrev main_cst_26 : Ref sig .tc := ⟨.hbm, 150, rfl⟩
abbrev main_v85 : Ref sig .tc := ⟨.hbm, 151, rfl⟩
abbrev main_call2_cst : Ref sig .tc := ⟨.hbm, 152, rfl⟩
abbrev main_call2_v0 : Ref sig .tc := ⟨.hbm, 153, rfl⟩
abbrev main_call2_cst_0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_cst_1 : Ref sig .tc := ⟨.hbm, 161, rfl⟩
abbrev main_call2_v7 : Ref sig .tc := ⟨.hbm, 162, rfl⟩
abbrev main_call2_v8 : Ref sig .tc := ⟨.hbm, 163, rfl⟩
abbrev main_call2_v9 : Ref sig .tc := ⟨.hbm, 164, rfl⟩
abbrev main_call2_v10 : Ref sig .tc := ⟨.hbm, 165, rfl⟩
abbrev main_v86 : Ref sig .tc := ⟨.hbm, 166, rfl⟩
abbrev main_v87 : Ref sig .tc := ⟨.hbm, 167, rfl⟩
abbrev main_call3_c : Ref sig .tc := ⟨.hbm, 168, rfl⟩
abbrev main_call3_v0 : Ref sig .tc := ⟨.hbm, 169, rfl⟩
abbrev main_call3_v1 : Ref sig .tc := ⟨.hbm, 170, rfl⟩
abbrev main_call3_c_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_c_1 : Ref sig .tc := ⟨.hbm, 176, rfl⟩
abbrev main_call3_c_2 : Ref sig .tc := ⟨.hbm, 177, rfl⟩
abbrev main_call3_v6 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_c_3 : Ref sig .tc := ⟨.hbm, 184, rfl⟩
abbrev main_call3_v12 : Ref sig .tc := ⟨.hbm, 185, rfl⟩
abbrev main_call3_v13 : Ref sig .tc := ⟨.hbm, 186, rfl⟩
abbrev main_call3_cst : Ref sig .tc := ⟨.hbm, 187, rfl⟩
abbrev main_call3_v14 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_cst_27 : Ref sig .tc := ⟨.hbm, 192, rfl⟩
abbrev main_v91 : Ref sig .tc := ⟨.hbm, 193, rfl⟩
abbrev main_cst_28 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_cst_29 : Ref sig .tc := ⟨.hbm, 198, rfl⟩
abbrev main_v95 : Ref sig .tc := ⟨.hbm, 199, rfl⟩
abbrev main_v96 : Ref sig .tc := ⟨.hbm, 200, rfl⟩
abbrev main_cst_30 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_cst_31 : Ref sig .tc := ⟨.hbm, 205, rfl⟩
abbrev main_v100 : Ref sig .tc := ⟨.hbm, 206, rfl⟩
abbrev main_cst_32 : Ref sig .tc := ⟨.hbm, 207, rfl⟩
abbrev main_v101 : Ref sig .tc := ⟨.hbm, 208, rfl⟩
abbrev main_v102 : Ref sig .tc := ⟨.hbm, 209, rfl⟩
abbrev main_cst_33 : Ref sig .tc := ⟨.hbm, 210, rfl⟩
abbrev main_v103 : Ref sig .tc := ⟨.hbm, 211, rfl⟩

abbrev nD : Nat := 1
abbrev τ : Topo := Topo.v7x

variable {F : FTy → Type} [FloatOps F]

class Facts₀ : Prop where
  transposes_S64x128x64x128_S64x64x128x128_2_0_3_1 : S64x128x64x128.Transposes [2, 0, 3, 1] S64x64x128x128
  bcast_S_S64x64x128x128 : S_.BroadcastsInDim S64x64x128x128 (![] : Fin 0 → Fin S64x64x128x128.rank)
  reducesTo_S64x64x128x128_S64x64x128_d3 : S64x64x128x128.ReducesTo [3] S64x64x128
  h_S_ : 0 < S_.numel
  bcast_S_S64x64x128 : S_.BroadcastsInDim S64x64x128 (![] : Fin 0 → Fin S64x64x128.rank)
  bcast_S64x64x128_S64x64x128x1_0_1_2 : S64x64x128.BroadcastsInDim S64x64x128x1 (![0, 1, 2] : Fin 3 → Fin S64x64x128x1.rank)
  bcast_S64x64x128x1_S64x64x128x128_0_1_2_3 : S64x64x128x1.BroadcastsInDim S64x64x128x128 (![0, 1, 2, 3] : Fin 4 → Fin S64x64x128x128.rank)
  reducesTo_S64x64x128x128_S64x64x128_d2 : S64x64x128x128.ReducesTo [2] S64x64x128
  bcast_S64x64x128_S64x64x1x128_0_1_3 : S64x64x128.BroadcastsInDim S64x64x1x128 (![0, 1, 3] : Fin 3 → Fin S64x64x1x128.rank)
  bcast_S64x64x1x128_S64x64x128x128_0_1_2_3 : S64x64x1x128.BroadcastsInDim S64x64x128x128 (![0, 1, 2, 3] : Fin 4 → Fin S64x64x128x128.rank)
  reducesTo_S64x64x128_S64x64_d2 : S64x64x128.ReducesTo [2] S64x64
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x128_0_1_2 : S64x64x1.BroadcastsInDim S64x64x128 (![0, 1, 2] : Fin 3 → Fin S64x64x128.rank)
  transposes_S64x64_S64x64_1_0 : S64x64.Transposes [1, 0] S64x64
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  shapeCasts_S64x1_S64 : S64x1.ShapeCasts S64
  reducesTo_S64_S_d0 : S64.ReducesTo [0] S_
  dot_S64x128x256_S64x128x256_S64x128x64x128_2_2_01_01_n_n_wf : DotDims.WF S64x128x256 S64x128x256 S64x128x64x128 [2] [2] [0, 1] [0, 1] [] []
  gather_S64x64_S64x1x1_S64x1_n_1_0_0_1_2_11_wf : GatherDims.WF S64x64 S64x1x1 S64x1 [] [1] [0] [1] [0] 2 ![1, 1]

variable [Facts₀]

def dot_S64x128x256_S64x128x256_S64x128x64x128_2_2_01_01_n_n : DotDims S64x128x256 S64x128x256 S64x128x64x128 where
  lhsContracting := [2]
  rhsContracting := [2]
  lhsNonContracting := [0, 1]
  rhsNonContracting := [0, 1]
  lhsBatch := []
  rhsBatch := []
  wf := dot_S64x128x256_S64x128x256_S64x128x64x128_2_2_01_01_n_n_wf
def gather_S64x64_S64x1x1_S64x1_n_1_0_0_1_2_11 : GatherDims S64x64 S64x1x1 S64x1 where
  offsetDims := []
  collapsedSliceDims := [1]
  operandBatchingDims := [0]
  startIndicesBatchingDims := [0]
  startIndexMap := [1]
  indexVectorDim := 2
  sliceSizes := ![1, 1]
  wf := gather_S64x64_S64x1x1_S64x1_n_1_0_0_1_2_11_wf

class Facts : Prop extends Facts₀ where

variable [Facts]
-- ==== Proof.BitsBodyRun.lean ====
/-
  The kernel body as one Hoare triple, at any float instance.

  One call of the body works on four whole staging buffers: a block of 8 video clips (8 × 128 × 256), all 64 wifi
  clips (64 × 128 × 256), and two output blocks of shape 8 × 64 × 128.  It reads the two inputs, and writes each
  output block by 64 slice stores (rows `[:, 8·jc + j, :]` of the first, slabs `[i, 8·jc : 8·jc + 8, :]` of the
  second), each store preceded by a load of the slice it is about to overwrite, whose value is not used.  The
  triple says: the inputs are handed back as they were, and each output buffer ends as its previous contents
  overwritten by a list of pieces (last store first).  The two lists are not written here: they are the
  witnesses the symbolic run of the body finds.
-/
import proofs.«176710_j10599979286745_2_alg».proof.Proof.Gen.Kernel.Launch
import proofs.«176710_j10599979286745_2_alg».proof.Proof.Gen.Kernel.Skeleton
import proofs.«176710_j10599979286745_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in each output buffer (last store first), with the proof that the body,
    started on whole buffers holding `x0`, `x1` and anything in the two outputs, ends holding the inputs unchanged
    and each output overwritten by its pieces. -/
noncomputable def kernelRun (c : Dev nD) (i : grid0.Coords)
    (arg1 : Memref sig .tc .vmem S8x128x256 .f32) (harg1 : arg1.IsWhole)
    (arg2 : Memref sig .tc .vmem S64x128x256 .f32) (harg2 : arg2.IsWhole)
    (arg3 : Memref sig .tc .vmem S8x64x128 .f32) (harg3 : arg3.IsWhole)
    (arg4 : Memref sig .tc .vmem S8x64x128 .f32) (harg4 : arg4.IsWhole)
    (x0 : Vec F S8x128x256 .f32) (x1 : Vec F S64x128x256 .f32) :
    Σ' (L2 : List (View.Piece (Elt F) S8x64x128 .f32)), { L3 : List (View.Piece (Elt F) S8x64x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E
              (cc0__clip_sim_kernel i arg1 harg1 arg2 harg2 arg3 harg3 arg4 harg4) K } := by
  refine ⟨?_, ?_, fun E K => ?run⟩
  case run =>
    simp only [cc0__clip_sim_kernel_eq_skeleton]; unfold cc0__clip_sim_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.BitsTail.lean ====
/-
  The host operations after the kernel launch, as a list of nine stretches (167 operations), and what the launch
  theorem needs to know of them: each operation touches only unscoped buffers of the core, allocates nothing, and
  writes exactly one buffer — its own result — which is never one of the three arguments nor one of the two arrays
  the kernel produces.  So those five buffers hold after the host operations what they held before them, and the
  program is the launch followed by the nine stretches.
-/
import proofs.«176710_j10599979286745_2_alg».proof.Proof.Gen.Kernel.Launch
import proofs.«176710_j10599979286745_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the launch -/

/-- The nine stretches of host operations after the launch, in order. -/
abbrev tailOps : List (List (HloOp τ sig (Elt F))) :=
  [hostOps1, hostOps1_1, hostOps1_2, hostOps1_3, hostOps1_4, hostOps1_5, hostOps1_6, hostOps1_7, hostOps1_8]

/-- The buffers' contents when the launch begins: as the program was started (no host operation precedes it). -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The buffers no host operation after the launch may write: the three arguments and the two result arrays. -/
abbrev keptRefs : List (Ref sig .tc) := [main_arg0, main_arg1, main_arg2, main_v0_0, main_v0_1]

/-- An operation writes none of the five kept buffers. -/
abbrev Apart (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_v0_0 ∉ op.writes
    ∧ Proc.devRef (τ := τ) .tc main_v0_1 ∉ op.writes

theorem Apart.mem {op : HloOp τ sig (Elt F)} (h : Apart op) : ∀ r ∈ keptRefs, Proc.devRef (τ := τ) .tc r ∉ op.writes := by
  intro r hr
  obtain ⟨h0, h1, h2, h3, h4⟩ := h
  have hr' : r = main_arg0 ∨ r = main_arg1 ∨ r = main_arg2 ∨ r = main_v0_0 ∨ r = main_v0_1 := by
    simpa [keptRefs] using hr
  rcases hr' with e | e | e | e | e <;> rw [e] <;> assumption

/-- Every operation writes one buffer, its own result, which is none of the kept ones. -/
local macro "apart_tac" : tactic => `(tactic| (
  simp only [List.Forall]
  repeat' apply And.intro
  all_goals exact fun h => StableHlo.devRef_ne_of_ne (by decide) (Finset.mem_singleton.mp h)))

theorem hostOps1_apart : (hostOps1 : List (HloOp τ sig (Elt F))).Forall Apart := by apart_tac
theorem hostOps1_1_apart : (hostOps1_1 : List (HloOp τ sig (Elt F))).Forall Apart := by apart_tac
theorem hostOps1_2_apart : (hostOps1_2 : List (HloOp τ sig (Elt F))).Forall Apart := by apart_tac
theorem hostOps1_3_apart : (hostOps1_3 : List (HloOp τ sig (Elt F))).Forall Apart := by apart_tac
theorem hostOps1_4_apart : (hostOps1_4 : List (HloOp τ sig (Elt F))).Forall Apart := by apart_tac
theorem hostOps1_5_apart : (hostOps1_5 : List (HloOp τ sig (Elt F))).Forall Apart := by apart_tac
theorem hostOps1_6_apart : (hostOps1_6 : List (HloOp τ sig (Elt F))).Forall Apart := by apart_tac
theorem hostOps1_7_apart : (hostOps1_7 : List (HloOp τ sig (Elt F))).Forall Apart := by apart_tac
theorem hostOps1_8_apart : (hostOps1_8 : List (HloOp τ sig (Elt F))).Forall Apart := by apart_tac

theorem tail_apart : ∀ ops ∈ (tailOps : List (List (HloOp τ sig (Elt F)))), ∀ op ∈ ops,
    ∀ r ∈ keptRefs, Proc.devRef (τ := τ) .tc r ∉ op.writes := by
  intro ops hops op hop
  simp only [List.mem_cons, List.mem_nil_iff, _root_.or_false] at hops
  rcases hops with rfl | rfl | rfl | rfl | rfl | rfl | rfl | rfl | rfl
  · exact ((List.forall_iff_forall_mem.mp hostOps1_apart) op hop).mem
  · exact ((List.forall_iff_forall_mem.mp hostOps1_1_apart) op hop).mem
  · exact ((List.forall_iff_forall_mem.mp hostOps1_2_apart) op hop).mem
  · exact ((List.forall_iff_forall_mem.mp hostOps1_3_apart) op hop).mem
  · exact ((List.forall_iff_forall_mem.mp hostOps1_4_apart) op hop).mem
  · exact ((List.forall_iff_forall_mem.mp hostOps1_5_apart) op hop).mem
  · exact ((List.forall_iff_forall_mem.mp hostOps1_6_apart) op hop).mem
  · exact ((List.forall_iff_forall_mem.mp hostOps1_7_apart) op hop).mem
  · exact ((List.forall_iff_forall_mem.mp hostOps1_8_apart) op hop).mem

/-- The program is the launch followed by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-- The host operations touch only unscoped buffers of the core. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, _root_.or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, _root_.or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Each of the pipeline's four arrays is a kept buffer. -/
theorem arrRef_kept (w : Fin 4) : Pipeline.arrRef spec0 w ∈ keptRefs := by
  fin_cases w <;> decide

/-- And they write none of the pipeline's four arrays. -/
theorem sfx_keeps : ∀ ops ∈ (tailOps : List (List (HloOp τ sig (Elt F)))), ∀ op ∈ ops,
    ∀ w, Proc.devRef .tc (Pipeline.arrRef spec0 w) ∉ op.writes :=
  fun ops hops op hop w => tail_apart ops hops op hop _ (arrRef_kept w)

/-- A kept buffer holds after the host operations what it held before them. -/
theorem tail_keeps (Wv : Valuation τ sig (Elt F)) (r : Ref sig .tc) (hr : r ∈ keptRefs) :
    StableHlo.after (tailOps (F := F)).flatten Wv (Proc.devRef .tc r) = Wv (Proc.devRef .tc r) :=
  StableHlo.after_of_forall_not_mem _ _ fun op hop => by
    obtain ⟨ops, hops, hop'⟩ := List.mem_flatten.mp hop
    exact tail_apart ops hops op hop' r hr

end Cert.Kernel.Hand

end
-- ==== Proof.BitsFrame.lean ====
/-
  The whole program run: the kernel launched over its grid of 8 points, followed by the 167 host operations that
  turn the kernel's two result arrays into the scalar loss.

  The launch is a pipeline over four arrays: the two argument arrays (blocks of 8 video clips per point; all the
  wifi clips, fetched once) and the two result arrays (one 8 × 64 × 128 block per point each).  At every point the
  body finds the two input blocks in its staging buffers and leaves in each output buffer the pieces its stores
  wrote, which tile the buffer, so the buffer reads back as the pieces alone.  The host operations after the
  launch read the two result arrays and the scalar argument, write only buffers of their own, and therefore leave
  the three arguments and the two result arrays as the launch left them.  Hence: the program terminates without
  a fault, the three arguments end unchanged, and the result buffer holds the host operations' value on the two
  arrays the launch produced.
-/
import proofs.«176710_j10599979286745_2_alg».proof.Proof.BitsBodyRun
import proofs.«176710_j10599979286745_2_alg».proof.Proof.BitsTail
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not
    fetched the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- One staging buffer of each output window, through which its contents are stated. -/
abbrev VO2 : View sig .tc .vmem S8x64x128 .f32 := (Memref.whole cc0_stg2_0 : Memref sig .tc .vmem S8x64x128 .f32).view
abbrev VO3 : View sig .tc .vmem S8x64x128 .f32 := (Memref.whole cc0_stg3_0 : Memref sig .tc .vmem S8x64x128 .f32).view

/-- Each window's current staging buffer at point `t`. -/
abbrev ms0 (t : Fin cfg0.N) : Memref sig .tc .vmem S8x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x64x128 .f32 := win0_3.stage (cfg0.slots t 3)
abbrev hs3 (t : Fin cfg0.N) : (ms3 t).IsWhole := hstage0_3 ((cfg0.slots t 3).cast nbuf0_3)

/-- The 64 row stores into the first output tile its 8 × 64 × 128 block, so they cover it. -/
theorem cover2 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) (y : S8x64x128.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S8x1x128.size (by sl_kernel_rfl) y

/-- The 64 slab stores into the second output tile its block too. -/
theorem cover3 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) (y : S8x64x128.Idx) :
    ∃ pc ∈ (kernelRun c i arg1 harg1 arg2 harg2 arg3 harg3 arg4 harg4 x0 x1).2.1, y ∈ pc.1.set :=
  View.cover_of_tiledL (kernelRun c i arg1 harg1 arg2 harg2 arg3 harg3 arg4 harg4 x0 x1).2.1 S1x8x128.size (by sl_kernel_rfl) y

/-- What the body leaves in each output buffer: its pieces read back (over anything: they cover the buffer). -/
def out2 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) : Vec F S8x64x128 .f32 :=
  VO2.read (Elt F) (VO2.writes (Elt F) VO2.junk (kernelRun c i arg1 harg1 arg2 harg2 arg3 harg3 arg4 harg4 x0 x1).1)
def out3 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) : Vec F S8x64x128 .f32 :=
  VO3.read (Elt F) (VO3.writes (Elt F) VO3.junk (kernelRun c i arg1 harg1 arg2 harg2 arg3 harg3 arg4 harg4 x0 x1).2.1)

/-- The same at grid point `t`: the body run on the point's staging buffers and input blocks. -/
def outAt2 (c : Dev nD) (t : Fin cfg0.N) : Vec F S8x64x128 .f32 :=
  out2 c (grid0.coords t) (ms0 t) (hs0 t) (ms1 t) (hs1 t) (ms2 t) (hs2 t) (ms3 t) (hs3 t) (iblk m c 0 t) (iblk m c 1 t)
def outAt3 (c : Dev nD) (t : Fin cfg0.N) : Vec F S8x64x128 .f32 :=
  out3 c (grid0.coords t) (ms0 t) (hs0 t) (ms1 t) (hs1 t) (ms2 t) (hs2 t) (ms3 t) (hs3 t) (iblk m c 0 t) (iblk m c 1 t)

/-! ## The pipeline's proof data -/

/-- The arrays as the launch finds them; after the body at point `t` each input buffer at its block and each
    output buffer at what the body left; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt2 m c t
    | ⟨3, _⟩ => outAt3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt2 m c t := by dsimp only [dats]
theorem after3 (c : Dev nD) (t : Fin cfg0.N) : (dats m 0 c).after 3 t = outAt3 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at any point: the inputs' buffers hold their blocks, so the body's triple applies; the pieces it
    leaves cover each output buffer, which therefore reads back as the pieces alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  unfold outAt2 outAt3 out2 out3
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover2 c _ _ _ _ _ _ _ _ _ _ _)
  · unfold owns; iexists _; isplitr
    swap; · iexact H3
    ipureintro; exact View.read_writes_of_cover _ _ _ _ _ (cover3 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the pipeline's four
    arrays holds what the launch computed and every other unscoped buffer what the host operations computed from
    them. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- A kept buffer that is no array of the pipeline ends as the program was started. -/
theorem tail_arg2 (c : Dev nD) :
    Pipeline.afterTail₀ cfgs (dats m) 0 (V0 m) tailOps c main_arg2 = m ((c : Thread nD τ).loc main_arg2) := by
  unfold Pipeline.afterTail₀
  rw [tail_keeps _ main_arg2 (by decide),
    Pipeline.withArrays_of_ne _ c (V0 m c) _ main_arg2 (by exact (by decide : ∀ w, Pipeline.arrRef spec0 w ≠ main_arg2))]
  rfl

/-- THE RUN with its post spelled out: the result buffer at the host operations' value, the three arguments unchanged. -/
theorem run_result : θ_run defs (onTc (τ := τ) (main (F := F))) ⟨m, fun _ => 0, ρ⟩ (fun r => ∀ c : Dev nD,
      r.2.mem ((c.tc : Thread nD τ).loc main_v72) = Pipeline.afterTail₀ cfgs (dats m) 0 (V0 m) tailOps c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v72 (Pipeline.mem_restRefs_of main_v72 (by decide) (by decide)),
     ((h c).1 0).trans (((dats m 0 c).arrAt_in 0 rfl _).trans ((A_eq m c 0).trans (V_eq m c main_arg0))),
     ((h c).1 1).trans (((dats m 0 c).arrAt_in 1 rfl _).trans ((A_eq m c 1).trans (V_eq m c main_arg1))),
     ((h c).2 main_arg2 (Pipeline.mem_restRefs_of main_arg2 (by decide) (by decide))).trans (tail_arg2 m c)⟩) (run_main m ρ)

/-- THE FRAME: the program runs and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.IdealBodyRun.lean ====
/-
  The kernel body as one Hoare triple, at any float instance.

  One call of the body works on four whole staging buffers: a block of 8 video clips (8 × 128 × 256), all 64 wifi
  clips (64 × 128 × 256), and two output blocks of shape 8 × 64 × 128.  It reads the two inputs, and writes each
  output block by 64 slice stores (rows `[:, 8·jc + j, :]` of the first, slabs `[i, 8·jc : 8·jc + 8, :]` of the
  second), each store preceded by a load of the slice it is about to overwrite, whose value is not used.  The
  triple says: the inputs are handed back as they were, and each output buffer ends as its previous contents
  overwritten by a list of pieces (last store first).  The two lists are not written here: they are the
  witnesses the symbolic run of the body finds.
-/
import proofs.«176710_j10599979286745_2_alg».proof.Proof.Gen.KernelIdeal.Launch
import proofs.«176710_j10599979286745_2_alg».proof.Proof.Gen.KernelIdeal.Skeleton
import proofs.«176710_j10599979286745_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in each output buffer (last store first), with the proof that the body,
    started on whole buffers holding `x0`, `x1` and anything in the two outputs, ends holding the inputs unchanged
    and each output overwritten by its pieces. -/
noncomputable def kernelRun (c : Dev nD) (i : grid0.Coords)
    (arg1 : Memref sig .tc .vmem S8x128x256 .f32) (harg1 : arg1.IsWhole)
    (arg2 : Memref sig .tc .vmem S64x128x256 .f32) (harg2 : arg2.IsWhole)
    (arg3 : Memref sig .tc .vmem S8x64x128 .f32) (harg3 : arg3.IsWhole)
    (arg4 : Memref sig .tc .vmem S8x64x128 .f32) (harg4 : arg4.IsWhole)
    (x0 : Vec F S8x128x256 .f32) (x1 : Vec F S64x128x256 .f32) :
    Σ' (L2 : List (View.Piece (Elt F) S8x64x128 .f32)), { L3 : List (View.Piece (Elt F) S8x64x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E
              (cc0__clip_sim_kernel i arg1 harg1 arg2 harg2 arg3 harg3 arg4 harg4) K } := by
  refine ⟨?_, ?_, fun E K => ?run⟩
  case run =>
    simp only [cc0__clip_sim_kernel_eq_skeleton]; unfold cc0__clip_sim_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.IdealTail.lean ====
/-
  The host operations after the kernel launch, as a list of nine stretches (167 operations), and what the launch
  theorem needs to know of them: each operation touches only unscoped buffers of the core, allocates nothing, and
  writes exactly one buffer — its own result — which is never one of the three arguments nor one of the two arrays
  the kernel produces.  So those five buffers hold after the host operations what they held before them, and the
  program is the launch followed by the nine stretches.
-/
import proofs.«176710_j10599979286745_2_alg».proof.Proof.Gen.KernelIdeal.Launch
import proofs.«176710_j10599979286745_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the launch -/

/-- The nine stretches of host operations after the launch, in order. -/
abbrev tailOps : List (List (HloOp τ sig (Elt F))) :=
  [hostOps1, hostOps1_1, hostOps1_2, hostOps1_3, hostOps1_4, hostOps1_5, hostOps1_6, hostOps1_7, hostOps1_8]

/-- The buffers' contents when the launch begins: as the program was started (no host operation precedes it). -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The buffers no host operation after the launch may write: the three arguments and the two result arrays. -/
abbrev keptRefs : List (Ref sig .tc) := [main_arg0, main_arg1, main_arg2, main_v0_0, main_v0_1]

/-- An operation writes none of the five kept buffers. -/
abbrev Apart (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_v0_0 ∉ op.writes
    ∧ Proc.devRef (τ := τ) .tc main_v0_1 ∉ op.writes

theorem Apart.mem {op : HloOp τ sig (Elt F)} (h : Apart op) : ∀ r ∈ keptRefs, Proc.devRef (τ := τ) .tc r ∉ op.writes := by
  intro r hr
  obtain ⟨h0, h1, h2, h3, h4⟩ := h
  have hr' : r = main_arg0 ∨ r = main_arg1 ∨ r = main_arg2 ∨ r = main_v0_0 ∨ r = main_v0_1 := by
    simpa [keptRefs] using hr
  rcases hr' with e | e | e | e | e <;> rw [e] <;> assumption

/-- Every operation writes one buffer, its own result, which is none of the kept ones. -/
local macro "apart_tac" : tactic => `(tactic| (
  simp only [List.Forall]
  repeat' apply And.intro
  all_goals exact fun h => StableHlo.devRef_ne_of_ne (by decide) (Finset.mem_singleton.mp h)))

theorem hostOps1_apart : (hostOps1 : List (HloOp τ sig (Elt F))).Forall Apart := by apart_tac
theorem hostOps1_1_apart : (hostOps1_1 : List (HloOp τ sig (Elt F))).Forall Apart := by apart_tac
theorem hostOps1_2_apart : (hostOps1_2 : List (HloOp τ sig (Elt F))).Forall Apart := by apart_tac
theorem hostOps1_3_apart : (hostOps1_3 : List (HloOp τ sig (Elt F))).Forall Apart := by apart_tac
theorem hostOps1_4_apart : (hostOps1_4 : List (HloOp τ sig (Elt F))).Forall Apart := by apart_tac
theorem hostOps1_5_apart : (hostOps1_5 : List (HloOp τ sig (Elt F))).Forall Apart := by apart_tac
theorem hostOps1_6_apart : (hostOps1_6 : List (HloOp τ sig (Elt F))).Forall Apart := by apart_tac
theorem hostOps1_7_apart : (hostOps1_7 : List (HloOp τ sig (Elt F))).Forall Apart := by apart_tac
theorem hostOps1_8_apart : (hostOps1_8 : List (HloOp τ sig (Elt F))).Forall Apart := by apart_tac

theorem tail_apart : ∀ ops ∈ (tailOps : List (List (HloOp τ sig (Elt F)))), ∀ op ∈ ops,
    ∀ r ∈ keptRefs, Proc.devRef (τ := τ) .tc r ∉ op.writes := by
  intro ops hops op hop
  simp only [List.mem_cons, List.mem_nil_iff, _root_.or_false] at hops
  rcases hops with rfl | rfl | rfl | rfl | rfl | rfl | rfl | rfl | rfl
  · exact ((List.forall_iff_forall_mem.mp hostOps1_apart) op hop).mem
  · exact ((List.forall_iff_forall_mem.mp hostOps1_1_apart) op hop).mem
  · exact ((List.forall_iff_forall_mem.mp hostOps1_2_apart) op hop).mem
  · exact ((List.forall_iff_forall_mem.mp hostOps1_3_apart) op hop).mem
  · exact ((List.forall_iff_forall_mem.mp hostOps1_4_apart) op hop).mem
  · exact ((List.forall_iff_forall_mem.mp hostOps1_5_apart) op hop).mem
  · exact ((List.forall_iff_forall_mem.mp hostOps1_6_apart) op hop).mem
  · exact ((List.forall_iff_forall_mem.mp hostOps1_7_apart) op hop).mem
  · exact ((List.forall_iff_forall_mem.mp hostOps1_8_apart) op hop).mem

/-- The program is the launch followed by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-- The host operations touch only unscoped buffers of the core. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, _root_.or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, _root_.or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- Each of the pipeline's four arrays is a kept buffer. -/
theorem arrRef_kept (w : Fin 4) : Pipeline.arrRef spec0 w ∈ keptRefs := by
  fin_cases w <;> decide

/-- And they write none of the pipeline's four arrays. -/
theorem sfx_keeps : ∀ ops ∈ (tailOps : List (List (HloOp τ sig (Elt F)))), ∀ op ∈ ops,
    ∀ w, Proc.devRef .tc (Pipeline.arrRef spec0 w) ∉ op.writes :=
  fun ops hops op hop w => tail_apart ops hops op hop _ (arrRef_kept w)

/-- A kept buffer holds after the host operations what it held before them. -/
theorem tail_keeps (Wv : Valuation τ sig (Elt F)) (r : Ref sig .tc) (hr : r ∈ keptRefs) :
    StableHlo.after (tailOps (F := F)).flatten Wv (Proc.devRef .tc r) = Wv (Proc.devRef .tc r) :=
  StableHlo.after_of_forall_not_mem _ _ fun op hop => by
    obtain ⟨ops, hops, hop'⟩ := List.mem_flatten.mp hop
    exact tail_apart ops hops op hop' r hr

end Cert.KernelIdeal.Hand

end
-- ==== Proof.IdealFrame.lean ====
/-
  The whole program run: the kernel launched over its grid of 8 points, followed by the 167 host operations that
  turn the kernel's two result arrays into the scalar loss.

  The launch is a pipeline over four arrays: the two argument arrays (blocks of 8 video clips per point; all the
  wifi clips, fetched once) and the two result arrays (one 8 × 64 × 128 block per point each).  At every point the
  body finds the two input blocks in its staging buffers and leaves in each output buffer the pieces its stores
  wrote, which tile the buffer, so the buffer reads back as the pieces alone.  The host operations after the
  launch read the two result arrays and the scalar argument, write only buffers of their own, and therefore leave
  the three arguments and the two result arrays as the launch left them.  Hence: the program terminates without
  a fault, the three arguments end unchanged, and the result buffer holds the host operations' value on the two
  arrays the launch produced.
-/
import proofs.«176710_j10599979286745_2_alg».proof.Proof.IdealBodyRun
import proofs.«176710_j10599979286745_2_alg».proof.Proof.IdealTail
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not
    fetched the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- One staging buffer of each output window, through which its contents are stated. -/
abbrev VO2 : View sig .tc .vmem S8x64x128 .f32 := (Memref.whole cc0_stg2_0 : Memref sig .tc .vmem S8x64x128 .f32).view
abbrev VO3 : View sig .tc .vmem S8x64x128 .f32 := (Memref.whole cc0_stg3_0 : Memref sig .tc .vmem S8x64x128 .f32).view

/-- Each window's current staging buffer at point `t`. -/
abbrev ms0 (t : Fin cfg0.N) : Memref sig .tc .vmem S8x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x64x128 .f32 := win0_3.stage (cfg0.slots t 3)
abbrev hs3 (t : Fin cfg0.N) : (ms3 t).IsWhole := hstage0_3 ((cfg0.slots t 3).cast nbuf0_3)

/-- The 64 row stores into the first output tile its 8 × 64 × 128 block, so they cover it. -/
theorem cover2 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) (y : S8x64x128.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S8x1x128.size (by sl_kernel_rfl) y

/-- The 64 slab stores into the second output tile its block too. -/
theorem cover3 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) (y : S8x64x128.Idx) :
    ∃ pc ∈ (kernelRun c i arg1 harg1 arg2 harg2 arg3 harg3 arg4 harg4 x0 x1).2.1, y ∈ pc.1.set :=
  View.cover_of_tiledL (kernelRun c i arg1 harg1 arg2 harg2 arg3 harg3 arg4 harg4 x0 x1).2.1 S1x8x128.size (by sl_kernel_rfl) y

/-- What the body leaves in each output buffer: its pieces read back (over anything: they cover the buffer). -/
def out2 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) : Vec F S8x64x128 .f32 :=
  VO2.read (Elt F) (VO2.writes (Elt F) VO2.junk (kernelRun c i arg1 harg1 arg2 harg2 arg3 harg3 arg4 harg4 x0 x1).1)
def out3 (c : Dev nD) (i : grid0.Coords)
    (arg1 : Memref sig .tc .vmem S8x128x256 .f32) (harg1 : arg1.IsWhole) (arg2 : Memref sig .tc .vmem S64x128x256 .f32) (harg2 : arg2.IsWhole)
    (arg3 : Memref sig .tc .vmem S8x64x128 .f32) (harg3 : arg3.IsWhole) (arg4 : Memref sig .tc .vmem S8x64x128 .f32) (harg4 : arg4.IsWhole)
    (x0 : Vec F S8x128x256 .f32) (x1 : Vec F S64x128x256 .f32) : Vec F S8x64x128 .f32 :=
  VO3.read (Elt F) (VO3.writes (Elt F) VO3.junk (kernelRun c i arg1 harg1 arg2 harg2 arg3 harg3 arg4 harg4 x0 x1).2.1)

/-- The same at grid point `t`: the body run on the point's staging buffers and input blocks. -/
def outAt2 (c : Dev nD) (t : Fin cfg0.N) : Vec F S8x64x128 .f32 :=
  out2 c (grid0.coords t) (ms0 t) (hs0 t) (ms1 t) (hs1 t) (ms2 t) (hs2 t) (ms3 t) (hs3 t) (iblk m c 0 t) (iblk m c 1 t)
def outAt3 (c : Dev nD) (t : Fin cfg0.N) : Vec F S8x64x128 .f32 :=
  out3 c (grid0.coords t) (ms0 t) (hs0 t) (ms1 t) (hs1 t) (ms2 t) (hs2 t) (ms3 t) (hs3 t) (iblk m c 0 t) (iblk m c 1 t)

/-! ## The pipeline's proof data -/

/-- The arrays as the launch finds them; after the body at point `t` each input buffer at its block and each
    output buffer at what the body left; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt2 m c t
    | ⟨3, _⟩ => outAt3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt2 m c t := by dsimp only [dats]
theorem after3 (c : Dev nD) (t : Fin cfg0.N) : (dats m 0 c).after 3 t = outAt3 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at any point: the inputs' buffers hold their blocks, so the body's triple applies; the pieces it
    leaves cover each output buffer, which therefore reads back as the pieces alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  unfold outAt2 outAt3 out2 out3
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover2 c _ _ _ _ _ _ _ _ _ _ _)
  · unfold owns; iexists _; isplitr
    swap; · iexact H3
    ipureintro; exact View.read_writes_of_cover _ _ _ _ _ (cover3 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the pipeline's four
    arrays holds what the launch computed and every other unscoped buffer what the host operations computed from
    them. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- A kept buffer that is no array of the pipeline ends as the program was started. -/
theorem tail_arg2 (c : Dev nD) :
    Pipeline.afterTail₀ cfgs (dats m) 0 (V0 m) tailOps c main_arg2 = m ((c : Thread nD τ).loc main_arg2) := by
  unfold Pipeline.afterTail₀
  rw [tail_keeps _ main_arg2 (by decide),
    Pipeline.withArrays_of_ne _ c (V0 m c) _ main_arg2 (by exact (by decide : ∀ w, Pipeline.arrRef spec0 w ≠ main_arg2))]
  rfl

/-- THE RUN with its post spelled out: the result buffer at the host operations' value, the three arguments unchanged. -/
theorem run_result : θ_run defs (onTc (τ := τ) (main (F := F))) ⟨m, fun _ => 0, ρ⟩ (fun r => ∀ c : Dev nD,
      r.2.mem ((c.tc : Thread nD τ).loc main_v72) = Pipeline.afterTail₀ cfgs (dats m) 0 (V0 m) tailOps c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v72 (Pipeline.mem_restRefs_of main_v72 (by decide) (by decide)),
     ((h c).1 0).trans (((dats m 0 c).arrAt_in 0 rfl _).trans ((A_eq m c 0).trans (V_eq m c main_arg0))),
     ((h c).1 1).trans (((dats m 0 c).arrAt_in 1 rfl _).trans ((A_eq m c 1).trans (V_eq m c main_arg1))),
     ((h c).2 main_arg2 (Pipeline.mem_restRefs_of main_arg2 (by decide) (by decide))).trans (tail_arg2 m c)⟩) (run_main m ρ)

/-- THE FRAME: the program runs and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.IdealArray.lean ====
/-
  From blocks to arrays.  The launch has 8 points; point `t` writes back, for each of the two result arrays
  (64 × 64 × 128), the block of rows 8·t … 8·t + 7 along the first axis (all of the other two axes).  The 8 blocks
  tile each array, so if at every point the output buffer holds block `t` of one whole-array function `G`, the
  array ends as `G`.
-/
import proofs.«176710_j10599979286745_2_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The two output windows' block index at point `t` is `(t, 0, 0)`; the video window's too; the wifi window's is `(0, 0, 0)`. -/
theorem idx_facts : ∀ t : Fin cfg0.N,
    win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0 :=
  (by decide +kernel : ∀ t : Fin grid0.N, _)

theorem mem_blk2 (t : Fin cfg0.N) (i : S64x64x128.Idx) :
    i ∈ ((cfg0.win 2).blk t).view.set ↔ ∀ a : Fin 3, win0_2.index t a * S8x64x128.size a ≤ (i a).val ∧ (i a).val < win0_2.index t a * S8x64x128.size a + S8x64x128.size a := by
  show i ∈ ((View.whole main_v0_0).slice (win0_2.rect t)).set ↔ _
  rw [View.set_slice_whole, Rect.mem_set_unit]
  exact Iff.rfl

theorem mem_blk3 (t : Fin cfg0.N) (i : S64x64x128.Idx) :
    i ∈ ((cfg0.win 3).blk t).view.set ↔ ∀ a : Fin 3, win0_3.index t a * S8x64x128.size a ≤ (i a).val ∧ (i a).val < win0_3.index t a * S8x64x128.size a + S8x64x128.size a := by
  show i ∈ ((View.whole main_v0_1).slice (win0_3.rect t)).set ↔ _
  rw [View.set_slice_whole, Rect.mem_set_unit]
  exact Iff.rfl

/-- The point whose block holds row `r` of the first axis: `r / 8`. -/
def pointOf (r : ℕ) (hr : r < 64) : Fin cfg0.N := ⟨r / 8, by rw [show cfg0.N = 8 from N_0]; omega⟩

/-- If every point's first output buffer is block `t` of `G`, the first result array ends as `G`. -/
theorem final2_of (c : Dev nD) (G : S64x64x128.Idx → Elt F .f32)
    (hblk : ∀ t : Fin cfg0.N, outAt2 m c t = ((cfg0.win 2).blk t).view.read (Elt F) G) :
    (dats m 0 c).arrAt 2 cfg0.N = G :=
  (dats m 0 c).arrAt_eq_of_cover 2 G (fun t _ => by
      show (cfg0.win 2).cut (grid0.coords t) ((dats m 0 c).after 2 t) = _
      rw [after2]; exact hblk t) fun i => by
    have h0 : (i 0).val < 64 := (i 0).isLt
    have h1 : (i 1).val < 64 := (i 1).isLt
    have h2 : (i 2).val < 128 := (i 2).isLt
    refine ⟨pointOf (i 0).val h0, flush0_2 _, ?_⟩
    rw [mem_blk2]
    obtain ⟨e0, e1, e2, -⟩ := idx_facts (pointOf (i 0).val h0)
    have ht : (pointOf (i 0).val h0).val = (i 0).val / 8 := rfl
    intro a
    match a with
    | ⟨0, _⟩ => show win0_2.index _ (0 : Fin 3) * 8 ≤ (i 0).val ∧ (i 0).val < win0_2.index _ (0 : Fin 3) * 8 + 8; omega
    | ⟨1, _⟩ => show win0_2.index _ (1 : Fin 3) * 64 ≤ (i 1).val ∧ (i 1).val < win0_2.index _ (1 : Fin 3) * 64 + 64; omega
    | ⟨2, _⟩ => show win0_2.index _ (2 : Fin 3) * 128 ≤ (i 2).val ∧ (i 2).val < win0_2.index _ (2 : Fin 3) * 128 + 128; omega

/-- The same for the second result array. -/
theorem final3_of (c : Dev nD) (G : S64x64x128.Idx → Elt F .f32)
    (hblk : ∀ t : Fin cfg0.N, outAt3 m c t = ((cfg0.win 3).blk t).view.read (Elt F) G) :
    (dats m 0 c).arrAt 3 cfg0.N = G :=
  (dats m 0 c).arrAt_eq_of_cover 3 G (fun t _ => by
      show (cfg0.win 3).cut (grid0.coords t) ((dats m 0 c).after 3 t) = _
      rw [after3]; exact hblk t) fun i => by
    have h0 : (i 0).val < 64 := (i 0).isLt
    have h1 : (i 1).val < 64 := (i 1).isLt
    have h2 : (i 2).val < 128 := (i 2).isLt
    refine ⟨pointOf (i 0).val h0, flush0_3 _, ?_⟩
    rw [mem_blk3]
    obtain ⟨-, -, -, e0, e1, e2, -⟩ := idx_facts (pointOf (i 0).val h0)
    have ht : (pointOf (i 0).val h0).val = (i 0).val / 8 := rfl
    intro a
    match a with
    | ⟨0, _⟩ => show win0_3.index _ (0 : Fin 3) * 8 ≤ (i 0).val ∧ (i 0).val < win0_3.index _ (0 : Fin 3) * 8 + 8; omega
    | ⟨1, _⟩ => show win0_3.index _ (1 : Fin 3) * 64 ≤ (i 1).val ∧ (i 1).val < win0_3.index _ (1 : Fin 3) * 64 + 64; omega
    | ⟨2, _⟩ => show win0_3.index _ (2 : Fin 3) * 128 ≤ (i 2).val ∧ (i 2).val < win0_3.index _ (2 : Fin 3) * 128 + 128; omega

end Cert.KernelIdeal.Hand

end
-- ==== Proof.IdealTile.lean ====
/-
  One tile of the kernel body's arithmetic, as uniform functions.

  The body handles the 64 wifi clips in 8 chunks of 8.  For one chunk it forms a 1024 × 1024 tile: row 128·i + p is
  frame p of video clip i of the block (8 clips), column 128·j + q is frame q of wifi clip j of the chunk (8 clips),
  and the entry is the inner product of the two frames' 256 features (`simTile`).  It doubles the tile, subtracts
  the tile's largest entry and exponentiates (`expTile`).  Then, for each wifi clip j of the chunk, it takes the 128
  columns of that clip and pools every row over them: the row's exponentials divided by their sum are the weights,
  and the weighted sum of the row's similarities is the result (`rowPool`: a 1024-vector laid out as 8 × 128); and
  for each video clip i of the block it takes the 128 rows of that clip and pools every column over them
  (`colPool`).  The same functions serve all 8 chunks and all 8 clips: only the column (row) offset changes.
-/
import proofs.«176710_j10599979286745_2_alg».proof.KernelIdeal
import proofs.«176710_j10599979286745_2_alg».proof.Proof.Gen.KernelIdeal
import proofs.«176710_j10599979286745_2_alg».proof.Proof.Gen.KernelIdeal.Skeleton

noncomputable section

namespace Cert.KernelIdeal.Tile

open Cert.KernelIdeal Cert.KernelIdeal.Facts₀ Cert.KernelIdeal.Facts Idealize.ShloMosaic

variable {F : FTy → Type} [FloatOps F]

/-- A block of 8 clips as 1024 frame rows of 256 features. -/
def rows (x : Vec F S8x128x256 .f32) (h : S8x128x256.ShapeCasts S1024x256) (hb : FTy.bits .bf16 < FTy.bits .f32) :
    FVec F S1024x256 .bf16 :=
  truncf .bf16 (shapeCast S1024x256 x h) hb

/-- The similarity tile: video frame rows against wifi frame rows. -/
def simTile (vb wb : FVec F S1024x256 .bf16) (ht : S1024x256.Transposes [1, 0] S256x1024) : FVec F S1024x1024 .f32 :=
  matmul dot_S1024x256_S256x1024_S1024x1024_1_0_0_1_n_n none vb (transpose S256x1024 [1, 0] wb ht)
    (constant S1024x1024 .f32 0x00000000#32)

/-- The doubled tile. -/
def dbl (s : FVec F S1024x1024 .f32) : FVec F S1024x1024 .f32 :=
  mulf s (broadcast S1024x1024 (Scalar.ofBits .f32 0x40000000#32))

/-- The doubled tile's largest entry (rows first, then the column of row maxima), as a 1 × 1 array. -/
def tileMax (s : FVec F S1024x1024 .f32) (h1 : S1024x1024.Reduces [1] S1024) (h2 : S1024.ShapeCasts S1024x1)
    (h3 : S1024x1.Reduces [0] S1) (h4 : S1.ShapeCasts S1x1) : FVec F S1x1 .f32 :=
  shapeCast S1x1 (multiReduction .maximumf [0] S1
    (shapeCast S1024x1 (multiReduction .maximumf [1] S1024 (dbl s) 0xFF800000#32 h1 (.inl rfl) rfl) h2)
    0xFF800000#32 h3 (.inl rfl) rfl) h4

/-- The exponentials of the doubled tile less its largest entry. -/
def expTile (s : FVec F S1024x1024 .f32) (h1 : S1024x1024.Reduces [1] S1024) (h2 : S1024.ShapeCasts S1024x1)
    (h3 : S1024x1.Reduces [0] S1) (h4 : S1.ShapeCasts S1x1) (h5 : S1x1.Broadcasts S1024x1024) : FVec F S1024x1024 .f32 :=
  exp (subf (dbl s) (broadcastTo S1024x1024 (tileMax s h1 h2 h3 h4) h5))

/-- Every row pooled over the 128 columns starting at `off`: a 1024-vector, laid out 8 × 128. -/
def rowPool (s e : FVec F S1024x1024 .f32) (off : Fin 2 → ℕ) (hs : S1024x1024.Slices off S1024x128)
    (hr : S1024x128.Reduces [1] S1024) (hc : S1024.ShapeCasts S1024x1) (hb : S1024x1.Broadcasts S1024x128)
    (hc' : S1024x1.ShapeCasts S8x128) : FVec F S8x128 .f32 :=
  shapeCast S8x128 (shapeCast S1024x1 (multiReduction .add [1] S1024
    (mulf (extractStridedSlice S1024x128 off s hs)
      (divf (extractStridedSlice S1024x128 off e hs)
        (broadcastTo S1024x128 (shapeCast S1024x1 (multiReduction .add [1] S1024 (extractStridedSlice S1024x128 off e hs)
          0x00000000#32 hr (.inl rfl) rfl) hc) hb)))
    0x00000000#32 hr (.inl rfl) rfl) hc) hc'

/-- Every column pooled over the 128 rows starting at `off`: a 1024-vector, laid out 8 × 128. -/
def colPool (s e : FVec F S1024x1024 .f32) (off : Fin 2 → ℕ) (hs : S1024x1024.Slices off S128x1024)
    (hr : S128x1024.Reduces [0] S1024) (hc : S1024.ShapeCasts S1x1024) (hb : S1x1024.Broadcasts S128x1024)
    (hc' : S1x1024.ShapeCasts S8x128) : FVec F S8x128 .f32 :=
  shapeCast S8x128 (shapeCast S1x1024 (multiReduction .add [0] S1024
    (mulf (extractStridedSlice S128x1024 off s hs)
      (divf (extractStridedSlice S128x1024 off e hs)
        (broadcastTo S128x1024 (shapeCast S1x1024 (multiReduction .add [0] S1024 (extractStridedSlice S128x1024 off e hs)
          0x00000000#32 hr (.inl rfl) rfl) hc) hb)))
    0x00000000#32 hr (.inl rfl) rfl) hc) hc'

/-- The generated payloads of the first chunk are these functions (definitional unfolding). -/
example (v0 v3 : Vec F S8x128x256 .f32) :
    Gen.k0_pay3 v0 v3 = simTile (rows v0 shapeCasts_S8x128x256_S1024x256 bitsLt_bf16_f32)
      (rows v3 shapeCasts_S8x128x256_S1024x256 bitsLt_bf16_f32) transposes_S1024x256_p1_0_S256x1024 := rfl
example (v0 v3 : Vec F S8x128x256 .f32) :
    Gen.k0_pay4 v0 v3 = expTile (Gen.k0_pay3 v0 v3) reduces_S1024x1024_S1024 shapeCasts_S1024_S1024x1 reduces_S1024x1_S1
      shapeCasts_S1_S1x1 broadcasts_S1x1_S1024x1024 := rfl
example (v7 v16 : FVec F S1024x1024 .f32) :
    Gen.k0_pay8 v7 v16 = shapeCast S8x1x128 (rowPool v7 v16 ![0, 256] slices_S1024x1024_o0_256_S1024x128 reduces_S1024x128_S1024
      shapeCasts_S1024_S1024x1 broadcasts_S1024x1_S1024x128 shapeCasts_S1024x1_S8x128) shapeCasts_S8x128_S8x1x128 := rfl
example (v7 v16 : FVec F S1024x1024 .f32) :
    Gen.k0_pay15 v7 v16 = shapeCast S1x8x128 (colPool v7 v16 ![0, 0] slices_S1024x1024_o0_0_S128x1024 reduces_S128x1024_S1024
      shapeCasts_S1024_S1x1024 broadcasts_S1x1024_S128x1024 shapeCasts_S1x1024_S8x128) shapeCasts_S8x128_S1x8x128 := rfl

end Cert.KernelIdeal.Tile

end
-- ==== Proof.LibSoftmaxShift.lean ====
/-
  A softmax-weighted sum does not depend on the shift.

  For real scores `x n` over a finite nonempty index set and any real shift `M`, the weights
  `exp (x n - M) / ∑ k, exp (x k - M)` are the softmax weights `exp (x n) / ∑ k, exp (x k)`: the factor
  `exp (-M)` is a positive real, so it cancels between numerator and denominator.  Hence a weighted sum
  `∑ n, a n * w n` has one value whichever shift the weights were computed with — a row's own maximum, or
  the maximum of a larger tile containing the row.  The law is stated on the extended reals at real
  arguments, with the exact exponential and quotient of the ideal float values, where every term is the
  coercion of a real (the sum of exponentials is a positive real, so the quotient is an honest division).
-/
import Idealize.ShloMosaic.PureOps.Ideal
import Mathlib.Tactic

namespace Lib.SoftmaxShift

open Idealize.ShloMosaic

variable {ι : Type*}

/-- The coercion of a finite sum of reals is the sum of the coercions. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the weights computed with shift `M` are the unshifted softmax weights, so the weighted
    sum is `(∑ a·eˣ) / ∑ eˣ`. -/
theorem real_weighted [Fintype ι] [Nonempty ι] (a x : ι → ℝ) (M : ℝ) :
    ∑ n, a n * (Real.exp (x n - M) / ∑ k, Real.exp (x k - M))
      = (∑ n, a n * Real.exp (x n)) / ∑ k, Real.exp (x k) := by
  have hM : Real.exp M ≠ 0 := (Real.exp_pos M).ne'
  have hS : (∑ k, Real.exp (x k)) ≠ 0 :=
    (Finset.sum_pos (fun k _ => Real.exp_pos (x k)) Finset.univ_nonempty).ne'
  have hden : ∑ k, Real.exp (x k - M) = (∑ k, Real.exp (x k)) / Real.exp M := by
    rw [Finset.sum_div]; exact Finset.sum_congr rfl fun k _ => Real.exp_sub _ _
  have hterm : ∀ n, a n * (Real.exp (x n - M) / ∑ k, Real.exp (x k - M))
      = a n * Real.exp (x n) / ∑ k, Real.exp (x k) := by
    intro n
    rw [hden, Real.exp_sub]
    field_simp
  rw [Finset.sum_congr rfl (fun n _ => hterm n)]
  exact (Finset.sum_div Finset.univ (fun n => a n * Real.exp (x n)) (∑ k, Real.exp (x k))).symm

/-- The same weighted sum written with the ideal values' exponential and quotient at coerced reals is the
    coercion of that real number. -/
theorem weighted_coe [Fintype ι] [Nonempty ι] (a x : ι → ℝ) (M : ℝ) :
    ∑ n, (a n : EReal) * Ideal.div (Ideal.exp ((x n : EReal) - (M : EReal)))
        (∑ k, Ideal.exp ((x k : EReal) - (M : EReal)))
      = (((∑ n, a n * Real.exp (x n)) / ∑ k, Real.exp (x k) : ℝ) : EReal) := by
  have hexp : ∀ k, Ideal.exp ((x k : EReal) - (M : EReal)) = ((Real.exp (x k - M) : ℝ) : EReal) := fun k => by
    rw [← EReal.coe_sub, Ideal.exp_coe]
  have hS : (∑ k, Real.exp (x k - M)) ≠ 0 :=
    (Finset.sum_pos (fun k _ => Real.exp_pos (x k - M)) Finset.univ_nonempty).ne'
  have hsum : (∑ k, Ideal.exp ((x k : EReal) - (M : EReal))) = ((∑ k, Real.exp (x k - M) : ℝ) : EReal) := by
    rw [coe_sum Finset.univ (fun k => Real.exp (x k - M))]
    exact Finset.sum_congr rfl fun k _ => hexp k
  have hterm : ∀ n, (a n : EReal) * Ideal.div (Ideal.exp ((x n : EReal) - (M : EReal)))
        (∑ k, Ideal.exp ((x k : EReal) - (M : EReal)))
      = ((a n * (Real.exp (x n - M) / ∑ k, Real.exp (x k - M)) : ℝ) : EReal) := by
    intro n
    rw [hsum, hexp n, Ideal.div_coe hS, ← EReal.coe_mul, ← EReal.coe_mul]
    congr 1
    rw [one_div, div_eq_mul_inv]
  rw [Finset.sum_congr rfl (fun n _ => hterm n),
    ← coe_sum Finset.univ (fun n => a n * (Real.exp (x n - M) / ∑ k, Real.exp (x k - M))), real_weighted]

/-- THE LAW: the weighted sum does not depend on the shift. -/
theorem weighted_shift [Fintype ι] [Nonempty ι] (a x : ι → ℝ) (M R : ℝ) :
    ∑ n, (a n : EReal) * Ideal.div (Ideal.exp ((x n : EReal) - (M : EReal)))
        (∑ k, Ideal.exp ((x k : EReal) - (M : EReal)))
      = ∑ n, (a n : EReal) * Ideal.div (Ideal.exp ((x n : EReal) - (R : EReal)))
        (∑ k, Ideal.exp ((x k : EReal) - (R : EReal))) := by
  rw [weighted_coe, weighted_coe]

end Lib.SoftmaxShift
-- ==== Proof.Spec.lean ====
/-
  What the kernel and the reference both compute before the shared host tail, as closed formulas over real inputs.

  `v` holds 64 video clips of 128 frames with 256 features, `w` 64 wifi clips likewise.  The dense similarity of
  frame `p` of video clip `i` with frame `q` of wifi clip `j` is the inner product of their feature vectors,
  `sim v w i j p q`.  Pooling over the wifi frames with softmax weights at temperature 1/2 gives
  `v2wAt v w i j p = (∑ q, s_q · e^{2 s_q}) / ∑ q, e^{2 s_q}`, and pooling over the video frames gives `w2vAt`
  likewise.  These are the softmax-weighted sums with the shift already cancelled: whichever maximum a program
  subtracts before exponentiating (a row's, a column's, a whole tile's), the weighted sum is this number.
-/
import Idealize.ShloMosaic.PureOps.Ideal
import Idealize.ShloMosaic.Lib.ValueIdx

noncomputable section

namespace Cert.ClipSpec

open Idealize.ShloMosaic Idealize.ShloMosaic.ValueIdx

/-- 64 clips × 128 frames × 256 features. -/
abbrev SClips : Shape := ⟨3, ![64, 128, 256]⟩
/-- 64 video clips × 64 wifi clips × 128 frames. -/
abbrev SPooled : Shape := ⟨3, ![64, 64, 128]⟩

/-- The similarity of frame `p` of video clip `i` and frame `q` of wifi clip `j`. -/
def sim (v w : SClips.Idx → ℝ) (i j : Fin 64) (p q : Fin 128) : ℝ :=
  ∑ d : Fin 256, v (ix3 i p d) * w (ix3 j q d)

/-- Video frame `p`'s similarity to wifi clip `j`, softmax-pooled over the wifi frames. -/
def v2wAt (v w : SClips.Idx → ℝ) (i j : Fin 64) (p : Fin 128) : ℝ :=
  (∑ q : Fin 128, sim v w i j p q * Real.exp (2 * sim v w i j p q)) / ∑ q : Fin 128, Real.exp (2 * sim v w i j p q)

/-- Wifi frame `q`'s similarity to video clip `i`, softmax-pooled over the video frames. -/
def w2vAt (v w : SClips.Idx → ℝ) (i j : Fin 64) (q : Fin 128) : ℝ :=
  (∑ p : Fin 128, sim v w i j p q * Real.exp (2 * sim v w i j p q)) / ∑ p : Fin 128, Real.exp (2 * sim v w i j p q)

/-- The two pooled arrays, as extended reals index by index. -/
def v2w (v w : SClips.Idx → ℝ) : SPooled.Idx → EReal :=
  fun y => ((v2wAt v w (y 0) (y 1) (y 2) : ℝ) : EReal)
def w2v (v w : SClips.Idx → ℝ) : SPooled.Idx → EReal :=
  fun y => ((w2vAt v w (y 0) (y 1) (y 2) : ℝ) : EReal)

theorem v2w_ix (v w : SClips.Idx → ℝ) (i j : Fin 64) (p : Fin 128) : v2w v w (ix3 i j p) = ((v2wAt v w i j p : ℝ) : EReal) := rfl
theorem w2v_ix (v w : SClips.Idx → ℝ) (i j : Fin 64) (q : Fin 128) : w2v v w (ix3 i j q) = ((w2vAt v w i j q : ℝ) : EReal) := rfl

/-- An array of reals read as extended reals. -/
def lift {s : Shape} (x : s.Idx → ℝ) : s.Idx → EReal := fun i => ((x i : ℝ) : EReal)

end Cert.ClipSpec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.IdealTileValue.lean ====
/-
  The value of one tile of the kernel body at an entry, over real inputs.

  For two blocks of 8 clips × 128 frames × 256 real features, the tile's entry at row 128·i + p and column 128·j + q is the
  inner product `blockSim a b i j p q` of frame `p` of the first block's clip `i` with frame `q` of the second block's clip
  `j`.  The body doubles the tile, subtracts the tile's largest entry `M` and exponentiates; every entry being a real
  number, `M` is a real number too (the largest of finitely many reals, at least one).  Pooling row 128·i + p over the 128
  columns of clip `j` gives `∑_q s_q · (e^{2 s_q − M} / ∑_{q'} e^{2 s_{q'} − M})`, and the factor `e^{−M}` cancels between
  numerator and denominator: the result is `(∑_q s_q e^{2 s_q}) / ∑_q e^{2 s_q}`, whatever `M` was.  Pooling a column over
  the 128 rows of clip `i` is the same with the roles of rows and columns exchanged.

  The file reads each layout operation at an index given by coordinates (flattening, transpose, slice, sum along an axis,
  column and row broadcasts, the two trailing casts), first for arbitrary tiles (`rowPool_apply`, `colPool_apply`), then
  for the tile of two real blocks (`rowPool_value`, `colPool_value`).
-/
import proofs.«176710_j10599979286745_2_alg».proof.Proof.IdealTile
import proofs.«176710_j10599979286745_2_alg».proof.Proof.LibSoftmaxShift
import proofs.«176710_j10599979286745_2_alg».proof.Proof.Spec
import proofs.«176710_j10599979286745_2_alg».proof.Proof.LibDenseRows
import proofs.«176710_j10599979286745_2_alg».proof.Proof.LibColumnLayout
import proofs.«176710_j10599979286745_2_alg».proof.Proof.LibRank3Layout

noncomputable section

namespace Cert.KernelIdeal.Tile

open Cert.KernelIdeal Idealize.ShloMosaic Idealize.ShloMosaic.ValueIdx Cert.ClipSpec
open scoped BigOperators

/-! ## Two constants -/

/-- The word `0x40000000` is the real number two. -/
theorem ofBits_two : Ideal.ofBits .f32 0x40000000#32 = ((2 : ℝ) : EReal) := by
  simp [Ideal.ofBits, Ideal.ieee, -EReal.coe_mul]; norm_num

/-- The word `0xFF800000` is minus infinity. -/
theorem ofBits_negInf : Ideal.ofBits .f32 0xFF800000#32 = (⊥ : EReal) := by
  simp [Ideal.ofBits, Ideal.ieee]

/-! ## The similarity tile at an entry -/

/-- The inner product of frame `p` of clip `i` of the block `a` with frame `q` of clip `j` of the block `b`. -/
def blockSim (a b : S8x128x256.Idx → ℝ) (i j : Fin 8) (p q : Fin 128) : ℝ :=
  ∑ d : Fin 256, a (ix3 i p d) * b (ix3 j q d)

/-- Row `128·i + p` of the flattened block is frame `p` of clip `i`. -/
theorem rows_apply (a : S8x128x256.Idx → ℝ) (hsc : S8x128x256.ShapeCasts S1024x256) (hbf : FTy.bits .bf16 < FTy.bits .f32)
    (i : Fin 8) (p : Fin 128) (d : Fin 256) (r : Fin 1024) (hr : r.val = i.val * 128 + p.val) :
    rows (F := Ideal) (lift a) hsc hbf (ix2 r d) = ((a (ix3 i p d) : ℝ) : EReal) :=
  Cert.Rank3Layout.shapeCast_abc_flat_apply (lift a) hsc i p d r hr

/-- An entry of the tile is the sum over the 256 features of the products of the two rows' entries. -/
theorem simTile_apply (vb wb : FVec Ideal S1024x256 .bf16) (ht : S1024x256.Transposes [1, 0] S256x1024) (r c : Fin 1024) :
    simTile vb wb ht (ix2 r c) = ∑ k : Fin 256, vb (ix2 r k) * wb (ix2 c k) := by
  refine (Cert.DenseRows.matmul_zero_plain_apply dot_S1024x256_S256x1024_S1024x1024_1_0_0_1_n_n rfl rfl rfl rfl
    (fun _ _ => rfl) (fun _ _ => rfl) vb (transpose S256x1024 [1, 0] wb ht) r c).trans ?_
  exact Finset.sum_congr rfl fun k _ => congrArg (vb (ix2 r k) * ·) (transpose_ix2_apply wb ht k c)

/-- Over real blocks, entry `(128·i + p, 128·j + q)` of the tile is the real inner product of the two frames. -/
theorem simTile_rows_apply (a b : S8x128x256.Idx → ℝ) (hsc : S8x128x256.ShapeCasts S1024x256)
    (hbf : FTy.bits .bf16 < FTy.bits .f32) (ht : S1024x256.Transposes [1, 0] S256x1024)
    (i j : Fin 8) (p q : Fin 128) (r c : Fin 1024) (hr : r.val = i.val * 128 + p.val) (hc : c.val = j.val * 128 + q.val) :
    simTile (rows (F := Ideal) (lift a) hsc hbf) (rows (lift b) hsc hbf) ht (ix2 r c)
      = ((blockSim a b i j p q : ℝ) : EReal) := by
  rw [simTile_apply, blockSim, Lib.SoftmaxShift.coe_sum]
  refine Finset.sum_congr rfl fun d _ => ?_
  rw [rows_apply a hsc hbf i p d r hr, rows_apply b hsc hbf j q d c hc, EReal.coe_mul]

/-! ## Pooling at an entry, for arbitrary tiles -/

/-- The sum of a matrix along its rows from the zero word, at column `c`. -/
theorem sublaneSum_apply {M N : ℕ} (src : FVec Ideal ⟨2, ![M, N]⟩ .f32) (h : (⟨2, ![M, N]⟩ : Shape).Reduces [(0 : Fin 2)] ⟨1, ![N]⟩)
    (hφ : FKind.Formats .f32) (hacc : (0x00000000#32 : BitVec 32) = FKind.add.neutral .f32 hφ)
    (hlift : ∀ (c : Fin N) (k : Fin M), h.lift (ix1 c) k = ix2 k c) (c : Fin N) :
    multiReduction .add [(0 : Fin 2)] ⟨1, ![N]⟩ src 0x00000000#32 h hφ hacc (ix1 c) = ∑ k : Fin M, src (ix2 k c) :=
  (Ideal.multiReduction_add_single src 0x00000000#32 h hφ hacc (ix1 c)).trans
    (Finset.sum_congr rfl fun k _ => congrArg src (hlift c k))

/-- Row `r = 128·i + p` pooled over the 128 columns `col q` that start at column `o`: the sum over them of the similarity
    times the row's exponential divided by the sum of the row's exponentials over the same columns. -/
theorem rowPool_apply (s e : FVec Ideal S1024x1024 .f32) (o : ℕ) (hs : S1024x1024.Slices ![0, o] S1024x128)
    (hr : S1024x128.Reduces [1] S1024) (hc : S1024.ShapeCasts S1024x1) (hb : S1024x1.Broadcasts S1024x128)
    (hc' : S1024x1.ShapeCasts S8x128) (i : Fin 8) (p : Fin 128) (r : Fin 1024) (hrow : r.val = i.val * 128 + p.val)
    (col : Fin 128 → Fin 1024) (hcol : ∀ q, (col q).val = o + q.val) :
    rowPool s e ![0, o] hs hr hc hb hc' (ix2 i p)
      = ∑ q : Fin 128, s (ix2 r (col q)) * Ideal.div (e (ix2 r (col q))) (∑ q' : Fin 128, e (ix2 r (col q'))) := by
  have hlift : ∀ (r : Fin 1024) (k : Fin 128), hr.lift (ix1 r) k = ix2 r k := fun r k => by
    funext c; apply Fin.ext
    match c with
    | ⟨0, _⟩ => rfl
    | ⟨1, _⟩ => rfl
  have hS : ∀ k : Fin 128, extractStridedSlice S1024x128 ![0, o] s hs (ix2 r k) = s (ix2 r (col k)) := fun k =>
    slice2_axis1_apply o s hs r k (col k) (hcol k)
  have hE : ∀ k : Fin 128, extractStridedSlice S1024x128 ![0, o] e hs (ix2 r k) = e (ix2 r (col k)) := fun k =>
    slice2_axis1_apply o e hs r k (col k) (hcol k)
  unfold rowPool
  refine (shapeCast_apply _ hc' (ix2 i p) (ix2 r (0 : Fin 1)) ?_).trans ?_
  · rw [Shape.rowMajor_val_two, Shape.rowMajor_val_two]
    show r.val * 1 + 0 = i.val * 128 + p.val
    omega
  refine (Cert.ColumnLayout.shapeCast_a_a1_apply _ hc r 0).trans ?_
  refine (Cert.DenseRows.laneSum_apply _ hr (.inl rfl) rfl hlift r).trans ?_
  refine Finset.sum_congr rfl fun k _ => ?_
  show extractStridedSlice S1024x128 ![0, o] s hs (ix2 r k) * Ideal.div (extractStridedSlice S1024x128 ![0, o] e hs (ix2 r k))
      (broadcastTo S1024x128 (shapeCast S1024x1 (multiReduction .add [1] S1024 (extractStridedSlice S1024x128 ![0, o] e hs)
          0x00000000#32 hr (.inl rfl) rfl) hc) hb (ix2 r k)) = _
  rw [hS k, hE k, Cert.Rank3Layout.columnVector_apply _ hc hb r k, Cert.DenseRows.laneSum_apply _ hr (.inl rfl) rfl hlift r]
  exact congrArg (fun z => s (ix2 r (col k)) * Ideal.div (e (ix2 r (col k))) z) (Finset.sum_congr rfl fun k' _ => hE k')

/-- Column `c = 128·j + q` pooled over the 128 rows `row p` that start at row `o`, likewise. -/
theorem colPool_apply (s e : FVec Ideal S1024x1024 .f32) (o : ℕ) (hs : S1024x1024.Slices ![o, 0] S128x1024)
    (hr : S128x1024.Reduces [0] S1024) (hc : S1024.ShapeCasts S1x1024) (hb : S1x1024.Broadcasts S128x1024)
    (hc' : S1x1024.ShapeCasts S8x128) (j : Fin 8) (q : Fin 128) (c : Fin 1024) (hcol : c.val = j.val * 128 + q.val)
    (row : Fin 128 → Fin 1024) (hrow : ∀ p, (row p).val = o + p.val) :
    colPool s e ![o, 0] hs hr hc hb hc' (ix2 j q)
      = ∑ p : Fin 128, s (ix2 (row p) c) * Ideal.div (e (ix2 (row p) c)) (∑ p' : Fin 128, e (ix2 (row p') c)) := by
  have hlift : ∀ (c : Fin 1024) (k : Fin 128), hr.lift (ix1 c) k = ix2 k c := fun c k => by
    funext x; apply Fin.ext
    match x with
    | ⟨0, _⟩ => rfl
    | ⟨1, _⟩ => rfl
  have hS : ∀ k : Fin 128, extractStridedSlice S128x1024 ![o, 0] s hs (ix2 k c) = s (ix2 (row k) c) := fun k =>
    slice2_axis0_apply o s hs k c (row k) (hrow k)
  have hE : ∀ k : Fin 128, extractStridedSlice S128x1024 ![o, 0] e hs (ix2 k c) = e (ix2 (row k) c) := fun k =>
    slice2_axis0_apply o e hs k c (row k) (hrow k)
  unfold colPool
  refine (shapeCast_apply _ hc' (ix2 j q) (ix2 (0 : Fin 1) c) ?_).trans ?_
  · rw [Shape.rowMajor_val_two, Shape.rowMajor_val_two]
    show 0 * 1024 + c.val = j.val * 128 + q.val
    omega
  refine (shapeCast_a_1a_apply _ hc 0 c).trans ?_
  refine (sublaneSum_apply _ hr (.inl rfl) rfl hlift c).trans ?_
  refine Finset.sum_congr rfl fun k _ => ?_
  show extractStridedSlice S128x1024 ![o, 0] s hs (ix2 k c) * Ideal.div (extractStridedSlice S128x1024 ![o, 0] e hs (ix2 k c))
      (broadcastTo S128x1024 (shapeCast S1x1024 (multiReduction .add [0] S1024 (extractStridedSlice S128x1024 ![o, 0] e hs)
          0x00000000#32 hr (.inl rfl) rfl) hc) hb (ix2 k c)) = _
  rw [hS k, hE k, Cert.DenseRows.rowBias_cast_apply _ hc hb k c, sublaneSum_apply _ hr (.inl rfl) rfl hlift c]
  exact congrArg (fun z => s (ix2 (row k) c) * Ideal.div (e (ix2 (row k) c)) z) (Finset.sum_congr rfl fun k' _ => hE k')

/-! ## The tile's largest entry is a real number -/

/-- Every entry of the array is a real number (neither infinity). -/
def IsReal {s : Shape} (x : s.Idx → EReal) : Prop := ∀ y, ∃ g : ℝ, x y = (g : EReal)

/-- The largest of finitely many real numbers, taken from minus infinity: minus infinity over no numbers, and a real number
    otherwise. -/
theorem fold_max_real {ι : Type} (f : ι → EReal) (hf : ∀ k, ∃ g : ℝ, f k = (g : EReal)) (t : Finset ι) :
    (t = ∅ ∧ t.fold max (⊥ : EReal) f = ⊥) ∨ ∃ M : ℝ, t.fold max (⊥ : EReal) f = (M : EReal) := by
  classical
  induction t using Finset.induction_on with
  | empty => exact .inl ⟨rfl, Finset.fold_empty⟩
  | insert a t ha ih =>
    right
    obtain ⟨g, hg⟩ := hf a
    rw [Finset.fold_insert ha, hg]
    rcases ih with ⟨_, h⟩ | ⟨M, h⟩
    · exact ⟨g, by rw [h]; exact max_bot_right _⟩
    · exact ⟨max g M, by rw [h]; exact (EReal.coe_strictMono.monotone.map_max).symm⟩

theorem IsReal.shapeCast {s t : Shape} {x : s.Idx → EReal} (hx : IsReal x) (h : s.ShapeCasts t) :
    IsReal (Idealize.ShloMosaic.shapeCast t x h) := fun y => by
  unfold Idealize.ShloMosaic.shapeCast
  exact hx _

/-- The maximum along a nonempty axis of an array of real numbers, taken from minus infinity, is an array of real numbers. -/
theorem IsReal.maxReduce {s t : Shape} {a : Fin s.rank} {src : FVec Ideal s .f32} (hsrc : IsReal src) (h : s.Reduces [a] t)
    (hφ : FKind.Formats .f32) (hacc : (0xFF800000#32 : BitVec 32) = FKind.maximumf.neutral .f32 hφ) (hpos : 0 < s.size a) :
    IsReal (multiReduction .maximumf [a] t src 0xFF800000#32 h hφ hacc) := by
  intro j
  haveI : Nonempty (Fin (s.size a)) := ⟨⟨0, hpos⟩⟩
  rw [Ideal.multiReduction_maximumf_single src _ h hφ hacc j]
  show ∃ g : ℝ, Finset.fold max (Ideal.ofBits .f32 0xFF800000#32) (src ∘ h.lift j) Finset.univ = (g : EReal)
  rw [ofBits_negInf]
  rcases fold_max_real (src ∘ h.lift j) (fun k => hsrc _) Finset.univ with ⟨he, _⟩ | hM
  · exact absurd he Finset.univ_nonempty.ne_empty
  · exact hM

/-- The doubled tile at an entry. -/
theorem dbl_apply (s : FVec Ideal S1024x1024 .f32) (y : S1024x1024.Idx) : dbl s y = s y * ((2 : ℝ) : EReal) := by
  show s y * Ideal.ofBits .f32 0x40000000#32 = _
  rw [ofBits_two]

theorem IsReal.dbl {s : FVec Ideal S1024x1024 .f32} (hs : IsReal s) : IsReal (dbl s) := fun y => by
  obtain ⟨g, hg⟩ := hs y
  exact ⟨g * 2, by rw [dbl_apply, hg, EReal.coe_mul]⟩

theorem tileMax_isReal {s : FVec Ideal S1024x1024 .f32} (hs : IsReal s) (h1 : S1024x1024.Reduces [1] S1024)
    (h2 : S1024.ShapeCasts S1024x1) (h3 : S1024x1.Reduces [0] S1) (h4 : S1.ShapeCasts S1x1) :
    IsReal (tileMax s h1 h2 h3 h4) := by
  unfold tileMax
  exact (((hs.dbl.maxReduce h1 (.inl rfl) rfl (by show 0 < 1024; omega)).shapeCast h2).maxReduce h3 (.inl rfl) rfl
    (by show 0 < 1024; omega)).shapeCast h4

/-- Every entry of the exponentiated tile is the exponential of twice the similarity less ONE real number, the same for the
    whole tile. -/
theorem expTile_apply {s : FVec Ideal S1024x1024 .f32} (hs : IsReal s) (h1 : S1024x1024.Reduces [1] S1024)
    (h2 : S1024.ShapeCasts S1024x1) (h3 : S1024x1.Reduces [0] S1) (h4 : S1.ShapeCasts S1x1) (h5 : S1x1.Broadcasts S1024x1024) :
    ∃ M : ℝ, ∀ y, expTile s h1 h2 h3 h4 h5 y = Ideal.exp (s y * ((2 : ℝ) : EReal) - (M : EReal)) := by
  obtain ⟨M, hM⟩ := tileMax_isReal hs h1 h2 h3 h4 (ix2 (0 : Fin 1) (0 : Fin 1))
  refine ⟨M, fun y => ?_⟩
  have hb : broadcastTo S1024x1024 (tileMax s h1 h2 h3 h4) h5 y = tileMax s h1 h2 h3 h4 (ix2 (0 : Fin 1) (0 : Fin 1)) :=
    broadcastTo_apply _ h5 y _ fun ax => by
      match ax with
      | ⟨0, _⟩ => rfl
      | ⟨1, _⟩ => rfl
  show Ideal.exp (dbl s y - broadcastTo S1024x1024 (tileMax s h1 h2 h3 h4) h5 y) = _
  rw [hb, hM, dbl_apply]

theorem rows_isReal (a : S8x128x256.Idx → ℝ) (hsc : S8x128x256.ShapeCasts S1024x256) (hbf : FTy.bits .bf16 < FTy.bits .f32) :
    IsReal (rows (F := Ideal) (lift a) hsc hbf) :=
  IsReal.shapeCast (x := lift a) (fun y => ⟨a y, rfl⟩) hsc

theorem simTile_isReal {vb wb : FVec Ideal S1024x256 .bf16} (hv : IsReal vb) (hw : IsReal wb)
    (ht : S1024x256.Transposes [1, 0] S256x1024) : IsReal (simTile vb wb ht) := by
  intro y
  obtain ⟨r, c, rfl⟩ : ∃ (r c : Fin 1024), y = ix2 r c := ⟨y 0, y 1, eq_ix2 y⟩
  choose f hf using hv
  choose g hg using hw
  refine ⟨∑ k : Fin 256, f (ix2 r k) * g (ix2 c k), ?_⟩
  rw [simTile_apply, Lib.SoftmaxShift.coe_sum]
  exact Finset.sum_congr rfl fun k _ => by rw [hf, hg, EReal.coe_mul]

/-! ## The two pooled values over real blocks -/

/-- Video frame `p` of clip `i` pooled over the frames of wifi clip `j`: the softmax-weighted sum at temperature 1/2,
    whatever the tile's largest entry was. -/
theorem rowPool_value (a b : S8x128x256.Idx → ℝ) (j : Fin 8) (hsc : S8x128x256.ShapeCasts S1024x256) (hbf : FTy.bits .bf16 < FTy.bits .f32)
    (ht : S1024x256.Transposes [1, 0] S256x1024) (h1 : S1024x1024.Reduces [1] S1024) (h2 : S1024.ShapeCasts S1024x1) (h3 : S1024x1.Reduces [0] S1)
    (h4 : S1.ShapeCasts S1x1) (h5 : S1x1.Broadcasts S1024x1024) (hs : S1024x1024.Slices ![0, 128 * j.val] S1024x128)
    (hr : S1024x128.Reduces [1] S1024) (hc : S1024.ShapeCasts S1024x1) (hb : S1024x1.Broadcasts S1024x128) (hc' : S1024x1.ShapeCasts S8x128)
    (i : Fin 8) (p : Fin 128) :
    rowPool (F := Ideal) (simTile (rows (lift a) hsc hbf) (rows (lift b) hsc hbf) ht)
        (expTile (simTile (rows (lift a) hsc hbf) (rows (lift b) hsc hbf) ht) h1 h2 h3 h4 h5) ![0, 128 * j.val] hs hr hc hb hc' (ValueIdx.ix2 i p)
      = (((∑ q : Fin 128, blockSim a b i j p q * Real.exp (2 * blockSim a b i j p q)) / ∑ q : Fin 128, Real.exp (2 * blockSim a b i j p q) : ℝ) : EReal) := by
  have hreal : IsReal (simTile (rows (F := Ideal) (lift a) hsc hbf) (rows (lift b) hsc hbf) ht) :=
    simTile_isReal (rows_isReal a hsc hbf) (rows_isReal b hsc hbf) ht
  have hent : ∀ (q : Fin 128) (r c : Fin 1024), r.val = i.val * 128 + p.val → c.val = j.val * 128 + q.val →
      simTile (rows (F := Ideal) (lift a) hsc hbf) (rows (lift b) hsc hbf) ht (ix2 r c) = ((blockSim a b i j p q : ℝ) : EReal) :=
    fun q r c hr hc => simTile_rows_apply a b hsc hbf ht i j p q r c hr hc
  generalize simTile (rows (F := Ideal) (lift a) hsc hbf) (rows (lift b) hsc hbf) ht = sT at hreal hent ⊢
  obtain ⟨M, hM⟩ := expTile_apply hreal h1 h2 h3 h4 h5
  have hi := i.isLt
  have hp := p.isLt
  have hj := j.isLt
  refine (rowPool_apply sT _ (128 * j.val) hs hr hc hb hc' i p ⟨i.val * 128 + p.val, by omega⟩ rfl
    (fun q => ⟨128 * j.val + q.val, by have := q.isLt; omega⟩) (fun q => rfl)).trans ?_
  have hs' : ∀ q : Fin 128, sT (ix2 (⟨i.val * 128 + p.val, by omega⟩ : Fin 1024) (⟨128 * j.val + q.val, by have := q.isLt; omega⟩ : Fin 1024))
      = ((blockSim a b i j p q : ℝ) : EReal) := fun q => hent q _ _ rfl (by show 128 * j.val + q.val = j.val * 128 + q.val; omega)
  have he' : ∀ q : Fin 128, expTile sT h1 h2 h3 h4 h5 (ix2 (⟨i.val * 128 + p.val, by omega⟩ : Fin 1024) (⟨128 * j.val + q.val, by have := q.isLt; omega⟩ : Fin 1024))
      = Ideal.exp (((2 * blockSim a b i j p q : ℝ) : EReal) - (M : EReal)) := fun q => by
    rw [hM, hs' q, ← EReal.coe_mul, mul_comm]
  rw [Finset.sum_congr rfl (fun q _ => by rw [hs' q, he' q, Finset.sum_congr rfl (fun q' _ => he' q')])]
  exact Lib.SoftmaxShift.weighted_coe (fun q => blockSim a b i j p q) (fun q => 2 * blockSim a b i j p q) M

/-- Wifi frame `q` of clip `j` pooled over the frames of video clip `i`, likewise. -/
theorem colPool_value (a b : S8x128x256.Idx → ℝ) (i : Fin 8) (hsc : S8x128x256.ShapeCasts S1024x256) (hbf : FTy.bits .bf16 < FTy.bits .f32)
    (ht : S1024x256.Transposes [1, 0] S256x1024) (h1 : S1024x1024.Reduces [1] S1024) (h2 : S1024.ShapeCasts S1024x1) (h3 : S1024x1.Reduces [0] S1)
    (h4 : S1.ShapeCasts S1x1) (h5 : S1x1.Broadcasts S1024x1024) (hs : S1024x1024.Slices ![128 * i.val, 0] S128x1024)
    (hr : S128x1024.Reduces [0] S1024) (hc : S1024.ShapeCasts S1x1024) (hb : S1x1024.Broadcasts S128x1024) (hc' : S1x1024.ShapeCasts S8x128)
    (j : Fin 8) (q : Fin 128) :
    colPool (F := Ideal) (simTile (rows (lift a) hsc hbf) (rows (lift b) hsc hbf) ht)
        (expTile (simTile (rows (lift a) hsc hbf) (rows (lift b) hsc hbf) ht) h1 h2 h3 h4 h5) ![128 * i.val, 0] hs hr hc hb hc' (ValueIdx.ix2 j q)
      = (((∑ p : Fin 128, blockSim a b i j p q * Real.exp (2 * blockSim a b i j p q)) / ∑ p : Fin 128, Real.exp (2 * blockSim a b i j p q) : ℝ) : EReal) := by
  have hreal : IsReal (simTile (rows (F := Ideal) (lift a) hsc hbf) (rows (lift b) hsc hbf) ht) :=
    simTile_isReal (rows_isReal a hsc hbf) (rows_isReal b hsc hbf) ht
  have hent : ∀ (p : Fin 128) (r c : Fin 1024), r.val = i.val * 128 + p.val → c.val = j.val * 128 + q.val →
      simTile (rows (F := Ideal) (lift a) hsc hbf) (rows (lift b) hsc hbf) ht (ix2 r c) = ((blockSim a b i j p q : ℝ) : EReal) :=
    fun p r c hr hc => simTile_rows_apply a b hsc hbf ht i j p q r c hr hc
  generalize simTile (rows (F := Ideal) (lift a) hsc hbf) (rows (lift b) hsc hbf) ht = sT at hreal hent ⊢
  obtain ⟨M, hM⟩ := expTile_apply hreal h1 h2 h3 h4 h5
  have hi := i.isLt
  have hq := q.isLt
  have hj := j.isLt
  refine (colPool_apply sT _ (128 * i.val) hs hr hc hb hc' j q ⟨j.val * 128 + q.val, by omega⟩ rfl
    (fun p => ⟨128 * i.val + p.val, by have := p.isLt; omega⟩) (fun p => rfl)).trans ?_
  have hs' : ∀ p : Fin 128, sT (ix2 (⟨128 * i.val + p.val, by have := p.isLt; omega⟩ : Fin 1024) (⟨j.val * 128 + q.val, by omega⟩ : Fin 1024))
      = ((blockSim a b i j p q : ℝ) : EReal) := fun p => hent p _ _ (by show 128 * i.val + p.val = i.val * 128 + p.val; omega) rfl
  have he' : ∀ p : Fin 128, expTile sT h1 h2 h3 h4 h5 (ix2 (⟨128 * i.val + p.val, by have := p.isLt; omega⟩ : Fin 1024) (⟨j.val * 128 + q.val, by omega⟩ : Fin 1024))
      = Ideal.exp (((2 * blockSim a b i j p q : ℝ) : EReal) - (M : EReal)) := fun p => by
    rw [hM, hs' p, ← EReal.coe_mul, mul_comm]
  rw [Finset.sum_congr rfl (fun p _ => by rw [hs' p, he' p, Finset.sum_congr rfl (fun p' _ => he' p')])]
  exact Lib.SoftmaxShift.weighted_coe (fun p => blockSim a b i j p q) (fun p => 2 * blockSim a b i j p q) M

end Cert.KernelIdeal.Tile

end
-- ==== Proof.IdealPiece.lean ====
/-
  One stored piece of each of the kernel body's two outputs, in the specification's terms.

  The body's first operand block holds video clips `8t … 8t + 7` and the chunk of the second operand it works on holds wifi
  clips `8·jc … 8·jc + 7` (`clipBlock`).  The inner product of frame `p` of the block's clip `i` with frame `q` of the
  chunk's clip `jj` is therefore the similarity `sim v w (8t + i) (8·jc + jj) p q` of the whole arrays, and the pooled
  values of one tile are entries of the two pooled arrays `v2w` and `w2v`: the row pooling over the chunk's clip `jj`,
  viewed as 8 × 1 × 128, is `v2w` at `(8t + i, 8·jc + jj, p)`; the column pooling over the block's clip `il`, viewed as
  1 × 8 × 128, is `w2v` at `(8t + il, 8·jc + jj, q)`.
-/
import proofs.«176710_j10599979286745_2_alg».proof.Proof.IdealTileValue
import proofs.«176710_j10599979286745_2_alg».proof.Proof.Spec
import Idealize.ShloMosaic.Lib.ValueLayout

noncomputable section

namespace Cert.KernelIdeal.Tile

open Cert.KernelIdeal Idealize.ShloMosaic Idealize.ShloMosaic.ValueIdx Cert.ClipSpec
open scoped BigOperators

/-! ## The blocks the kernel body loads, in the specification's terms -/

/-- Clips `8t … 8t + 7` of an array of 64 clips, as a block of 8 clips. -/
def clipBlock (v : SClips.Idx → ℝ) (t : Fin 8) : S8x128x256.Idx → ℝ := fun y =>
  v (ix3 (⟨8 * t.val + (y 0).val, by have h : (y 0).val < 8 := (y 0).isLt; have := t.isLt; omega⟩ : Fin 64)
    (y 1 : Fin 128) (y 2 : Fin 256))

theorem clipBlock_ix3 (v : SClips.Idx → ℝ) (t i : Fin 8) (p : Fin 128) (d : Fin 256) :
    clipBlock v t (ix3 i p d)
      = v (ix3 (⟨8 * t.val + i.val, by have := t.isLt; have := i.isLt; omega⟩ : Fin 64) p d) := rfl

/-- The inner product of two frames of two blocks is the similarity of the same two frames of the whole arrays. -/
theorem blockSim_clipBlock (v w : SClips.Idx → ℝ) (t jc i jj : Fin 8) (p q : Fin 128) :
    blockSim (clipBlock v t) (clipBlock w jc) i jj p q
      = sim v w (⟨8 * t.val + i.val, by have := t.isLt; have := i.isLt; omega⟩ : Fin 64)
          (⟨8 * jc.val + jj.val, by have := jc.isLt; have := jj.isLt; omega⟩ : Fin 64) p q := rfl

/-! ## One stored piece of each output -/

/-- The piece stored into rows `[:, 8·jc + jj, :]` of the first output's block: entry `(i, 0, p)` is video frame `p` of
    clip `8t + i` pooled over the frames of wifi clip `8·jc + jj`. -/
theorem rowPiece_value (v w : SClips.Idx → ℝ) (t jc jj : Fin 8) (hsc : S8x128x256.ShapeCasts S1024x256)
    (hbf : FTy.bits .bf16 < FTy.bits .f32) (ht : S1024x256.Transposes [1, 0] S256x1024) (h1 : S1024x1024.Reduces [1] S1024)
    (h2 : S1024.ShapeCasts S1024x1) (h3 : S1024x1.Reduces [0] S1) (h4 : S1.ShapeCasts S1x1) (h5 : S1x1.Broadcasts S1024x1024)
    (hs : S1024x1024.Slices ![0, 128 * jj.val] S1024x128) (hr : S1024x128.Reduces [1] S1024) (hc : S1024.ShapeCasts S1024x1)
    (hb : S1024x1.Broadcasts S1024x128) (hc' : S1024x1.ShapeCasts S8x128) (hc8 : S8x128.ShapeCasts S8x1x128)
    (i : Fin 8) (p : Fin 128) :
    shapeCast S8x1x128 (rowPool (F := Ideal)
        (simTile (rows (lift (clipBlock v t)) hsc hbf) (rows (lift (clipBlock w jc)) hsc hbf) ht)
        (expTile (simTile (rows (lift (clipBlock v t)) hsc hbf) (rows (lift (clipBlock w jc)) hsc hbf) ht) h1 h2 h3 h4 h5)
        ![0, 128 * jj.val] hs hr hc hb hc') hc8 (ix3 i (0 : Fin 1) p)
      = v2w v w (ix3 (⟨8 * t.val + i.val, by have := t.isLt; have := i.isLt; omega⟩ : Fin 64)
          (⟨8 * jc.val + jj.val, by have := jc.isLt; have := jj.isLt; omega⟩ : Fin 64) p) := by
  refine (shapeCast_apply _ hc8 (ix3 i (0 : Fin 1) p) (ix2 i p) ?_).trans ?_
  · rw [Shape.rowMajor_val_two, Shape.rowMajor_val_three]
    show i.val * 128 + p.val = (i.val * 1 + 0) * 128 + p.val
    omega
  refine (rowPool_value (clipBlock v t) (clipBlock w jc) jj hsc hbf ht h1 h2 h3 h4 h5 hs hr hc hb hc' i p).trans ?_
  rw [v2w_ix, v2wAt]
  simp only [blockSim_clipBlock]

/-- The piece stored into slab `[il, 8·jc : 8·jc + 8, :]` of the second output's block: entry `(0, jj, q)` is wifi frame
    `q` of clip `8·jc + jj` pooled over the frames of video clip `8t + il`. -/
theorem colPiece_value (v w : SClips.Idx → ℝ) (t jc il : Fin 8) (hsc : S8x128x256.ShapeCasts S1024x256)
    (hbf : FTy.bits .bf16 < FTy.bits .f32) (ht : S1024x256.Transposes [1, 0] S256x1024) (h1 : S1024x1024.Reduces [1] S1024)
    (h2 : S1024.ShapeCasts S1024x1) (h3 : S1024x1.Reduces [0] S1) (h4 : S1.ShapeCasts S1x1) (h5 : S1x1.Broadcasts S1024x1024)
    (hs : S1024x1024.Slices ![128 * il.val, 0] S128x1024) (hr : S128x1024.Reduces [0] S1024) (hc : S1024.ShapeCasts S1x1024)
    (hb : S1x1024.Broadcasts S128x1024) (hc' : S1x1024.ShapeCasts S8x128) (hc1 : S8x128.ShapeCasts S1x8x128)
    (jj : Fin 8) (q : Fin 128) :
    shapeCast S1x8x128 (colPool (F := Ideal)
        (simTile (rows (lift (clipBlock v t)) hsc hbf) (rows (lift (clipBlock w jc)) hsc hbf) ht)
        (expTile (simTile (rows (lift (clipBlock v t)) hsc hbf) (rows (lift (clipBlock w jc)) hsc hbf) ht) h1 h2 h3 h4 h5)
        ![128 * il.val, 0] hs hr hc hb hc') hc1 (ix3 (0 : Fin 1) jj q)
      = w2v v w (ix3 (⟨8 * t.val + il.val, by have := t.isLt; have := il.isLt; omega⟩ : Fin 64)
          (⟨8 * jc.val + jj.val, by have := jc.isLt; have := jj.isLt; omega⟩ : Fin 64) q) := by
  refine (shapeCast_ab_1ab_apply _ hc1 (0 : Fin 1) jj q).trans ?_
  refine (colPool_value (clipBlock v t) (clipBlock w jc) il hsc hbf ht h1 h2 h3 h4 h5 hs hr hc hb hc' jj q).trans ?_
  rw [w2v_ix, w2vAt]
  simp only [blockSim_clipBlock]

/-! ## The same two pieces as whole arrays -/

theorem rowPiece_fun (v w : SClips.Idx → ℝ) (t jc jj : Fin 8) (hsc : S8x128x256.ShapeCasts S1024x256)
    (hbf : FTy.bits .bf16 < FTy.bits .f32) (ht : S1024x256.Transposes [1, 0] S256x1024) (h1 : S1024x1024.Reduces [1] S1024)
    (h2 : S1024.ShapeCasts S1024x1) (h3 : S1024x1.Reduces [0] S1) (h4 : S1.ShapeCasts S1x1) (h5 : S1x1.Broadcasts S1024x1024)
    (hs : S1024x1024.Slices ![0, 128 * jj.val] S1024x128) (hr : S1024x128.Reduces [1] S1024) (hc : S1024.ShapeCasts S1024x1)
    (hb : S1024x1.Broadcasts S1024x128) (hc' : S1024x1.ShapeCasts S8x128) (hc8 : S8x128.ShapeCasts S8x1x128) :
    shapeCast S8x1x128 (rowPool (F := Ideal)
        (simTile (rows (lift (clipBlock v t)) hsc hbf) (rows (lift (clipBlock w jc)) hsc hbf) ht)
        (expTile (simTile (rows (lift (clipBlock v t)) hsc hbf) (rows (lift (clipBlock w jc)) hsc hbf) ht) h1 h2 h3 h4 h5)
        ![0, 128 * jj.val] hs hr hc hb hc') hc8
      = fun x : S8x1x128.Idx =>
          v2w v w (ix3 (⟨8 * t.val + (x 0).val, by have h : (x 0).val < 8 := (x 0).isLt; have := t.isLt; omega⟩ : Fin 64)
            (⟨8 * jc.val + jj.val, by have := jc.isLt; have := jj.isLt; omega⟩ : Fin 64) (x 2 : Fin 128)) := by
  funext x
  obtain ⟨i, u, p, rfl⟩ : ∃ (i : Fin 8) (u : Fin 1) (p : Fin 128), x = ix3 i u p := ⟨x 0, x 1, x 2, eq_ix3 x⟩
  obtain rfl : u = 0 := Subsingleton.elim _ _
  exact rowPiece_value v w t jc jj hsc hbf ht h1 h2 h3 h4 h5 hs hr hc hb hc' hc8 i p

theorem colPiece_fun (v w : SClips.Idx → ℝ) (t jc il : Fin 8) (hsc : S8x128x256.ShapeCasts S1024x256)
    (hbf : FTy.bits .bf16 < FTy.bits .f32) (ht : S1024x256.Transposes [1, 0] S256x1024) (h1 : S1024x1024.Reduces [1] S1024)
    (h2 : S1024.ShapeCasts S1024x1) (h3 : S1024x1.Reduces [0] S1) (h4 : S1.ShapeCasts S1x1) (h5 : S1x1.Broadcasts S1024x1024)
    (hs : S1024x1024.Slices ![128 * il.val, 0] S128x1024) (hr : S128x1024.Reduces [0] S1024) (hc : S1024.ShapeCasts S1x1024)
    (hb : S1x1024.Broadcasts S128x1024) (hc' : S1x1024.ShapeCasts S8x128) (hc1 : S8x128.ShapeCasts S1x8x128) :
    shapeCast S1x8x128 (colPool (F := Ideal)
        (simTile (rows (lift (clipBlock v t)) hsc hbf) (rows (lift (clipBlock w jc)) hsc hbf) ht)
        (expTile (simTile (rows (lift (clipBlock v t)) hsc hbf) (rows (lift (clipBlock w jc)) hsc hbf) ht) h1 h2 h3 h4 h5)
        ![128 * il.val, 0] hs hr hc hb hc') hc1
      = fun x : S1x8x128.Idx =>
          w2v v w (ix3 (⟨8 * t.val + il.val, by have := t.isLt; have := il.isLt; omega⟩ : Fin 64)
            (⟨8 * jc.val + (x 1).val, by have h : (x 1).val < 8 := (x 1).isLt; have := jc.isLt; omega⟩ : Fin 64) (x 2 : Fin 128)) := by
  funext x
  obtain ⟨u, jj, q, rfl⟩ : ∃ (u : Fin 1) (jj : Fin 8) (q : Fin 128), x = ix3 u jj q := ⟨x 0, x 1, x 2, eq_ix3 x⟩
  obtain rfl : u = 0 := Subsingleton.elim _ _
  exact colPiece_value v w t jc il hsc hbf ht h1 h2 h3 h4 h5 hs hr hc hb hc' hc1 jj q

end Cert.KernelIdeal.Tile

end
-- ==== Proof.IdealLoads.lean ====
/-
  The kernel body's loads as blocks of the two input arrays.

  At grid point `t` the video window's buffer holds clips 8·t … 8·t + 7 and the wifi window's buffer holds all 64
  wifi clips.  The body loads the video buffer whole, and for chunk `jc` the 8 wifi clips 8·jc … 8·jc + 7.  Each
  stored piece is then one of two uniform expressions in these loads: a row piece (wifi clip `jj` of chunk `jc`:
  every video frame pooled over that clip's frames) or a column piece (video clip `il` of the block: every wifi
  frame of the chunk pooled over that clip's frames).
-/
import proofs.«176710_j10599979286745_2_alg».proof.Proof.IdealArray
import proofs.«176710_j10599979286745_2_alg».proof.Proof.IdealPiece

set_option maxRecDepth 16384

noncomputable section

namespace Cert.KernelIdeal.Hand

open Cert.KernelIdeal Cert.KernelIdeal.Gen Cert.KernelIdeal.Tile Cert.ClipSpec
open Idealize.ShloMosaic Idealize.ShloMosaic.TcCoe Idealize.ShloMosaic.ValueIdx Idealize.SL.Sem
open Idealize.ShloMosaic.Pipeline (Dat)

section Generic

variable {F : FTy → Type} [FloatOps F]

/-- The body's load of the whole video buffer. -/
abbrev ldV (arg1 : Memref sig .tc .vmem S8x128x256 .f32) (harg1 : arg1.IsWhole) (x0 : Vec F S8x128x256 .f32) : Vec F S8x128x256 .f32 :=
  View.readAt (Elt F) arg1.view (Rect.unit (s := S8x128x256) ![0, 0, 0] S8x128x256.size inb_S8x128x256_S8x128x256_0_0_0).toLoadRect (harg1.unread x0)

/-- The body's load of 8 wifi clips starting at clip `o`. -/
abbrev ldW (arg2 : Memref sig .tc .vmem S64x128x256 .f32) (harg2 : arg2.IsWhole) (x1 : Vec F S64x128x256 .f32) (o : ℕ)
    (inb : ∀ a, (![o, 0, 0] : Fin 3 → ℕ) a + S8x128x256.size a ≤ S64x128x256.size a) : Vec F S8x128x256 .f32 :=
  View.readAt (Elt F) arg2.view (Rect.unit (s := S64x128x256) ![o, 0, 0] S8x128x256.size inb).toLoadRect (harg2.unread x1)

/-- The similarity tile of the video block with chunk `jc`. -/
abbrev simOf (arg1 : Memref sig .tc .vmem S8x128x256 .f32) (harg1 : arg1.IsWhole) (arg2 : Memref sig .tc .vmem S64x128x256 .f32) (harg2 : arg2.IsWhole)
    (x0 : Vec F S8x128x256 .f32) (x1 : Vec F S64x128x256 .f32) (jc : ℕ)
    (inb : ∀ a, (![8 * jc, 0, 0] : Fin 3 → ℕ) a + S8x128x256.size a ≤ S64x128x256.size a) : FVec F S1024x1024 .f32 :=
  Tile.simTile (Tile.rows (ldV arg1 harg1 x0) shapeCasts_S8x128x256_S1024x256 bitsLt_bf16_f32)
    (Tile.rows (ldW arg2 harg2 x1 (8 * jc) inb) shapeCasts_S8x128x256_S1024x256 bitsLt_bf16_f32) transposes_S1024x256_p1_0_S256x1024

/-- The row piece of chunk `jc`, wifi clip `jj`. -/
abbrev rowPiece (arg1 : Memref sig .tc .vmem S8x128x256 .f32) (harg1 : arg1.IsWhole) (arg2 : Memref sig .tc .vmem S64x128x256 .f32) (harg2 : arg2.IsWhole)
    (x0 : Vec F S8x128x256 .f32) (x1 : Vec F S64x128x256 .f32) (jc jj : ℕ)
    (inb : ∀ a, (![8 * jc, 0, 0] : Fin 3 → ℕ) a + S8x128x256.size a ≤ S64x128x256.size a)
    (hs : S1024x1024.Slices ![0, 128 * jj] S1024x128) : FVec F S8x1x128 .f32 :=
  shapeCast S8x1x128 (Tile.rowPool (simOf arg1 harg1 arg2 harg2 x0 x1 jc inb)
    (Tile.expTile (simOf arg1 harg1 arg2 harg2 x0 x1 jc inb)
      reduces_S1024x1024_S1024 shapeCasts_S1024_S1024x1 reduces_S1024x1_S1 shapeCasts_S1_S1x1 broadcasts_S1x1_S1024x1024)
    ![0, 128 * jj] hs reduces_S1024x128_S1024 shapeCasts_S1024_S1024x1 broadcasts_S1024x1_S1024x128 shapeCasts_S1024x1_S8x128)
    shapeCasts_S8x128_S8x1x128

/-- The column piece of chunk `jc`, video clip `il`. -/
abbrev colPiece (arg1 : Memref sig .tc .vmem S8x128x256 .f32) (harg1 : arg1.IsWhole) (arg2 : Memref sig .tc .vmem S64x128x256 .f32) (harg2 : arg2.IsWhole)
    (x0 : Vec F S8x128x256 .f32) (x1 : Vec F S64x128x256 .f32) (jc il : ℕ)
    (inb : ∀ a, (![8 * jc, 0, 0] : Fin 3 → ℕ) a + S8x128x256.size a ≤ S64x128x256.size a)
    (hs : S1024x1024.Slices ![128 * il, 0] S128x1024) : FVec F S1x8x128 .f32 :=
  shapeCast S1x8x128 (Tile.colPool (simOf arg1 harg1 arg2 harg2 x0 x1 jc inb)
    (Tile.expTile (simOf arg1 harg1 arg2 harg2 x0 x1 jc inb)
      reduces_S1024x1024_S1024 shapeCasts_S1024_S1024x1 reduces_S1024x1_S1 shapeCasts_S1_S1x1 broadcasts_S1x1_S1024x1024)
    ![128 * il, 0] hs reduces_S128x1024_S1024 shapeCasts_S1024_S1x1024 broadcasts_S1x1024_S128x1024 shapeCasts_S1x1024_S8x128)
    shapeCasts_S8x128_S1x8x128

theorem hz3 : (![0, 0, 0] : Fin 3 → ℕ) = fun _ => 0 := funext fun a => by fin_cases a <;> rfl

/-- The load of the whole video buffer is its contents. -/
theorem ldV_eq (arg1 : Memref sig .tc .vmem S8x128x256 .f32) (harg1 : arg1.IsWhole) (x0 : Vec F S8x128x256 .f32) :
    ldV arg1 harg1 x0 = x0 := by
  unfold ldV
  rw [View.readAt_eq_ld, harg1.read_unread]
  exact View.ld_unit_zero hz3 _ x0

end Generic

/-- A grid point as a number below 8. -/
def pt8 (t : Fin cfg0.N) : Fin 8 := ⟨t.val, by have h := t.isLt; have h8 : cfg0.N = 8 := N_0; omega⟩

variable (m : (ℓ : Loc nD τ sig) → Buf (Elt Ideal) ℓ)

/-- The load of 8 wifi clips starting at 8·jc, when the buffer holds all the wifi clips, is chunk `jc`. -/
theorem ldW_eq (arg2 : Memref sig .tc .vmem S64x128x256 .f32) (harg2 : arg2.IsWhole) (w : SClips.Idx → ℝ) (jc : Fin 8)
    (inb : ∀ a, (![8 * jc.val, 0, 0] : Fin 3 → ℕ) a + S8x128x256.size a ≤ S64x128x256.size a) :
    ldW (F := Ideal) arg2 harg2 (lift w) (8 * jc.val) inb = lift (clipBlock w jc) := by
  unfold ldW
  rw [View.readAt_eq_ld, harg2.read_unread]
  funext y
  show lift w ((Rect.unit (s := S64x128x256) ![8 * jc.val, 0, 0] S8x128x256.size inb).emb y) = lift (clipBlock w jc) y
  refine congrArg (fun i => ((w i : ℝ) : EReal)) ?_
  funext a
  apply Fin.ext
  match a with
  | ⟨0, _⟩ => show 8 * jc.val + 1 * (y 0).val = 8 * jc.val + (y 0).val; omega
  | ⟨1, _⟩ => show 0 + 1 * (y 1).val = (y 1).val; omega
  | ⟨2, _⟩ => show 0 + 1 * (y 2).val = (y 2).val; omega

/-- At point `t` the video window's block is clips 8·t … 8·t + 7. -/
theorem iblk0_eq (c : Dev nD) (v : SClips.Idx → ℝ) (hv : m ((c : Thread nD τ).loc main_arg0) = lift v) (t : Fin cfg0.N) :
    (iblk m c 0 t : Vec Ideal S8x128x256 .f32) = lift (clipBlock v (pt8 t)) := by
  obtain ⟨-, -, -, -, -, -, e0, e1, e2, -⟩ := idx_facts t
  funext y
  unfold iblk
  rw [View.read_apply]
  show m ((c : Thread nD τ).loc main_arg0) _ = lift (clipBlock v (pt8 t)) y
  rw [hv]
  refine congrArg (fun i => ((v i : ℝ) : EReal)) ?_
  funext a
  apply Fin.ext
  match a with
  | ⟨0, _⟩ => show win0_0.index t (0 : Fin 3) * 8 + 1 * (y 0).val = 8 * t.val + (y 0).val; rw [e0]; omega
  | ⟨1, _⟩ => show win0_0.index t (1 : Fin 3) * 128 + 1 * (y 1).val = (y 1).val; rw [e1]; omega
  | ⟨2, _⟩ => show win0_0.index t (2 : Fin 3) * 256 + 1 * (y 2).val = (y 2).val; rw [e2]; omega

/-- At every point the wifi window's block is the whole wifi array. -/
theorem iblk1_eq (c : Dev nD) (w : SClips.Idx → ℝ) (hw : m ((c : Thread nD τ).loc main_arg1) = lift w) (t : Fin cfg0.N) :
    (iblk m c 1 t : Vec Ideal S64x128x256 .f32) = lift w := by
  obtain ⟨-, -, -, -, -, -, -, -, -, e0, e1, e2⟩ := idx_facts t
  funext y
  unfold iblk
  rw [View.read_apply]
  show m ((c : Thread nD τ).loc main_arg1) _ = lift w y
  rw [hw]
  refine congrArg (fun i => ((w i : ℝ) : EReal)) ?_
  funext a
  apply Fin.ext
  match a with
  | ⟨0, _⟩ => show win0_1.index t (0 : Fin 3) * 64 + 1 * (y 0).val = (y 0).val; rw [e0]; omega
  | ⟨1, _⟩ => show win0_1.index t (1 : Fin 3) * 128 + 1 * (y 1).val = (y 1).val; rw [e1]; omega
  | ⟨2, _⟩ => show win0_1.index t (2 : Fin 3) * 256 + 1 * (y 2).val = (y 2).val; rw [e2]; omega

end Cert.KernelIdeal.Hand

end
-- ==== Proof.IdealValue3.lean ====
/-
  The second result array is the specification's wifi-to-video pooled similarity.

  At grid point `t` the body's 64 slab stores into the second output buffer are, for video clip `il` of the block and
  chunk `jc` of the wifi clips, the column piece of that chunk and clip: every wifi frame of the chunk's 8 clips pooled
  over the frames of video clip 8·t + il.  By the tile's value at real inputs this is the specification at
  (8·t + il, 8·jc + jj, q), which is where the store puts it: slab `[il, 8·jc : 8·jc + 8, :]` of the block.  The 64
  pieces tile the buffer, so the buffer is block `t` of the specification's array, and the 8 blocks tile the array.

  The values the run named are opened once for the whole list: every load becomes a block of the lifted inputs (the
  video buffer whole; the chunk of 8 wifi clips at offset 8·jc), after which each stored payload is, by unfolding
  alone, the uniform column pooling of the chunk's similarity tile and its exponentials.
-/
import proofs.«176710_j10599979286745_2_alg».proof.Proof.IdealLoads
import Idealize.ShloMosaic.Lib.Tactic

set_option maxRecDepth 16384

noncomputable section

namespace Cert.KernelIdeal.Hand

open Cert.KernelIdeal Cert.KernelIdeal.Gen Cert.KernelIdeal.Tile Cert.ClipSpec
open Idealize.ShloMosaic Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-- A property of every member of a list, member by member. -/
theorem forall_mem_cons_of3 {α : Type*} {P : α → Prop} {a : α} {l : List α} (ha : P a) (hl : ∀ x ∈ l, P x) :
    ∀ x ∈ a :: l, P x := List.forall_mem_cons.2 ⟨ha, hl⟩

/-- The chunk of 8 wifi clips read at offset `8·jc` of the whole wifi array is clips `8·jc … 8·jc + 7`. -/
theorem ld_chunk3 (w : SClips.Idx → ℝ) (jc : Fin 8) (off : Fin 3 → ℕ) (hoff : off = ![8 * jc.val, 0, 0])
    (inb : ∀ a, off a + S8x128x256.size a ≤ S64x128x256.size a) :
    View.ld (Val := Elt Ideal) (e' := .f32) (lift w : S64x128x256.Idx → EReal) (Rect.unit off S8x128x256.size inb)
      = lift (clipBlock w jc) := by
  subst hoff
  funext x
  show ((w _ : ℝ) : EReal) = ((w _ : ℝ) : EReal)
  refine congrArg (fun z => ((w z : ℝ) : EReal)) (funext fun a => Fin.ext ?_)
  match a with
  | ⟨0, _⟩ => show 8 * jc.val + 1 * (x 0).val = 8 * jc.val + (x 0).val; omega
  | ⟨1, _⟩ => show 0 + 1 * (x 1).val = (x 1).val; omega
  | ⟨2, _⟩ => show 0 + 1 * (x 2).val = (x 2).val; omega

/-- The column piece of video clip `il` and the chunk at column offset `o` (a multiple of 8: the chunk is `o / 8`), over
    real inputs, is the specification at the place its store puts it in block `t`: slab `[il, o : o + 8, :]`. -/
theorem colPiece_spec (v w : SClips.Idx → ℝ) (t : Fin cfg0.N) (il : Fin 8) (o : Fin 64) (ho : o.val % 8 = 0)
    (hs : S1024x1024.Slices ![128 * il.val, 0] S128x1024)
    (inbR : ∀ a, (![il.val, o.val, 0] : Fin 3 → ℕ) a + S1x8x128.size a ≤ S8x64x128.size a) (x : S1x8x128.Idx) :
    shapeCast S1x8x128 (colPool (F := Ideal)
        (simTile (rows (lift (clipBlock v (pt8 t))) shapeCasts_S8x128x256_S1024x256 bitsLt_bf16_f32)
          (rows (lift (clipBlock w ⟨o.val / 8, by have := o.isLt; omega⟩)) shapeCasts_S8x128x256_S1024x256 bitsLt_bf16_f32)
          transposes_S1024x256_p1_0_S256x1024)
        (expTile (simTile (rows (lift (clipBlock v (pt8 t))) shapeCasts_S8x128x256_S1024x256 bitsLt_bf16_f32)
          (rows (lift (clipBlock w ⟨o.val / 8, by have := o.isLt; omega⟩)) shapeCasts_S8x128x256_S1024x256 bitsLt_bf16_f32)
          transposes_S1024x256_p1_0_S256x1024)
          reduces_S1024x1024_S1024 shapeCasts_S1024_S1024x1 reduces_S1024x1_S1 shapeCasts_S1_S1x1 broadcasts_S1x1_S1024x1024)
        ![128 * il.val, 0] hs reduces_S128x1024_S1024 shapeCasts_S1024_S1x1024 broadcasts_S1x1024_S128x1024 shapeCasts_S1x1024_S8x128)
        shapeCasts_S8x128_S1x8x128 x
      = w2v v w (((cfg0.win 3).blk t).view.emb ((Rect.unit (s := S8x64x128) ![il.val, o.val, 0] S1x8x128.size inbR).emb x)) := by
  obtain ⟨-, -, -, e0, e1, e2, -⟩ := idx_facts t
  have hx0 : (x 0).val < 1 := (x 0).isLt
  have ho64 : o.val < 64 := o.isLt
  rw [colPiece_fun v w (pt8 t) ⟨o.val / 8, by omega⟩ il]
  refine congrArg (w2v v w) ?_
  funext a
  apply Fin.ext
  match a with
  | ⟨0, _⟩ => show 8 * t.val + il.val = win0_3.index t (0 : Fin 3) * 8 + 1 * (il.val + 1 * (x 0).val); rw [e0]; omega
  | ⟨1, _⟩ => show 8 * (o.val / 8) + (x 1).val = win0_3.index t (1 : Fin 3) * 64 + 1 * (o.val + 1 * (x 1).val); rw [e1]; omega
  | ⟨2, _⟩ => show (x 2).val = win0_3.index t (2 : Fin 3) * 128 + 1 * (0 + 1 * (x 2).val); rw [e2]; omega

set_option maxHeartbeats 1000000 in
/-- At every point the second output buffer is block `t` of the specification's array. -/
theorem block3 (c : Dev nD) (v w : SClips.Idx → ℝ) (hv : m ((c : Thread nD τ).loc main_arg0) = lift v)
    (hw : m ((c : Thread nD τ).loc main_arg1) = lift w) (t : Fin cfg0.N) :
    outAt3 m c t = ((cfg0.win 3).blk t).view.read (Elt Ideal) (w2v v w) := by
  unfold outAt3 out3
  rw [iblk0_eq m c v hv t, iblk1_eq m c w hw t]
  rw [View.read_writes_eq_canon _ _ _ (cover3 c _ _ _ _ _ _ _ _ _ _ _)]
  funext y
  rw [View.read_apply]
  refine View.canon_apply_of_pieces (Val := Elt Ideal) (S := S8x64x128) (e := EltTy.f32)
    (fun y => w2v v w (((cfg0.win 3).blk t).view.emb y)) _ ?_ y (cover3 c _ _ _ _ _ _ _ _ _ _ _ y)
  unfold kernelRun
  dsimp only
  -- every load of the run, as a block of the lifted inputs
  sl_unfold_run_names
  simp only [View.readAt_eq_ld, Memref.IsWhole.read_unread, View.ld_unit_zero (S := S8x128x256) hz3,
    ld_chunk3 w 0 ![0, 0, 0] rfl, ld_chunk3 w 1 ![8, 0, 0] rfl, ld_chunk3 w 2 ![16, 0, 0] rfl, ld_chunk3 w 3 ![24, 0, 0] rfl,
    ld_chunk3 w 4 ![32, 0, 0] rfl, ld_chunk3 w 5 ![40, 0, 0] rfl, ld_chunk3 w 6 ![48, 0, 0] rfl, ld_chunk3 w 7 ![56, 0, 0] rfl]
  -- the 64 pieces, one by one: the store's rectangle names the clip and the chunk, and the payload is that column piece
  repeat' (first | exact (fun _ h => absurd h List.not_mem_nil) | refine forall_mem_cons_of3 ?_ ?_)
  all_goals (
    intro x
    refine Eq.trans ?_ (colPiece_spec v w t ⟨_, by decide⟩ ⟨_, by decide⟩ (by decide) (by decide) (by decide) x)
    rfl)

/-- The second result array ends as the specification's. -/
theorem final3 (c : Dev nD) (v w : SClips.Idx → ℝ) (hv : m ((c : Thread nD τ).loc main_arg0) = lift v)
    (hw : m ((c : Thread nD τ).loc main_arg1) = lift w) : (dats m 0 c).arrAt 3 cfg0.N = w2v v w :=
  final3_of m c _ (block3 m c v w hv hw)

end Cert.KernelIdeal.Hand

end
-- ==== Proof.IdealValue2a.lean ====
/-
  The first result array is the specification's video-to-wifi pooled similarity.

  At grid point `t` the body's 64 row stores into the first output buffer are, for wifi clip `k` (chunk `k / 8`, clip
  `k % 8` of the chunk), the row piece of that chunk and clip over the video clips 8·t … 8·t + 7: every video frame of
  the block's 8 clips pooled over the frames of wifi clip `k`.  By the tile's value at real inputs this is the
  specification at (8·t + i, k, p), which is where the store puts it: rows `[:, k, :]` of the block.  The 64 pieces tile
  the buffer, so the buffer is block `t` of the specification's array, and the 8 blocks tile the array.

  As for the second array, the values the run named are opened once for the whole list, after which each stored
  payload is, by unfolding alone, the uniform row pooling of the chunk's similarity tile and its exponentials.
-/
import proofs.«176710_j10599979286745_2_alg».proof.Proof.IdealValue3

set_option maxRecDepth 16384

noncomputable section

namespace Cert.KernelIdeal.Hand

open Cert.KernelIdeal Cert.KernelIdeal.Gen Cert.KernelIdeal.Tile Cert.ClipSpec
open Idealize.ShloMosaic Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-- The row piece of wifi clip `k` (chunk `k / 8`, clip `k % 8` of the chunk), over real inputs, is the specification at
    the place its store puts it in block `t`: rows `[:, k, :]`. -/
theorem rowPiece_spec' (v w : SClips.Idx → ℝ) (t : Fin cfg0.N) (k : Fin 64)
    (hs : S1024x1024.Slices ![0, 128 * (k.val % 8)] S1024x128)
    (inbR : ∀ a, (![0, k.val, 0] : Fin 3 → ℕ) a + S8x1x128.size a ≤ S8x64x128.size a) (x : S8x1x128.Idx) :
    shapeCast S8x1x128 (rowPool (F := Ideal)
        (simTile (rows (lift (clipBlock v (pt8 t))) shapeCasts_S8x128x256_S1024x256 bitsLt_bf16_f32)
          (rows (lift (clipBlock w ⟨k.val / 8, by have := k.isLt; omega⟩)) shapeCasts_S8x128x256_S1024x256 bitsLt_bf16_f32)
          transposes_S1024x256_p1_0_S256x1024)
        (expTile (simTile (rows (lift (clipBlock v (pt8 t))) shapeCasts_S8x128x256_S1024x256 bitsLt_bf16_f32)
          (rows (lift (clipBlock w ⟨k.val / 8, by have := k.isLt; omega⟩)) shapeCasts_S8x128x256_S1024x256 bitsLt_bf16_f32)
          transposes_S1024x256_p1_0_S256x1024)
          reduces_S1024x1024_S1024 shapeCasts_S1024_S1024x1 reduces_S1024x1_S1 shapeCasts_S1_S1x1 broadcasts_S1x1_S1024x1024)
        ![0, 128 * (k.val % 8)] hs reduces_S1024x128_S1024 shapeCasts_S1024_S1024x1 broadcasts_S1024x1_S1024x128 shapeCasts_S1024x1_S8x128)
        shapeCasts_S8x128_S8x1x128 x
      = v2w v w (((cfg0.win 2).blk t).view.emb ((Rect.unit (s := S8x64x128) ![0, k.val, 0] S8x1x128.size inbR).emb x)) := by
  obtain ⟨e0, e1, e2, -⟩ := idx_facts t
  have hx1 : (x 1).val < 1 := (x 1).isLt
  have hk : k.val < 64 := k.isLt
  rw [rowPiece_fun v w (pt8 t) ⟨k.val / 8, by omega⟩ ⟨k.val % 8, by omega⟩]
  refine congrArg (v2w v w) ?_
  funext a
  apply Fin.ext
  match a with
  | ⟨0, _⟩ => show 8 * t.val + (x 0).val = win0_2.index t (0 : Fin 3) * 8 + 1 * (0 + 1 * (x 0).val); rw [e0]; omega
  | ⟨1, _⟩ => show 8 * (k.val / 8) + k.val % 8 = win0_2.index t (1 : Fin 3) * 64 + 1 * (k.val + 1 * (x 1).val); rw [e1]; omega
  | ⟨2, _⟩ => show (x 2).val = win0_2.index t (2 : Fin 3) * 128 + 1 * (0 + 1 * (x 2).val); rw [e2]; omega

set_option maxHeartbeats 1000000 in
/-- At every point the first output buffer is block `t` of the specification's array. -/
theorem block2 (c : Dev nD) (v w : SClips.Idx → ℝ) (hv : m ((c : Thread nD τ).loc main_arg0) = lift v)
    (hw : m ((c : Thread nD τ).loc main_arg1) = lift w) (t : Fin cfg0.N) :
    outAt2 m c t = ((cfg0.win 2).blk t).view.read (Elt Ideal) (v2w v w) := by
  unfold outAt2 out2
  rw [iblk0_eq m c v hv t, iblk1_eq m c w hw t]
  rw [View.read_writes_eq_canon _ _ _ (cover2 c _ _ _ _ _ _ _ _ _ _ _)]
  funext y
  rw [View.read_apply]
  refine View.canon_apply_of_pieces (Val := Elt Ideal) (S := S8x64x128) (e := EltTy.f32)
    (fun y => v2w v w (((cfg0.win 2).blk t).view.emb y)) _ ?_ y (cover2 c _ _ _ _ _ _ _ _ _ _ _ y)
  unfold kernelRun
  dsimp only
  -- every load of the run, as a block of the lifted inputs
  sl_unfold_run_names
  simp only [View.readAt_eq_ld, Memref.IsWhole.read_unread, View.ld_unit_zero (S := S8x128x256) hz3,
    ld_chunk3 w 0 ![0, 0, 0] rfl, ld_chunk3 w 1 ![8, 0, 0] rfl, ld_chunk3 w 2 ![16, 0, 0] rfl, ld_chunk3 w 3 ![24, 0, 0] rfl,
    ld_chunk3 w 4 ![32, 0, 0] rfl, ld_chunk3 w 5 ![40, 0, 0] rfl, ld_chunk3 w 6 ![48, 0, 0] rfl, ld_chunk3 w 7 ![56, 0, 0] rfl]
  -- the 64 pieces, one by one: the store's rectangle names the wifi clip, and the payload is that row piece
  repeat' (first | exact (fun _ h => absurd h List.not_mem_nil) | refine forall_mem_cons_of3 ?_ ?_)
  all_goals (
    intro x
    refine Eq.trans ?_ (rowPiece_spec' v w t ⟨_, by decide⟩ (by decide) (by decide) x)
    rfl)

/-- The first result array ends as the specification's. -/
theorem final2 (c : Dev nD) (v w : SClips.Idx → ℝ) (hv : m ((c : Thread nD τ).loc main_arg0) = lift v)
    (hw : m ((c : Thread nD τ).loc main_arg1) = lift w) : (dats m 0 c).arrAt 2 cfg0.N = v2w v w :=
  final2_of m c _ (block2 m c v w hv hw)

end Cert.KernelIdeal.Hand

end
-- ==== Proof.RefValue.lean ====
/-
  The reference's two pooled arrays, read index by index, are the specification's closed formulas.

  At real inputs every stage of the reference's first 42 operations is the coercion of a real number.  The
  similarity array is the inner product `sim`; dividing by the temperature 1/2 doubles it; the maximum the
  reference subtracts along a row (a column) is the maximum of finitely many reals, hence SOME real `M`; the
  exponentials, their sum along the row (column), the quotient and the final weighted sum are then exactly the
  shifted softmax-weighted sum whose value does not depend on `M`.
-/
import proofs.«176710_j10599979286745_2_alg».proof.Proof.Gen.ReferenceIdeal.Read
import proofs.«176710_j10599979286745_2_alg».proof.Proof.Spec
import proofs.«176710_j10599979286745_2_alg».proof.Proof.LibSoftmaxShift

noncomputable section

namespace Cert.ReferenceIdeal.RefValue

open Cert.ReferenceIdeal Cert.ReferenceIdeal.Gen Cert.ReferenceIdeal.Read Cert.ClipSpec
open Idealize.ShloMosaic Idealize.ShloMosaic.ValueIdx

/-! ## Literals and the maximum of finitely many reals -/

/-- The word 0x3F000000 is one half. -/
theorem half_f32 : Ideal.ofBits .f32 0x3F000000#32 = ((1 / 2 : ℝ) : EReal) := by
  simp [Ideal.ofBits, Ideal.ieee]
  rw [← EReal.coe_mul]
  exact congrArg _ (by norm_num)

/-- The word 0xFF800000 is minus infinity. -/
theorem negInf_f32 : Ideal.ofBits .f32 0xFF800000#32 = (⊥ : EReal) := by
  simp [Ideal.ofBits, Ideal.ieee]

/-- Dividing a real by one half doubles it. -/
theorem div_half (x : ℝ) : Ideal.div (x : EReal) (Ideal.ofBits .f32 0x3F000000#32) = ((2 * x : ℝ) : EReal) := by
  rw [half_f32, Ideal.div_coe (by norm_num), ← EReal.coe_mul]
  congr 1
  rw [one_div_one_div]
  ring

/-- From minus infinity, the running maximum of coerced reals is minus infinity or a coerced real. -/
theorem fold_max_bot_or_coe {ι : Type*} (s : Finset ι) (f : ι → ℝ) :
    s.fold max (⊥ : EReal) (fun k => ((f k : ℝ) : EReal)) = ⊥
      ∨ ∃ M : ℝ, s.fold max (⊥ : EReal) (fun k => ((f k : ℝ) : EReal)) = (M : EReal) := by
  classical
  induction s using Finset.induction_on with
  | empty => exact Or.inl Finset.fold_empty
  | insert a s ha ih =>
    refine Or.inr ?_
    rw [Finset.fold_insert ha]
    rcases ih with h | ⟨M, h⟩
    · exact ⟨f a, by rw [h, max_eq_left bot_le]⟩
    · exact ⟨max (f a) M, by rw [h, EReal.coe_strictMono.monotone.map_max]⟩

/-- Over a nonempty index set it is a coerced real: the maximum of finitely many reals is a real. -/
theorem fold_max_real {ι : Type*} (s : Finset ι) (hs : s.Nonempty) (f : ι → ℝ) :
    ∃ M : ℝ, s.fold max (⊥ : EReal) (fun k => ((f k : ℝ) : EReal)) = (M : EReal) := by
  obtain ⟨a, ha⟩ := hs
  rcases fold_max_bot_or_coe s f with h | h
  · exfalso
    have hle : ((f a : ℝ) : EReal) ≤ s.fold max (⊥ : EReal) (fun k => ((f k : ℝ) : EReal)) :=
      (Finset.le_fold_max _).2 (Or.inr ⟨a, ha, le_rfl⟩)
    rw [h] at hle
    exact EReal.coe_ne_bot _ (le_bot_iff.1 hle)
  · exact h

/-! ## Index equations

  The generated stages read their operands at composed index functions; at an index given by explicit
  coordinates each of them is again an index with explicit coordinates. -/

theorem lidx_v0 (i j : Fin 64) (p q : Fin 128) (k : Fin 256) :
    lidx_main_v0 (idx_main_v1 (ix4 i j p q)) k = ix3 j q k :=
  funext fun a => Fin.ext (by match a with | ⟨0, _⟩ => rfl | ⟨1, _⟩ => rfl | ⟨2, _⟩ => rfl)

theorem ridx_v0 (i j : Fin 64) (p q : Fin 128) (k : Fin 256) :
    ridx_main_v0 (idx_main_v1 (ix4 i j p q)) k = ix3 i p k :=
  funext fun a => Fin.ext (by match a with | ⟨0, _⟩ => rfl | ⟨1, _⟩ => rfl | ⟨2, _⟩ => rfl)

theorem idx_v7_v8 (i j : Fin 64) (p q : Fin 128) : idx_main_v7 (idx_main_v8 (ix4 i j p q)) = ix3 i j p :=
  funext fun a => Fin.ext (by match a with | ⟨0, _⟩ => rfl | ⟨1, _⟩ => rfl | ⟨2, _⟩ => rfl)

theorem idx_v12_v13 (i j : Fin 64) (p q : Fin 128) : idx_main_v12 (idx_main_v13 (ix4 i j p q)) = ix3 i j p :=
  funext fun a => Fin.ext (by match a with | ⟨0, _⟩ => rfl | ⟨1, _⟩ => rfl | ⟨2, _⟩ => rfl)

theorem idx_v11 (i j : Fin 64) (p k : Fin 128) : idx_main_v11 (ix3 i j p) k = ix4 i j p k :=
  funext fun a => Fin.ext (by match a with | ⟨0, _⟩ => rfl | ⟨1, _⟩ => rfl | ⟨2, _⟩ => rfl | ⟨3, _⟩ => rfl)

theorem idx_v16 (i j : Fin 64) (p k : Fin 128) : idx_main_v16 (ix3 i j p) k = ix4 i j p k :=
  funext fun a => Fin.ext (by match a with | ⟨0, _⟩ => rfl | ⟨1, _⟩ => rfl | ⟨2, _⟩ => rfl | ⟨3, _⟩ => rfl)

theorem idx_v22_v23 (i j : Fin 64) (p q : Fin 128) : idx_main_v22 (idx_main_v23 (ix4 i j p q)) = ix3 i j q :=
  funext fun a => Fin.ext (by match a with | ⟨0, _⟩ => rfl | ⟨1, _⟩ => rfl | ⟨2, _⟩ => rfl)

theorem idx_v27_v28 (i j : Fin 64) (p q : Fin 128) : idx_main_v27 (idx_main_v28 (ix4 i j p q)) = ix3 i j q :=
  funext fun a => Fin.ext (by match a with | ⟨0, _⟩ => rfl | ⟨1, _⟩ => rfl | ⟨2, _⟩ => rfl)

theorem idx_v26 (i j : Fin 64) (q k : Fin 128) : idx_main_v26 (ix3 i j q) k = ix4 i j k q :=
  funext fun a => Fin.ext (by match a with | ⟨0, _⟩ => rfl | ⟨1, _⟩ => rfl | ⟨2, _⟩ => rfl | ⟨3, _⟩ => rfl)

theorem idx_v31 (i j : Fin 64) (q k : Fin 128) : idx_main_v31 (ix3 i j q) k = ix4 i j k q :=
  funext fun a => Fin.ext (by match a with | ⟨0, _⟩ => rfl | ⟨1, _⟩ => rfl | ⟨2, _⟩ => rfl | ⟨3, _⟩ => rfl)

/-- The index `(i, j, p)` with coordinate `k` put back on the last axis. -/
theorem lift_d3 (h : S64x64x128x128.Reduces [3] S64x64x128) (i j : Fin 64) (p : Fin 128)
    (k : Fin (S64x64x128x128.size 3)) : h.lift (ix3 i j p) k = ix4 i j p (⟨k.val, k.isLt⟩ : Fin 128) := by
  funext c; apply Fin.ext
  fin_cases c <;> rfl

/-- The index `(i, j, q)` with coordinate `k` put back on the third axis. -/
theorem lift_d2 (h : S64x64x128x128.Reduces [2] S64x64x128) (i j : Fin 64) (q : Fin 128)
    (k : Fin (S64x64x128x128.size 2)) : h.lift (ix3 i j q) k = ix4 i j (⟨k.val, k.isLt⟩ : Fin 128) q := by
  funext c; apply Fin.ext
  fin_cases c <;> rfl

/-! ## The two maxima are reals -/

/-- The maximum along the last axis of an array whose row `(i, j, p, ·)` holds reals is a real. -/
theorem rowMax_real (X : (⟨S64x64x128x128, .f32⟩ : BufTy).Contents (Elt Ideal))
    (c : (⟨S_, .f32⟩ : BufTy).Contents (Elt Ideal)) (hc : ∀ z, c z = (⊥ : EReal))
    (i j : Fin 64) (p : Fin 128) (g : Fin 128 → ℝ) (hX : ∀ q : Fin 128, X (ix4 i j p q) = ((g q : ℝ) : EReal)) :
    ∃ M : ℝ, Host.reduce (FloatOps.maximumf (F := Ideal) (φ := .f32)) X c reducesTo_S64x64x128x128_S64x64x128_d3 h_S_ (ix3 i j p) = (M : EReal) := by
  have h : S64x64x128x128.Reduces [3] S64x64x128 := by decide
  have hf : (X ∘ h.lift (ix3 i j p)) = fun k : Fin (S64x64x128x128.size 3) => ((g ⟨k.val, k.isLt⟩ : ℝ) : EReal) :=
    funext fun k => (congrArg X (lift_d3 h i j p k)).trans (hX _)
  obtain ⟨M, hM⟩ := fold_max_real (Finset.univ : Finset (Fin (S64x64x128x128.size 3)))
    ⟨⟨0, by decide⟩, Finset.mem_univ _⟩ (fun k => g ⟨k.val, k.isLt⟩)
  refine ⟨M, ?_⟩
  rw [Host.reduce_eq_fold_single (FloatOps.maximumf (F := Ideal) (φ := .f32)) X c reducesTo_S64x64x128x128_S64x64x128_d3 h h_S_, hc, hf]
  exact hM

/-- The maximum along the third axis of an array whose column `(i, j, ·, q)` holds reals is a real. -/
theorem colMax_real (X : (⟨S64x64x128x128, .f32⟩ : BufTy).Contents (Elt Ideal))
    (c : (⟨S_, .f32⟩ : BufTy).Contents (Elt Ideal)) (hc : ∀ z, c z = (⊥ : EReal))
    (i j : Fin 64) (q : Fin 128) (g : Fin 128 → ℝ) (hX : ∀ p : Fin 128, X (ix4 i j p q) = ((g p : ℝ) : EReal)) :
    ∃ M : ℝ, Host.reduce (FloatOps.maximumf (F := Ideal) (φ := .f32)) X c reducesTo_S64x64x128x128_S64x64x128_d2 h_S_ (ix3 i j q) = (M : EReal) := by
  have h : S64x64x128x128.Reduces [2] S64x64x128 := by decide
  have hf : (X ∘ h.lift (ix3 i j q)) = fun k : Fin (S64x64x128x128.size 2) => ((g ⟨k.val, k.isLt⟩ : ℝ) : EReal) :=
    funext fun k => (congrArg X (lift_d2 h i j q k)).trans (hX _)
  obtain ⟨M, hM⟩ := fold_max_real (Finset.univ : Finset (Fin (S64x64x128x128.size 2)))
    ⟨⟨0, by decide⟩, Finset.mem_univ _⟩ (fun k => g ⟨k.val, k.isLt⟩)
  refine ⟨M, ?_⟩
  rw [Host.reduce_eq_fold_single (FloatOps.maximumf (F := Ideal) (φ := .f32)) X c reducesTo_S64x64x128x128_S64x64x128_d2 h h_S_, hc, hf]
  exact hM

/-! ## The similarity array and its doubling -/

/-- The transposed contraction at `(i, j, p, q)` is the similarity of video frame `(i, p)` and wifi frame `(j, q)`. -/
theorem sim_ix (v w : SClips.Idx → ℝ) (i j : Fin 64) (p q : Fin 128) :
    val_main_v1 (F := Ideal) (lift v) (lift w) (ix4 i j p q) = ((sim v w i j p q : ℝ) : EReal) := by
  rw [val_main_v1_apply, val_main_v0_apply]
  unfold sim
  rw [Lib.SoftmaxShift.coe_sum]
  refine Finset.sum_congr rfl fun k _ => ?_
  rw [lidx_v0, ridx_v0, EReal.coe_mul, mul_comm]
  rfl

/-- Divided by the temperature one half (for the pooling over wifi frames). -/
theorem v3_ix (v w : SClips.Idx → ℝ) (i j : Fin 64) (p q : Fin 128) :
    val_main_v3 (F := Ideal) (lift v) (lift w) (ix4 i j p q) = ((2 * sim v w i j p q : ℝ) : EReal) := by
  rw [val_main_v3_apply, val_main_v2_apply, val_main_cst_apply, sim_ix]
  exact div_half _

/-- Divided by the temperature one half (for the pooling over video frames). -/
theorem v18_ix (v w : SClips.Idx → ℝ) (i j : Fin 64) (p q : Fin 128) :
    val_main_v18 (F := Ideal) (lift v) (lift w) (ix4 i j p q) = ((2 * sim v w i j p q : ℝ) : EReal) := by
  rw [val_main_v18_apply, val_main_v17_apply, val_main_cst_4_apply, sim_ix]
  exact div_half _

/-! ## Pooling over the wifi frames -/

/-- The row maximum the reference subtracts is some real. -/
theorem v6_real (v w : SClips.Idx → ℝ) (i j : Fin 64) (p : Fin 128) :
    ∃ M : ℝ, val_main_v6 (F := Ideal) (lift v) (lift w) (ix3 i j p) = (M : EReal) := by
  obtain ⟨M, hM⟩ := rowMax_real (val_main_v3 (F := Ideal) (lift v) (lift w)) (val_main_cst_0 (F := Ideal))
    (fun z => (val_main_cst_0_apply z).trans negInf_f32) i j p (fun q => 2 * sim v w i j p q) (fun q => v3_ix v w i j p q)
  refine ⟨M, ?_⟩
  rw [val_main_v6_apply, val_main_v5_apply, val_main_cst_1_apply]
  show max (Ideal.ofBits .f32 0xFF800000#32) (val_main_v4 (F := Ideal) (lift v) (lift w) (ix3 i j p)) = _
  rw [negInf_f32, max_eq_right bot_le]
  unfold val_main_v4
  exact hM

theorem v8_ix (v w : SClips.Idx → ℝ) (i j : Fin 64) (p q : Fin 128) :
    val_main_v8 (F := Ideal) (lift v) (lift w) (ix4 i j p q) = val_main_v6 (F := Ideal) (lift v) (lift w) (ix3 i j p) := by
  rw [val_main_v8_apply, val_main_v7_apply, idx_v7_v8]

/-- The shifted exponential. -/
theorem v10_ix (v w : SClips.Idx → ℝ) (i j : Fin 64) (p : Fin 128) (M : ℝ)
    (hM : val_main_v6 (F := Ideal) (lift v) (lift w) (ix3 i j p) = (M : EReal)) (q : Fin 128) :
    val_main_v10 (F := Ideal) (lift v) (lift w) (ix4 i j p q)
      = Ideal.exp (((2 * sim v w i j p q : ℝ) : EReal) - (M : EReal)) := by
  rw [val_main_v10_apply, val_main_v9_apply, v3_ix, v8_ix, hM]
  rfl

/-- The row's sum of shifted exponentials. -/
theorem v11_ix (v w : SClips.Idx → ℝ) (i j : Fin 64) (p : Fin 128) (M : ℝ)
    (hM : val_main_v6 (F := Ideal) (lift v) (lift w) (ix3 i j p) = (M : EReal)) :
    val_main_v11 (F := Ideal) (lift v) (lift w) (ix3 i j p)
      = ∑ k : Fin 128, Ideal.exp (((2 * sim v w i j p k : ℝ) : EReal) - (M : EReal)) := by
  rw [val_main_v11_apply, val_main_cst_2_apply]
  show Ideal.ofBits .f32 0x00000000#32 + _ = _
  rw [Ideal.ofBits_zero_f32, zero_add]
  refine Finset.sum_congr rfl fun k _ => ?_
  rw [idx_v11, v10_ix v w i j p M hM]

theorem v13_ix (v w : SClips.Idx → ℝ) (i j : Fin 64) (p q : Fin 128) :
    val_main_v13 (F := Ideal) (lift v) (lift w) (ix4 i j p q) = val_main_v11 (F := Ideal) (lift v) (lift w) (ix3 i j p) := by
  rw [val_main_v13_apply, val_main_v12_apply, idx_v12_v13]

/-- The similarity times its softmax weight. -/
theorem v15_ix (v w : SClips.Idx → ℝ) (i j : Fin 64) (p : Fin 128) (M : ℝ)
    (hM : val_main_v6 (F := Ideal) (lift v) (lift w) (ix3 i j p) = (M : EReal)) (q : Fin 128) :
    val_main_v15 (F := Ideal) (lift v) (lift w) (ix4 i j p q)
      = ((sim v w i j p q : ℝ) : EReal) * Ideal.div (Ideal.exp (((2 * sim v w i j p q : ℝ) : EReal) - (M : EReal)))
          (∑ k : Fin 128, Ideal.exp (((2 * sim v w i j p k : ℝ) : EReal) - (M : EReal))) := by
  rw [val_main_v15_apply, val_main_v14_apply, sim_ix, v10_ix v w i j p M hM, v13_ix, v11_ix v w i j p M hM]
  rfl

/-- The pooled value at `(i, j, p)`. -/
theorem v16_ix (v w : SClips.Idx → ℝ) (i j : Fin 64) (p : Fin 128) :
    val_main_v16 (F := Ideal) (lift v) (lift w) (ix3 i j p) = ((v2wAt v w i j p : ℝ) : EReal) := by
  obtain ⟨M, hM⟩ := v6_real v w i j p
  rw [val_main_v16_apply, val_main_cst_3_apply]
  show Ideal.ofBits .f32 0x00000000#32 + _ = _
  rw [Ideal.ofBits_zero_f32, zero_add]
  refine (Finset.sum_congr rfl fun k _ => ?_).trans
    (Lib.SoftmaxShift.weighted_coe (fun q => sim v w i j p q) (fun q => 2 * sim v w i j p q) M)
  rw [idx_v16, v15_ix v w i j p M hM]

/-- The reference's first pooled array is the specification's. -/
theorem ref_v2w (v w : Cert.ClipSpec.SClips.Idx → ℝ) :
    Cert.ReferenceIdeal.Read.val_main_v16 (F := Ideal) (Cert.ClipSpec.lift v) (Cert.ClipSpec.lift w) = Cert.ClipSpec.v2w v w := by
  funext y
  obtain ⟨i, j, p, rfl⟩ : ∃ (i j : Fin 64) (p : Fin 128), y = ix3 i j p := ⟨y 0, y 1, y 2, eq_ix3 y⟩
  rw [v2w_ix]
  exact v16_ix v w i j p

/-! ## Pooling over the video frames -/

/-- The column maximum the reference subtracts is some real. -/
theorem v21_real (v w : SClips.Idx → ℝ) (i j : Fin 64) (q : Fin 128) :
    ∃ M : ℝ, val_main_v21 (F := Ideal) (lift v) (lift w) (ix3 i j q) = (M : EReal) := by
  obtain ⟨M, hM⟩ := colMax_real (val_main_v18 (F := Ideal) (lift v) (lift w)) (val_main_cst_5 (F := Ideal))
    (fun z => (val_main_cst_5_apply z).trans negInf_f32) i j q (fun p => 2 * sim v w i j p q) (fun p => v18_ix v w i j p q)
  refine ⟨M, ?_⟩
  rw [val_main_v21_apply, val_main_v20_apply, val_main_cst_6_apply]
  show max (Ideal.ofBits .f32 0xFF800000#32) (val_main_v19 (F := Ideal) (lift v) (lift w) (ix3 i j q)) = _
  rw [negInf_f32, max_eq_right bot_le]
  unfold val_main_v19
  exact hM

theorem v23_ix (v w : SClips.Idx → ℝ) (i j : Fin 64) (p q : Fin 128) :
    val_main_v23 (F := Ideal) (lift v) (lift w) (ix4 i j p q) = val_main_v21 (F := Ideal) (lift v) (lift w) (ix3 i j q) := by
  rw [val_main_v23_apply, val_main_v22_apply, idx_v22_v23]

/-- The shifted exponential. -/
theorem v25_ix (v w : SClips.Idx → ℝ) (i j : Fin 64) (q : Fin 128) (M : ℝ)
    (hM : val_main_v21 (F := Ideal) (lift v) (lift w) (ix3 i j q) = (M : EReal)) (p : Fin 128) :
    val_main_v25 (F := Ideal) (lift v) (lift w) (ix4 i j p q)
      = Ideal.exp (((2 * sim v w i j p q : ℝ) : EReal) - (M : EReal)) := by
  rw [val_main_v25_apply, val_main_v24_apply, v18_ix, v23_ix, hM]
  rfl

/-- The column's sum of shifted exponentials. -/
theorem v26_ix (v w : SClips.Idx → ℝ) (i j : Fin 64) (q : Fin 128) (M : ℝ)
    (hM : val_main_v21 (F := Ideal) (lift v) (lift w) (ix3 i j q) = (M : EReal)) :
    val_main_v26 (F := Ideal) (lift v) (lift w) (ix3 i j q)
      = ∑ k : Fin 128, Ideal.exp (((2 * sim v w i j k q : ℝ) : EReal) - (M : EReal)) := by
  rw [val_main_v26_apply, val_main_cst_7_apply]
  show Ideal.ofBits .f32 0x00000000#32 + _ = _
  rw [Ideal.ofBits_zero_f32, zero_add]
  refine Finset.sum_congr rfl fun k _ => ?_
  rw [idx_v26, v25_ix v w i j q M hM]

theorem v28_ix (v w : SClips.Idx → ℝ) (i j : Fin 64) (p q : Fin 128) :
    val_main_v28 (F := Ideal) (lift v) (lift w) (ix4 i j p q) = val_main_v26 (F := Ideal) (lift v) (lift w) (ix3 i j q) := by
  rw [val_main_v28_apply, val_main_v27_apply, idx_v27_v28]

/-- The similarity times its softmax weight. -/
theorem v30_ix (v w : SClips.Idx → ℝ) (i j : Fin 64) (q : Fin 128) (M : ℝ)
    (hM : val_main_v21 (F := Ideal) (lift v) (lift w) (ix3 i j q) = (M : EReal)) (p : Fin 128) :
    val_main_v30 (F := Ideal) (lift v) (lift w) (ix4 i j p q)
      = ((sim v w i j p q : ℝ) : EReal) * Ideal.div (Ideal.exp (((2 * sim v w i j p q : ℝ) : EReal) - (M : EReal)))
          (∑ k : Fin 128, Ideal.exp (((2 * sim v w i j k q : ℝ) : EReal) - (M : EReal))) := by
  rw [val_main_v30_apply, val_main_v29_apply, sim_ix, v25_ix v w i j q M hM, v28_ix, v26_ix v w i j q M hM]
  rfl

/-- The pooled value at `(i, j, q)`. -/
theorem v31_ix (v w : SClips.Idx → ℝ) (i j : Fin 64) (q : Fin 128) :
    val_main_v31 (F := Ideal) (lift v) (lift w) (ix3 i j q) = ((w2vAt v w i j q : ℝ) : EReal) := by
  obtain ⟨M, hM⟩ := v21_real v w i j q
  rw [val_main_v31_apply, val_main_cst_8_apply]
  show Ideal.ofBits .f32 0x00000000#32 + _ = _
  rw [Ideal.ofBits_zero_f32, zero_add]
  refine (Finset.sum_congr rfl fun k _ => ?_).trans
    (Lib.SoftmaxShift.weighted_coe (fun p => sim v w i j p q) (fun p => 2 * sim v w i j p q) M)
  rw [idx_v31, v30_ix v w i j q M hM]

/-- The reference's second pooled array is the specification's. -/
theorem ref_w2v (v w : Cert.ClipSpec.SClips.Idx → ℝ) :
    Cert.ReferenceIdeal.Read.val_main_v31 (F := Ideal) (Cert.ClipSpec.lift v) (Cert.ClipSpec.lift w) = Cert.ClipSpec.w2v v w := by
  funext y
  obtain ⟨i, j, q, rfl⟩ : ∃ (i j : Fin 64) (q : Fin 128), y = ix3 i j q := ⟨y 0, y 1, y 2, eq_ix3 y⟩
  rw [w2v_ix]
  exact v31_ix v w i j q

end Cert.ReferenceIdeal.RefValue

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.RefRun.lean ====
/-
  The reference's host program read in two parts. Its 209 operations are the 42 that compute the two pooled
  similarity arrays (each a softmax-weighted sum of the similarity table along one of its two token axes) followed
  by the 167 that turn the pooled arrays and the logit scale into the loss. The run of the whole program ends with
  each buffer at the contents after the second part, started from the contents after the first; the first part
  leaves the two pooled arrays at the program's own stage values of the two inputs, and leaves the scale as it was.
-/
import proofs.«176710_j10599979286745_2_alg».proof.Proof.Gen.ReferenceIdeal.Read
import proofs.«176710_j10599979286745_2_alg».proof.Proof.LibOpenLists

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The first 42 operations: from the two inputs to the two pooled arrays. -/
abbrev headOps : List (HloOp τ sig (Elt F)) :=
  [ binary main_arg1 main_arg0 main_v0 ((fun l r => Host.dotGeneral dot_S64x128x256_S64x128x256_S64x128x64x128_2_2_01_01_n_n none l r) : (⟨S64x128x256, .f32⟩ : BufTy).Contents (Elt F) → (⟨S64x128x256, .f32⟩ : BufTy).Contents (Elt F) → (⟨S64x128x64x128, .f32⟩ : BufTy).Contents (Elt F)),
    unary main_v0 main_v1 ((transpose S64x64x128x128 [2, 0, 3, 1] · transposes_S64x128x64x128_S64x64x128x128_2_0_3_1) : (⟨S64x128x64x128, .f32⟩ : BufTy).Contents (Elt F) → (⟨S64x64x128x128, .f32⟩ : BufTy).Contents (Elt F)),
    nullary main_cst (constant S_ .f32 0x3F000000#32),
    unary main_cst main_v2 (broadcastInDim S64x64x128x128 ![] bcast_S_S64x64x128x128 : (⟨S_, .f32⟩ : BufTy).Contents (Elt F) → (⟨S64x64x128x128, .f32⟩ : BufTy).Contents (Elt F)),
    binary main_v1 main_v2 main_v3 (Host.divf : (⟨S64x64x128x128, .f32⟩ : BufTy).Contents (Elt F) → (⟨S64x64x128x128, .f32⟩ : BufTy).Contents (Elt F) → (⟨S64x64x128x128, .f32⟩ : BufTy).Contents (Elt F)),
    nullary main_cst_0 (constant S_ .f32 0xFF800000#32),
    binary main_v3 main_cst_0 main_v4 ((fun x v => Host.reduce FloatOps.maximumf x v reducesTo_S64x64x128x128_S64x64x128_d3 h_S_) : (⟨S64x64x128x128, .f32⟩ : BufTy).Contents (Elt F) → (⟨S_, .f32⟩ : BufTy).Contents (Elt F) → (⟨S64x64x128, .f32⟩ : BufTy).Contents (Elt F)),
    nullary main_cst_1 (constant S_ .f32 0xFF800000#32),
    unary main_cst_1 main_v5 (broadcastInDim S64x64x128 ![] bcast_S_S64x64x128 : (⟨S_, .f32⟩ : BufTy).Contents (Elt F) → (⟨S64x64x128, .f32⟩ : BufTy).Contents (Elt F)),
    binary main_v5 main_v4 main_v6 (maximumf : (⟨S64x64x128, .f32⟩ : BufTy).Contents (Elt F) → (⟨S64x64x128, .f32⟩ : BufTy).Contents (Elt F) → (⟨S64x64x128, .f32⟩ : BufTy).Contents (Elt F)),
    unary main_v6 main_v7 (broadcastInDim S64x64x128x1 ![0, 1, 2] bcast_S64x64x128_S64x64x128x1_0_1_2 : (⟨S64x64x128, .f32⟩ : BufTy).Contents (Elt F) → (⟨S64x64x128x1, .f32⟩ : BufTy).Contents (Elt F)),
    unary main_v7 main_v8 (broadcastInDim S64x64x128x128 ![0, 1, 2, 3] bcast_S64x64x128x1_S64x64x128x128_0_1_2_3 : (⟨S64x64x128x1, .f32⟩ : BufTy).Contents (Elt F) → (⟨S64x64x128x128, .f32⟩ : BufTy).Contents (Elt F)),
    binary main_v3 main_v8 main_v9 (subf : (⟨S64x64x128x128, .f32⟩ : BufTy).Contents (Elt F) → (⟨S64x64x128x128, .f32⟩ : BufTy).Contents (Elt F) → (⟨S64x64x128x128, .f32⟩ : BufTy).Contents (Elt F)),
    unary main_v9 main_v10 (Host.exp : (⟨S64x64x128x128, .f32⟩ : BufTy).Contents (Elt F) → (⟨S64x64x128x128, .f32⟩ : BufTy).Contents (Elt F)),
    nullary main_cst_2 (constant S_ .f32 0x00000000#32),
    binary main_v10 main_cst_2 main_v11 ((fun x v => Host.reduceAdd x v reducesTo_S64x64x128x128_S64x64x128_d3 h_S_) : (⟨S64x64x128x128, .f32⟩ : BufTy).Contents (Elt F) → (⟨S_, .f32⟩ : BufTy).Contents (Elt F) → (⟨S64x64x128, .f32⟩ : BufTy).Contents (Elt F)),
    unary main_v11 main_v12 (broadcastInDim S64x64x128x1 ![0, 1, 2] bcast_S64x64x128_S64x64x128x1_0_1_2 : (⟨S64x64x128, .f32⟩ : BufTy).Contents (Elt F) → (⟨S64x64x128x1, .f32⟩ : BufTy).Contents (Elt F)),
    unary main_v12 main_v13 (broadcastInDim S64x64x128x128 ![0, 1, 2, 3] bcast_S64x64x128x1_S64x64x128x128_0_1_2_3 : (⟨S64x64x128x1, .f32⟩ : BufTy).Contents (Elt F) → (⟨S64x64x128x128, .f32⟩ : BufTy).Contents (Elt F)),
    binary main_v10 main_v13 main_v14 (Host.divf : (⟨S64x64x128x128, .f32⟩ : BufTy).Contents (Elt F) → (⟨S64x64x128x128, .f32⟩ : BufTy).Contents (Elt F) → (⟨S64x64x128x128, .f32⟩ : BufTy).Contents (Elt F)),
    binary main_v1 main_v14 main_v15 (mulf : (⟨S64x64x128x128, .f32⟩ : BufTy).Contents (Elt F) → (⟨S64x64x128x128, .f32⟩ : BufTy).Contents (Elt F) → (⟨S64x64x128x128, .f32⟩ : BufTy).Contents (Elt F)),
    nullary main_cst_3 (constant S_ .f32 0x00000000#32),
    binary main_v15 main_cst_3 main_v16 ((fun x v => Host.reduceAdd x v reducesTo_S64x64x128x128_S64x64x128_d3 h_S_) : (⟨S64x64x128x128, .f32⟩ : BufTy).Contents (Elt F) → (⟨S_, .f32⟩ : BufTy).Contents (Elt F) → (⟨S64x64x128, .f32⟩ : BufTy).Contents (Elt F)),
    nullary main_cst_4 (constant S_ .f32 0x3F000000#32),
    unary main_cst_4 main_v17 (broadcastInDim S64x64x128x128 ![] bcast_S_S64x64x128x128 : (⟨S_, .f32⟩ : BufTy).Contents (Elt F) → (⟨S64x64x128x128, .f32⟩ : BufTy).Contents (Elt F)),
    binary main_v1 main_v17 main_v18 (Host.divf : (⟨S64x64x128x128, .f32⟩ : BufTy).Contents (Elt F) → (⟨S64x64x128x128, .f32⟩ : BufTy).Contents (Elt F) → (⟨S64x64x128x128, .f32⟩ : BufTy).Contents (Elt F)),
    nullary main_cst_5 (constant S_ .f32 0xFF800000#32),
    binary main_v18 main_cst_5 main_v19 ((fun x v => Host.reduce FloatOps.maximumf x v reducesTo_S64x64x128x128_S64x64x128_d2 h_S_) : (⟨S64x64x128x128, .f32⟩ : BufTy).Contents (Elt F) → (⟨S_, .f32⟩ : BufTy).Contents (Elt F) → (⟨S64x64x128, .f32⟩ : BufTy).Contents (Elt F)),
    nullary main_cst_6 (constant S_ .f32 0xFF800000#32),
    unary main_cst_6 main_v20 (broadcastInDim S64x64x128 ![] bcast_S_S64x64x128 : (⟨S_, .f32⟩ : BufTy).Contents (Elt F) → (⟨S64x64x128, .f32⟩ : BufTy).Contents (Elt F)),
    binary main_v20 main_v19 main_v21 (maximumf : (⟨S64x64x128, .f32⟩ : BufTy).Contents (Elt F) → (⟨S64x64x128, .f32⟩ : BufTy).Contents (Elt F) → (⟨S64x64x128, .f32⟩ : BufTy).Contents (Elt F)),
    unary main_v21 main_v22 (broadcastInDim S64x64x1x128 ![0, 1, 3] bcast_S64x64x128_S64x64x1x128_0_1_3 : (⟨S64x64x128, .f32⟩ : BufTy).Contents (Elt F) → (⟨S64x64x1x128, .f32⟩ : BufTy).Contents (Elt F)),
    unary main_v22 main_v23 (broadcastInDim S64x64x128x128 ![0, 1, 2, 3] bcast_S64x64x1x128_S64x64x128x128_0_1_2_3 : (⟨S64x64x1x128, .f32⟩ : BufTy).Contents (Elt F) → (⟨S64x64x128x128, .f32⟩ : BufTy).Contents (Elt F)),
    binary main_v18 main_v23 main_v24 (subf : (⟨S64x64x128x128, .f32⟩ : BufTy).Contents (Elt F) → (⟨S64x64x128x128, .f32⟩ : BufTy).Contents (Elt F) → (⟨S64x64x128x128, .f32⟩ : BufTy).Contents (Elt F)),
    unary main_v24 main_v25 (Host.exp : (⟨S64x64x128x128, .f32⟩ : BufTy).Contents (Elt F) → (⟨S64x64x128x128, .f32⟩ : BufTy).Contents (Elt F)),
    nullary main_cst_7 (constant S_ .f32 0x00000000#32),
    binary main_v25 main_cst_7 main_v26 ((fun x v => Host.reduceAdd x v reducesTo_S64x64x128x128_S64x64x128_d2 h_S_) : (⟨S64x64x128x128, .f32⟩ : BufTy).Contents (Elt F) → (⟨S_, .f32⟩ : BufTy).Contents (Elt F) → (⟨S64x64x128, .f32⟩ : BufTy).Contents (Elt F)),
    unary main_v26 main_v27 (broadcastInDim S64x64x1x128 ![0, 1, 3] bcast_S64x64x128_S64x64x1x128_0_1_3 : (⟨S64x64x128, .f32⟩ : BufTy).Contents (Elt F) → (⟨S64x64x1x128, .f32⟩ : BufTy).Contents (Elt F)),
    unary main_v27 main_v28 (broadcastInDim S64x64x128x128 ![0, 1, 2, 3] bcast_S64x64x1x128_S64x64x128x128_0_1_2_3 : (⟨S64x64x1x128, .f32⟩ : BufTy).Contents (Elt F) → (⟨S64x64x128x128, .f32⟩ : BufTy).Contents (Elt F)),
    binary main_v25 main_v28 main_v29 (Host.divf : (⟨S64x64x128x128, .f32⟩ : BufTy).Contents (Elt F) → (⟨S64x64x128x128, .f32⟩ : BufTy).Contents (Elt F) → (⟨S64x64x128x128, .f32⟩ : BufTy).Contents (Elt F)),
    binary main_v1 main_v29 main_v30 (mulf : (⟨S64x64x128x128, .f32⟩ : BufTy).Contents (Elt F) → (⟨S64x64x128x128, .f32⟩ : BufTy).Contents (Elt F) → (⟨S64x64x128x128, .f32⟩ : BufTy).Contents (Elt F)),
    nullary main_cst_8 (constant S_ .f32 0x00000000#32),
    binary main_v30 main_cst_8 main_v31 ((fun x v => Host.reduceAdd x v reducesTo_S64x64x128x128_S64x64x128_d2 h_S_) : (⟨S64x64x128x128, .f32⟩ : BufTy).Contents (Elt F) → (⟨S_, .f32⟩ : BufTy).Contents (Elt F) → (⟨S64x64x128, .f32⟩ : BufTy).Contents (Elt F)) ]

/-- The remaining 167 operations: from the pooled arrays and the scale to the loss. -/
abbrev tailOpsR : List (HloOp τ sig (Elt F)) :=
  [ nullary main_cst_9 (constant S_ .f32 0x3F000000#32),
    unary main_cst_9 main_v32 (broadcastInDim S64x64x128 ![] bcast_S_S64x64x128 : (⟨S_, .f32⟩ : BufTy).Contents (Elt F) → (⟨S64x64x128, .f32⟩ : BufTy).Contents (Elt F)),
    binary main_v16 main_v32 main_v33 (Host.divf : (⟨S64x64x128, .f32⟩ : BufTy).Contents (Elt F) → (⟨S64x64x128, .f32⟩ : BufTy).Contents (Elt F) → (⟨S64x64x128, .f32⟩ : BufTy).Contents (Elt F)),
    nullary main_cst_10 (constant S_ .f32 0xFF800000#32),
    binary main_v33 main_cst_10 main_v34 ((fun x v => Host.reduce FloatOps.maximumf x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    nullary main_cst_11 (constant S_ .f32 0xFF800000#32),
    unary main_cst_11 main_v35 (broadcastInDim S64x64 ![] bcast_S_S64x64 : (⟨S_, .f32⟩ : BufTy).Contents (Elt F) → (⟨S64x64, .f32⟩ : BufTy).Contents (Elt F)),
    binary main_v35 main_v34 main_v36 (maximumf : (⟨S64x64, .f32⟩ : BufTy).Contents (Elt F) → (⟨S64x64, .f32⟩ : BufTy).Contents (Elt F) → (⟨S64x64, .f32⟩ : BufTy).Contents (Elt F)),
    unary main_v36 main_v37 (broadcastInDim S64x64x1 ![0, 1] bcast_S64x64_S64x64x1_0_1 : (⟨S64x64, .f32⟩ : BufTy).Contents (Elt F) → (⟨S64x64x1, .f32⟩ : BufTy).Contents (Elt F)),
    unary main_v37 main_v38 (broadcastInDim S64x64x128 ![0, 1, 2] bcast_S64x64x1_S64x64x128_0_1_2 : (⟨S64x64x1, .f32⟩ : BufTy).Contents (Elt F) → (⟨S64x64x128, .f32⟩ : BufTy).Contents (Elt F)),
    binary main_v33 main_v38 main_v39 (subf : (⟨S64x64x128, .f32⟩ : BufTy).Contents (Elt F) → (⟨S64x64x128, .f32⟩ : BufTy).Contents (Elt F) → (⟨S64x64x128, .f32⟩ : BufTy).Contents (Elt F)),
    unary main_v39 main_v40 (Host.exp : (⟨S64x64x128, .f32⟩ : BufTy).Contents (Elt F) → (⟨S64x64x128, .f32⟩ : BufTy).Contents (Elt F)),
    nullary main_cst_12 (constant S_ .f32 0x00000000#32),
    binary main_v40 main_cst_12 main_v41 ((fun x v => Host.reduceAdd x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    unary main_v41 main_v42 (broadcastInDim S64x64x1 ![0, 1] bcast_S64x64_S64x64x1_0_1 : (⟨S64x64, .f32⟩ : BufTy).Contents (Elt F) → (⟨S64x64x1, .f32⟩ : BufTy).Contents (Elt F)),
    unary main_v42 main_v43 (broadcastInDim S64x64x128 ![0, 1, 2] bcast_S64x64x1_S64x64x128_0_1_2 : (⟨S64x64x1, .f32⟩ : BufTy).Contents (Elt F) → (⟨S64x64x128, .f32⟩ : BufTy).Contents (Elt F)),
    binary main_v40 main_v43 main_v44 (Host.divf : (⟨S64x64x128, .f32⟩ : BufTy).Contents (Elt F) → (⟨S64x64x128, .f32⟩ : BufTy).Contents (Elt F) → (⟨S64x64x128, .f32⟩ : BufTy).Contents (Elt F)),
    binary main_v16 main_v44 main_v45 (mulf : (⟨S64x64x128, .f32⟩ : BufTy).Contents (Elt F) → (⟨S64x64x128, .f32⟩ : BufTy).Contents (Elt F) → (⟨S64x64x128, .f32⟩ : BufTy).Contents (Elt F)),
    nullary main_cst_13 (constant S_ .f32 0x00000000#32),
    binary main_v45 main_cst_13 main_v46 ((fun x v => Host.reduceAdd x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    nullary main_cst_14 (constant S_ .f32 0x3F000000#32),
    unary main_cst_14 main_v47 (broadcastInDim S64x64x128 ![] bcast_S_S64x64x128 : (⟨S_, .f32⟩ : BufTy).Contents (Elt F) → (⟨S64x64x128, .f32⟩ : BufTy).Contents (Elt F)),
    binary main_v31 main_v47 main_v48 (Host.divf : (⟨S64x64x128, .f32⟩ : BufTy).Contents (Elt F) → (⟨S64x64x128, .f32⟩ : BufTy).Contents (Elt F) → (⟨S64x64x128, .f32⟩ : BufTy).Contents (Elt F)),
    nullary main_cst_15 (constant S_ .f32 0xFF800000#32),
    binary main_v48 main_cst_15 main_v49 ((fun x v => Host.reduce FloatOps.maximumf x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    nullary main_cst_16 (constant S_ .f32 0xFF800000#32),
    unary main_cst_16 main_v50 (broadcastInDim S64x64 ![] bcast_S_S64x64 : (⟨S_, .f32⟩ : BufTy).Contents (Elt F) → (⟨S64x64, .f32⟩ : BufTy).Contents (Elt F)),
    binary main_v50 main_v49 main_v51 (maximumf : (⟨S64x64, .f32⟩ : BufTy).Contents (Elt F) → (⟨S64x64, .f32⟩ : BufTy).Contents (Elt F) → (⟨S64x64, .f32⟩ : BufTy).Contents (Elt F)),
    unary main_v51 main_v52 (broadcastInDim S64x64x1 ![0, 1] bcast_S64x64_S64x64x1_0_1 : (⟨S64x64, .f32⟩ : BufTy).Contents (Elt F) → (⟨S64x64x1, .f32⟩ : BufTy).Contents (Elt F)),
    unary main_v52 main_v53 (broadcastInDim S64x64x128 ![0, 1, 2] bcast_S64x64x1_S64x64x128_0_1_2 : (⟨S64x64x1, .f32⟩ : BufTy).Contents (Elt F) → (⟨S64x64x128, .f32⟩ : BufTy).Contents (Elt F)),
    binary main_v48 main_v53 main_v54 (subf : (⟨S64x64x128, .f32⟩ : BufTy).Contents (Elt F) → (⟨S64x64x128, .f32⟩ : BufTy).Contents (Elt F) → (⟨S64x64x128, .f32⟩ : BufTy).Contents (Elt F)),
    unary main_v54 main_v55 (Host.exp : (⟨S64x64x128, .f32⟩ : BufTy).Contents (Elt F) → (⟨S64x64x128, .f32⟩ : BufTy).Contents (Elt F)),
    nullary main_cst_17 (constant S_ .f32 0x00000000#32),
    binary main_v55 main_cst_17 main_v56 ((fun x v => Host.reduceAdd x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    unary main_v56 main_v57 (broadcastInDim S64x64x1 ![0, 1] bcast_S64x64_S64x64x1_0_1 : (⟨S64x64, .f32⟩ : BufTy).Contents (Elt F) → (⟨S64x64x1, .f32⟩ : BufTy).Contents (Elt F)),
    unary main_v57 main_v58 (broadcastInDim S64x64x128 ![0, 1, 2] bcast_S64x64x1_S64x64x128_0_1_2 : (⟨S64x64x1, .f32⟩ : BufTy).Contents (Elt F) → (⟨S64x64x128, .f32⟩ : BufTy).Contents (Elt F)),
    binary main_v55 main_v58 main_v59 (Host.divf : (⟨S64x64x128, .f32⟩ : BufTy).Contents (Elt F) → (⟨S64x64x128, .f32⟩ : BufTy).Contents (Elt F) → (⟨S64x64x128, .f32⟩ : BufTy).Contents (Elt F)),
    binary main_v31 main_v59 main_v60 (mulf : (⟨S64x64x128, .f32⟩ : BufTy).Contents (Elt F) → (⟨S64x64x128, .f32⟩ : BufTy).Contents (Elt F) → (⟨S64x64x128, .f32⟩ : BufTy).Contents (Elt F)),
    nullary main_cst_18 (constant S_ .f32 0x00000000#32),
    binary main_v60 main_cst_18 main_v61 ((fun x v => Host.reduceAdd x v reducesTo_S64x64x128_S64x64_d2 h_S_) : (⟨S64x64x128, .f32⟩ : BufTy).Contents (Elt F) → (⟨S_, .f32⟩ : BufTy).Contents (Elt F) → (⟨S64x64, .f32⟩ : BufTy).Contents (Elt F)),
    binary main_v46 main_v61 main_v62 (addf : (⟨S64x64, .f32⟩ : BufTy).Contents (Elt F) → (⟨S64x64, .f32⟩ : BufTy).Contents (Elt F) → (⟨S64x64, .f32⟩ : BufTy).Contents (Elt F)),
    nullary main_cst_19 (constant S_ .f32 0x40000000#32),
    unary main_cst_19 main_v63 (broadcastInDim S64x64 ![] bcast_S_S64x64 : (⟨S_, .f32⟩ : BufTy).Contents (Elt F) → (⟨S64x64, .f32⟩ : BufTy).Contents (Elt F)),
    binary main_v62 main_v63 main_v64 (Host.divf : (⟨S64x64, .f32⟩ : BufTy).Contents (Elt F) → (⟨S64x64, .f32⟩ : BufTy).Contents (Elt F) → (⟨S64x64, .f32⟩ : BufTy).Contents (Elt F)),
    nullary main_cst_20 (constant S_ .f32 0x42200000#32),
    binary main_arg2 main_cst_20 main_v65 (minimumf : (⟨S_, .f32⟩ : BufTy).Contents (Elt F) → (⟨S_, .f32⟩ : BufTy).Contents (Elt F) → (⟨S_, .f32⟩ : BufTy).Contents (Elt F)),
    unary main_v65 main_v66 (broadcastInDim S64x64 ![] bcast_S_S64x64 : (⟨S_, .f32⟩ : BufTy).Contents (Elt F) → (⟨S64x64, .f32⟩ : BufTy).Contents (Elt F)),
    binary main_v66 main_v64 main_v67 (mulf : (⟨S64x64, .f32⟩ : BufTy).Contents (Elt F) → (⟨S64x64, .f32⟩ : BufTy).Contents (Elt F) → (⟨S64x64, .f32⟩ : BufTy).Contents (Elt F)),
    unary main_v67 main_v68 ((transpose S64x64 [1, 0] · transposes_S64x64_S64x64_1_0) : (⟨S64x64, .f32⟩ : BufTy).Contents (Elt F) → (⟨S64x64, .f32⟩ : BufTy).Contents (Elt F)),
    nullary main_v69 (iotaInDim S64 32 0),
    TRef.nullary (TRef.of (T := ⟨S_, .f32⟩) main_call0_cst) (constant S_ .f32 0xFF800000#32),
    TRef.binary (TRef.of (T := ⟨S64x64, .f32⟩) main_v67) (TRef.of (T := ⟨S_, .f32⟩) main_call0_cst) (TRef.of (T := ⟨S64, .f32⟩) main_call0_v0) (fun x v => Host.reduce FloatOps.maximumf x v reducesTo_S64x64_S64_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S64, .f32⟩) main_call0_v1) (broadcastInDim S64 ![] bcast_S_S64),
    TRef.binary (TRef.of (T := ⟨S64, .f32⟩) main_call0_v1) (TRef.of (T := ⟨S64, .f32⟩) main_call0_v0) (TRef.of (T := ⟨S64, .f32⟩) main_call0_v2) maximumf,
    TRef.unary (TRef.of (T := ⟨S64, .f32⟩) main_call0_v2) (TRef.of (T := ⟨S64x1, .f32⟩) main_call0_v3) (broadcastInDim S64x1 ![0] bcast_S64_S64x1_0),
    TRef.unary (TRef.of (T := ⟨S64x1, .f32⟩) main_call0_v3) (TRef.of (T := ⟨S64x64, .f32⟩) main_call0_v4) (broadcastInDim S64x64 ![0, 1] bcast_S64x1_S64x64_0_1),
    TRef.binary (TRef.of (T := ⟨S64x64, .f32⟩) main_v67) (TRef.of (T := ⟨S64x64, .f32⟩) main_call0_v4) (TRef.of (T := ⟨S64x64, .f32⟩) main_call0_v5) subf,
    TRef.unary (TRef.of (T := ⟨S64x64, .f32⟩) main_call0_v5) (TRef.of (T := ⟨S64x64, .f32⟩) main_call0_v6) Host.exp,
    TRef.nullary (TRef.of (T := ⟨S_, .f32⟩) main_call0_cst_1) (constant S_ .f32 0x00000000#32),
    TRef.binary (TRef.of (T := ⟨S64x64, .f32⟩) main_call0_v6) (TRef.of (T := ⟨S_, .f32⟩) main_call0_cst_1) (TRef.of (T := ⟨S64, .f32⟩) main_call0_v7) (fun x v => Host.reduceAdd x v reducesTo_S64x64_S64_d1 h_S_),
    TRef.unary (TRef.of (T := ⟨S64, .f32⟩) main_call0_v7) (TRef.of (T := ⟨S64x1, .f32⟩) main_call0_v8) (broadcastInDim S64x1 ![0] bcast_S64_S64x1_0),
    TRef.unary (TRef.of (T := ⟨S64x1, .f32⟩) main_call0_v8) (TRef.of (T := ⟨S64x1, .f32⟩) main_call0_v9) Host.log,
    TRef.unary (TRef.of (T := ⟨S64x1, .f32⟩) main_call0_v9) (TRef.of (T := ⟨S64x64, .f32⟩) main_call0_v10) (broadcastInDim S64x64 ![0, 1] bcast_S64x1_S64x64_0_1),
    TRef.binary (TRef.of (T := ⟨S64x64, .f32⟩) main_call0_v5) (TRef.of (T := ⟨S64x64, .f32⟩) main_call0_v10) (TRef.of (T := ⟨S64x64, .f32⟩) main_v70) subf,
    unary main_v69 main_v71 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x1, .i32⟩) main_call1_v0) (broadcastInDim S64x1 ![] bcast_S_S64x1),
    TRef.binary (TRef.of (T := ⟨S64x1, .i32⟩) main_v71) (TRef.of (T := ⟨S64x1, .i32⟩) main_call1_v0) (TRef.of (T := ⟨S64x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S64x1, .i32⟩) main_call1_v2) (broadcastInDim S64x1 ![] bcast_S_S64x1),
    TRef.binary (TRef.of (T := ⟨S64x1, .i32⟩) main_v71) (TRef.of (T := ⟨S64x1, .i32⟩) main_call1_v2) (TRef.of (T := ⟨S64x1, .i32⟩) main_call1_v3) addi,
    TRef.ternary (TRef.of (T := ⟨S64x1, .i1⟩) main_call1_v1) (TRef.of (T := ⟨S64x1, .i32⟩) main_call1_v3) (TRef.of (T := ⟨S64x1, .i32⟩) main_v71) (TRef.of (T := ⟨S64x1, .i32⟩) main_call1_v4) select,
    TRef.reshape (TRef.of (T := ⟨S64x1, .i32⟩) main_call1_v4) (TRef.of (T := ⟨S64x1x1, .i32⟩) main_call1_v5) rfl shapeCasts_S64x1_S64x1x1,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S64x1x1, .i32⟩) main_call1_v6) (broadcastInDim S64x1x1 ![] bcast_S_S64x1x1),
    TRef.binary (TRef.of (T := ⟨S64x1x1, .i32⟩) main_call1_v5) (TRef.of (T := ⟨S64x1x1, .i32⟩) main_call1_v6) (TRef.of (T := ⟨S64x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S64x1x1, .i32⟩) main_call1_v9) (broadcastInDim S64x1x1 ![0, 1, 2] bcast_S1x1x1_S64x1x1_0_1_2),
    TRef.binary (TRef.of (T := ⟨S64x1x1, .i32⟩) main_call1_v5) (TRef.of (T := ⟨S64x1x1, .i32⟩) main_call1_v9) (TRef.of (T := ⟨S64x1x1, .i1⟩) main_call1_v10) (cmpi .sle),
    TRef.binary (TRef.of (T := ⟨S64x1x1, .i1⟩) main_call1_v7) (TRef.of (T := ⟨S64x1x1, .i1⟩) main_call1_v10) (TRef.of (T := ⟨S64x1x1, .i1⟩) main_call1_v11) andi,
    TRef.nullary (TRef.of (T := ⟨S_, .i1⟩) main_call1_c_3) (constantI S_ 1 1#1),
    TRef.binary (TRef.of (T := ⟨S64x1x1, .i1⟩) main_call1_v11) (TRef.of (T := ⟨S_, .i1⟩) main_call1_c_3) (TRef.of (T := ⟨S64x1, .i1⟩) main_call1_v12) (fun x v => Host.reduce IntOp.andi x v reducesTo_S64x1x1_S64x1_d2 h_S_),
    TRef.binary (TRef.of (T := ⟨S64x64, .f32⟩) main_v70) (TRef.of (T := ⟨S64x1x1, .i32⟩) main_call1_v5) (TRef.of (T := ⟨S64x1, .f32⟩) main_call1_v13) (fun x i => Host.gather gather_S64x64_S64x1x1_S64x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S64x1, .f32⟩) main_call1_v14) (broadcastInDim S64x1 ![] bcast_S_S64x1),
    TRef.ternary (TRef.of (T := ⟨S64x1, .i1⟩) main_call1_v12) (TRef.of (T := ⟨S64x1, .f32⟩) main_call1_v13) (TRef.of (T := ⟨S64x1, .f32⟩) main_call1_v14) (TRef.of (T := ⟨S64x1, .f32⟩) main_v72) select,
    reshape main_v72 main_v73 rfl shapeCasts_S64x1_S64,
    unary main_v73 main_v74 (Host.negf : (⟨S64, .f32⟩ : BufTy).Contents (Elt F) → (⟨S64, .f32⟩ : BufTy).Contents (Elt F)),
    nullary main_cst_21 (constant S_ .f32 0x00000000#32),
    binary main_v70 main_cst_21 main_v75 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_22 (constant S_ .f32 0x42800000#32),
    unary main_cst_22 main_v76 (broadcastInDim S64 ![] bcast_S_S64 : (⟨S_, .f32⟩ : BufTy).Contents (Elt F) → (⟨S64, .f32⟩ : BufTy).Contents (Elt F)),
    binary main_v75 main_v76 main_v77 (Host.divf : (⟨S64, .f32⟩ : BufTy).Contents (Elt F) → (⟨S64, .f32⟩ : BufTy).Contents (Elt F) → (⟨S64, .f32⟩ : BufTy).Contents (Elt F)),
    unary main_v77 main_v78 (Host.negf : (⟨S64, .f32⟩ : BufTy).Contents (Elt F) → (⟨S64, .f32⟩ : BufTy).Contents (Elt F)),
    nullary main_cst_23 (constant S_ .f32 0x3F666666#32),
    unary main_cst_23 main_v79 (broadcastInDim S64 ![] bcast_S_S64 : (⟨S_, .f32⟩ : BufTy).Contents (Elt F) → (⟨S64, .f32⟩ : BufTy).Contents (Elt F)),
    binary main_v79 main_v74 main_v80 (mulf : (⟨S64, .f32⟩ : BufTy).Contents (Elt F) → (⟨S64, .f32⟩ : BufTy).Contents (Elt F) → (⟨S64, .f32⟩ : BufTy).Contents (Elt F)),
    nullary main_cst_24 (constant S_ .f32 0x3DCCCCCD#32),
    unary main_cst_24 main_v81 (broadcastInDim S64 ![] bcast_S_S64 : (⟨S_, .f32⟩ : BufTy).Contents (Elt F) → (⟨S64, .f32⟩ : BufTy).Contents (Elt F)),
    binary main_v81 main_v78 main_v82 (mulf : (⟨S64, .f32⟩ : BufTy).Contents (Elt F) → (⟨S64, .f32⟩ : BufTy).Contents (Elt F) → (⟨S64, .f32⟩ : BufTy).Contents (Elt F)),
    binary main_v80 main_v82 main_v83 (addf : (⟨S64, .f32⟩ : BufTy).Contents (Elt F) → (⟨S64, .f32⟩ : BufTy).Contents (Elt F) → (⟨S64, .f32⟩ : BufTy).Contents (Elt F)),
    nullary main_cst_25 (constant S_ .f32 0x00000000#32),
    binary main_v83 main_cst_25 main_v84 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_26 (constant S_ .f32 0x42800000#32),
    binary main_v84 main_cst_26 main_v85 (Host.divf : (⟨S_, .f32⟩ : BufTy).Contents (Elt F) → (⟨S_, .f32⟩ : BufTy).Contents (Elt F) → (⟨S_, .f32⟩ : BufTy).Contents (Elt F)),
    TRef.nullary (TRef.of (T := ⟨S_, .f32⟩) main_call2_cst) (constant S_ .f32 0xFF800000#32),
    TRef.binary (TRef.of (T := ⟨S64x64, .f32⟩) main_v68) (TRef.of (T := ⟨S_, .f32⟩) main_call2_cst) (TRef.of (T := ⟨S64, .f32⟩) main_call2_v0) (fun x v => Host.reduce FloatOps.maximumf x v reducesTo_S64x64_S64_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S64, .f32⟩) main_call2_v1) (broadcastInDim S64 ![] bcast_S_S64),
    TRef.binary (TRef.of (T := ⟨S64, .f32⟩) main_call2_v1) (TRef.of (T := ⟨S64, .f32⟩) main_call2_v0) (TRef.of (T := ⟨S64, .f32⟩) main_call2_v2) maximumf,
    TRef.unary (TRef.of (T := ⟨S64, .f32⟩) main_call2_v2) (TRef.of (T := ⟨S64x1, .f32⟩) main_call2_v3) (broadcastInDim S64x1 ![0] bcast_S64_S64x1_0),
    TRef.unary (TRef.of (T := ⟨S64x1, .f32⟩) main_call2_v3) (TRef.of (T := ⟨S64x64, .f32⟩) main_call2_v4) (broadcastInDim S64x64 ![0, 1] bcast_S64x1_S64x64_0_1),
    TRef.binary (TRef.of (T := ⟨S64x64, .f32⟩) main_v68) (TRef.of (T := ⟨S64x64, .f32⟩) main_call2_v4) (TRef.of (T := ⟨S64x64, .f32⟩) main_call2_v5) subf,
    TRef.unary (TRef.of (T := ⟨S64x64, .f32⟩) main_call2_v5) (TRef.of (T := ⟨S64x64, .f32⟩) main_call2_v6) Host.exp,
    TRef.nullary (TRef.of (T := ⟨S_, .f32⟩) main_call2_cst_1) (constant S_ .f32 0x00000000#32),
    TRef.binary (TRef.of (T := ⟨S64x64, .f32⟩) main_call2_v6) (TRef.of (T := ⟨S_, .f32⟩) main_call2_cst_1) (TRef.of (T := ⟨S64, .f32⟩) main_call2_v7) (fun x v => Host.reduceAdd x v reducesTo_S64x64_S64_d1 h_S_),
    TRef.unary (TRef.of (T := ⟨S64, .f32⟩) main_call2_v7) (TRef.of (T := ⟨S64x1, .f32⟩) main_call2_v8) (broadcastInDim S64x1 ![0] bcast_S64_S64x1_0),
    TRef.unary (TRef.of (T := ⟨S64x1, .f32⟩) main_call2_v8) (TRef.of (T := ⟨S64x1, .f32⟩) main_call2_v9) Host.log,
    TRef.unary (TRef.of (T := ⟨S64x1, .f32⟩) main_call2_v9) (TRef.of (T := ⟨S64x64, .f32⟩) main_call2_v10) (broadcastInDim S64x64 ![0, 1] bcast_S64x1_S64x64_0_1),
    TRef.binary (TRef.of (T := ⟨S64x64, .f32⟩) main_call2_v5) (TRef.of (T := ⟨S64x64, .f32⟩) main_call2_v10) (TRef.of (T := ⟨S64x64, .f32⟩) main_v86) subf,
    unary main_v69 main_v87 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S64x1, .i32⟩) main_call3_v0) (broadcastInDim S64x1 ![] bcast_S_S64x1),
    TRef.binary (TRef.of (T := ⟨S64x1, .i32⟩) main_v87) (TRef.of (T := ⟨S64x1, .i32⟩) main_call3_v0) (TRef.of (T := ⟨S64x1, .i1⟩) main_call3_v1) (cmpi .slt),
    TRef.nullary (TRef.of (T := ⟨S_, .i32⟩) main_call3_c_0) (constantI S_ 32 64#32),
    TRef.unary (TRef.of (T := ⟨S_, .i32⟩) main_call3_c_0) (TRef.of (T := ⟨S64x1, .i32⟩) main_call3_v2) (broadcastInDim S64x1 ![] bcast_S_S64x1),
    TRef.binary (TRef.of (T := ⟨S64x1, .i32⟩) main_v87) (TRef.of (T := ⟨S64x1, .i32⟩) main_call3_v2) (TRef.of (T := ⟨S64x1, .i32⟩) main_call3_v3) addi,
    TRef.ternary (TRef.of (T := ⟨S64x1, .i1⟩) main_call3_v1) (TRef.of (T := ⟨S64x1, .i32⟩) main_call3_v3) (TRef.of (T := ⟨S64x1, .i32⟩) main_v87) (TRef.of (T := ⟨S64x1, .i32⟩) main_call3_v4) select,
    TRef.reshape (TRef.of (T := ⟨S64x1, .i32⟩) main_call3_v4) (TRef.of (T := ⟨S64x1x1, .i32⟩) main_call3_v5) rfl shapeCasts_S64x1_S64x1x1,
    TRef.nullary (TRef.of (T := ⟨S1, .i32⟩) main_call3_c_1) (constantI S1 32 63#32),
    TRef.nullary (TRef.of (T := ⟨S_, .i32⟩) main_call3_c_2) (constantI S_ 32 0#32),
    TRef.unary (TRef.of (T := ⟨S_, .i32⟩) main_call3_c_2) (TRef.of (T := ⟨S64x1x1, .i32⟩) main_call3_v6) (broadcastInDim S64x1x1 ![] bcast_S_S64x1x1),
    TRef.binary (TRef.of (T := ⟨S64x1x1, .i32⟩) main_call3_v5) (TRef.of (T := ⟨S64x1x1, .i32⟩) main_call3_v6) (TRef.of (T := ⟨S64x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S64x1x1, .i32⟩) main_call3_v9) (broadcastInDim S64x1x1 ![0, 1, 2] bcast_S1x1x1_S64x1x1_0_1_2),
    TRef.binary (TRef.of (T := ⟨S64x1x1, .i32⟩) main_call3_v5) (TRef.of (T := ⟨S64x1x1, .i32⟩) main_call3_v9) (TRef.of (T := ⟨S64x1x1, .i1⟩) main_call3_v10) (cmpi .sle),
    TRef.binary (TRef.of (T := ⟨S64x1x1, .i1⟩) main_call3_v7) (TRef.of (T := ⟨S64x1x1, .i1⟩) main_call3_v10) (TRef.of (T := ⟨S64x1x1, .i1⟩) main_call3_v11) andi,
    TRef.nullary (TRef.of (T := ⟨S_, .i1⟩) main_call3_c_3) (constantI S_ 1 1#1),
    TRef.binary (TRef.of (T := ⟨S64x1x1, .i1⟩) main_call3_v11) (TRef.of (T := ⟨S_, .i1⟩) main_call3_c_3) (TRef.of (T := ⟨S64x1, .i1⟩) main_call3_v12) (fun x v => Host.reduce IntOp.andi x v reducesTo_S64x1x1_S64x1_d2 h_S_),
    TRef.binary (TRef.of (T := ⟨S64x64, .f32⟩) main_v86) (TRef.of (T := ⟨S64x1x1, .i32⟩) main_call3_v5) (TRef.of (T := ⟨S64x1, .f32⟩) main_call3_v13) (fun x i => Host.gather gather_S64x64_S64x1x1_S64x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S64x1, .f32⟩) main_call3_v14) (broadcastInDim S64x1 ![] bcast_S_S64x1),
    TRef.ternary (TRef.of (T := ⟨S64x1, .i1⟩) main_call3_v12) (TRef.of (T := ⟨S64x1, .f32⟩) main_call3_v13) (TRef.of (T := ⟨S64x1, .f32⟩) main_call3_v14) (TRef.of (T := ⟨S64x1, .f32⟩) main_v88) select,
    reshape main_v88 main_v89 rfl shapeCasts_S64x1_S64,
    unary main_v89 main_v90 (Host.negf : (⟨S64, .f32⟩ : BufTy).Contents (Elt F) → (⟨S64, .f32⟩ : BufTy).Contents (Elt F)),
    nullary main_cst_27 (constant S_ .f32 0x00000000#32),
    binary main_v86 main_cst_27 main_v91 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_28 (constant S_ .f32 0x42800000#32),
    unary main_cst_28 main_v92 (broadcastInDim S64 ![] bcast_S_S64 : (⟨S_, .f32⟩ : BufTy).Contents (Elt F) → (⟨S64, .f32⟩ : BufTy).Contents (Elt F)),
    binary main_v91 main_v92 main_v93 (Host.divf : (⟨S64, .f32⟩ : BufTy).Contents (Elt F) → (⟨S64, .f32⟩ : BufTy).Contents (Elt F) → (⟨S64, .f32⟩ : BufTy).Contents (Elt F)),
    unary main_v93 main_v94 (Host.negf : (⟨S64, .f32⟩ : BufTy).Contents (Elt F) → (⟨S64, .f32⟩ : BufTy).Contents (Elt F)),
    nullary main_cst_29 (constant S_ .f32 0x3F666666#32),
    unary main_cst_29 main_v95 (broadcastInDim S64 ![] bcast_S_S64 : (⟨S_, .f32⟩ : BufTy).Contents (Elt F) → (⟨S64, .f32⟩ : BufTy).Contents (Elt F)),
    binary main_v95 main_v90 main_v96 (mulf : (⟨S64, .f32⟩ : BufTy).Contents (Elt F) → (⟨S64, .f32⟩ : BufTy).Contents (Elt F) → (⟨S64, .f32⟩ : BufTy).Contents (Elt F)),
    nullary main_cst_30 (constant S_ .f32 0x3DCCCCCD#32),
    unary main_cst_30 main_v97 (broadcastInDim S64 ![] bcast_S_S64 : (⟨S_, .f32⟩ : BufTy).Contents (Elt F) → (⟨S64, .f32⟩ : BufTy).Contents (Elt F)),
    binary main_v97 main_v94 main_v98 (mulf : (⟨S64, .f32⟩ : BufTy).Contents (Elt F) → (⟨S64, .f32⟩ : BufTy).Contents (Elt F) → (⟨S64, .f32⟩ : BufTy).Contents (Elt F)),
    binary main_v96 main_v98 main_v99 (addf : (⟨S64, .f32⟩ : BufTy).Contents (Elt F) → (⟨S64, .f32⟩ : BufTy).Contents (Elt F) → (⟨S64, .f32⟩ : BufTy).Contents (Elt F)),
    nullary main_cst_31 (constant S_ .f32 0x00000000#32),
    binary main_v99 main_cst_31 main_v100 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_32 (constant S_ .f32 0x42800000#32),
    binary main_v100 main_cst_32 main_v101 (Host.divf : (⟨S_, .f32⟩ : BufTy).Contents (Elt F) → (⟨S_, .f32⟩ : BufTy).Contents (Elt F) → (⟨S_, .f32⟩ : BufTy).Contents (Elt F)),
    binary main_v85 main_v101 main_v102 (addf : (⟨S_, .f32⟩ : BufTy).Contents (Elt F) → (⟨S_, .f32⟩ : BufTy).Contents (Elt F) → (⟨S_, .f32⟩ : BufTy).Contents (Elt F)),
    nullary main_cst_33 (constant S_ .f32 0x40000000#32),
    binary main_v102 main_cst_33 main_v103 (Host.divf : (⟨S_, .f32⟩ : BufTy).Contents (Elt F) → (⟨S_, .f32⟩ : BufTy).Contents (Elt F) → (⟨S_, .f32⟩ : BufTy).Contents (Elt F)) ]

set_option maxRecDepth 8192 in
/-- The program's operations are the first part followed by the second. -/
theorem ops_split : Cert.ReferenceIdeal.Value.ops (F := F) = headOps ++ tailOpsR := rfl

/-- The contents after the whole line are the contents after the second part, from those after the first. -/
theorem after_ops (V : Valuation τ sig (Elt F)) :
    after (Cert.ReferenceIdeal.Value.ops (F := F)) V = after tailOpsR (after headOps V) := by
  rw [ops_split, Cert.OpenLists.after_append]

set_option maxRecDepth 8192 in
set_option maxHeartbeats 4000000 in
/-- On every device, from any memory with zero counters: every weakly fair execution of the reference terminates
    with the result at the second part's contents over the first part's, and the three arguments unchanged. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
          = after tailOpsR (after headOps (launchContents m c)) (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v103).trans (congrFun (after_ops (launchContents m c)) _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

/-- The first part leaves the row-pooled array at the program's stage value of the two inputs. -/
theorem head_v16 (W : Valuation τ sig (Elt F)) :
    after headOps W (Proc.devRef .tc main_v16)
      = val_main_v16 (W (Proc.devRef .tc main_arg0)) (W (Proc.devRef .tc main_arg1)) := by
  after_results_simp <;> rfl

/-- The first part leaves the column-pooled array at the program's stage value of the two inputs. -/
theorem head_v31 (W : Valuation τ sig (Elt F)) :
    after headOps W (Proc.devRef .tc main_v31)
      = val_main_v31 (W (Proc.devRef .tc main_arg0)) (W (Proc.devRef .tc main_arg1)) := by
  after_results_simp <;> rfl

/-- The first part does not write the scale. -/
theorem head_arg2 (W : Valuation τ sig (Elt F)) :
    after headOps W (Proc.devRef .tc main_arg2) = W (Proc.devRef .tc main_arg2) := by
  after_results_simp <;> rfl

end Cert.ReferenceIdeal.RefRun

end
-- ==== Proof.TailEq.lean ====
/-
  The two programs' last 167 host operations are one function. After the two pooled similarity arrays are formed,
  both programs apply the same operations in the same order — a second softmax pooling of each array, their average,
  the clipped scale, and two label-smoothed cross entropies averaged into one scalar — each over its own buffer names.
  Opened operation by operation, the result buffer of each program is the same term in the contents the stretch
  started from; so when the two pooled arrays and the scale agree at the start, the two results agree. No operation
  is unfolded: a reduction, a gather, a logarithm stay closed on both sides.
-/
import proofs.«176710_j10599979286745_2_alg».proof.Proof.RefRun
import proofs.«176710_j10599979286745_2_alg».proof.Proof.IdealTail

noncomputable section

namespace Cert.TailEq

open Idealize.ShloMosaic Idealize.ShloMosaic.StableHlo Cert.OpenLists

/-- The nine stretches, flattened, are the nine lists appended in order. -/
theorem flatten_tail : (Cert.KernelIdeal.Hand.tailOps (F := Ideal)).flatten
    = Cert.KernelIdeal.Gen.hostOps1 ++ (Cert.KernelIdeal.Gen.hostOps1_1 ++ (Cert.KernelIdeal.Gen.hostOps1_2 ++ (Cert.KernelIdeal.Gen.hostOps1_3
      ++ (Cert.KernelIdeal.Gen.hostOps1_4 ++ (Cert.KernelIdeal.Gen.hostOps1_5 ++ (Cert.KernelIdeal.Gen.hostOps1_6 ++ (Cert.KernelIdeal.Gen.hostOps1_7
      ++ (Cert.KernelIdeal.Gen.hostOps1_8 ++ [])))))))) := rfl

set_option maxRecDepth 65536 in
set_option maxHeartbeats 16000000 in
/-- From contents that agree on the two pooled arrays and on the scale, the two programs' last 167 operations leave
    the same scalar in their result buffers. -/
theorem tail_eq (Wk : Valuation Cert.KernelIdeal.τ Cert.KernelIdeal.sig (Elt Ideal)) (Wr : Valuation Cert.ReferenceIdeal.τ Cert.ReferenceIdeal.sig (Elt Ideal))
    (h2 : Wk (Proc.devRef .tc Cert.KernelIdeal.main_v0_0) = Wr (Proc.devRef .tc Cert.ReferenceIdeal.main_v16))
    (h3 : Wk (Proc.devRef .tc Cert.KernelIdeal.main_v0_1) = Wr (Proc.devRef .tc Cert.ReferenceIdeal.main_v31))
    (hs : Wk (Proc.devRef .tc Cert.KernelIdeal.main_arg2) = Wr (Proc.devRef .tc Cert.ReferenceIdeal.main_arg2)) :
    StableHlo.after (Cert.KernelIdeal.Hand.tailOps (F := Ideal)).flatten Wk (Proc.devRef .tc Cert.KernelIdeal.main_v72)
      = StableHlo.after Cert.ReferenceIdeal.RefRun.tailOpsR Wr (Proc.devRef .tc Cert.ReferenceIdeal.main_v103) := by
  rw [flatten_tail]
  open_lists [h2, h3, hs]
  rfl

end Cert.TailEq

end
-- ==== Proof.Finite.lean ====
/-
  From the precondition to real-valued inputs.

  The precondition is the printed predicate "every entry of the video array, of the wifi array and of the
  scale is finite": for each array the absolute value of every entry is compared with plus infinity and the
  comparisons are reduced by `and`.  If the predicate is all ones, each reduction is one, so every comparison
  is one, so every entry `x` has `max x (-x) < ⊤`; an extended real with that property is neither infinity
  (the absolute value of minus infinity is plus infinity), hence the coercion of a real.  Choosing those reals entry by entry gives the two real arrays.
-/
import proofs.«176710_j10599979286745_2_alg».proof.Defs
import proofs.«176710_j10599979286745_2_alg».proof.Proof.Gen.Pre_finite_inputs
import proofs.«176710_j10599979286745_2_alg».proof.Proof.Spec
import Idealize.ShloMosaic.Lib.ReduceAll
import Idealize.ShloMosaic.Lib.Pipeline.Value

noncomputable section

namespace Cert.KernelIdeal.Finite

open Idealize.ShloMosaic Idealize.SL.Sem Idealize.ShloMosaic.ValueIdx

/-- An extended real whose absolute value compares below plus infinity is a real. -/
theorem real_of_abs_lt_inf (x : EReal)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max x (-x) < ⊤ := by
    by_contra hn
    simp [hn] at h'
  rw [max_lt_iff] at hlt
  induction x using EReal.rec with
  | bot => exact absurd hlt.2 (by simp)
  | coe r => exact ⟨r, rfl⟩
  | top => exact absurd hlt.1 (by simp)

/-- The result of a reduction over every axis has one index. -/
instance : Subsingleton Cert.Pre_finite_inputs.S_.Idx := ⟨fun a b => funext fun d => d.elim0⟩

/-- If the printed predicate is all ones, every entry of its first two arguments is a real. -/
theorem reals_of_fn (x0 x1 : FVec Ideal Cert.Pre_finite_inputs.S64x128x256 .f32) (x2 : FVec Ideal Cert.Pre_finite_inputs.S_ .f32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨h8, -⟩ := IntOp.andi_eq_one.1 h0
  obtain ⟨h3, h7⟩ := IntOp.andi_eq_one.1 h8
  refine ⟨fun i => ?_, fun i => ?_⟩
  · have e := Host.reduce_andi_all _ _ _ _ _ h3 i
    refine real_of_abs_lt_inf (x0 i) (Eq.trans ?_ e)
    show _ = FloatOps.cmpf .olt (FloatOps.hostAbsf (x0 i)) _
    rw [broadcastInDim_apply _ Cert.Pre_finite_inputs.Facts.bcast_S_S64x128x256 _ i ValueIdx.ix0 (fun a => a.elim0)]
    rfl
  · have e := Host.reduce_andi_all _ _ _ _ _ h7 i
    refine real_of_abs_lt_inf (x1 i) (Eq.trans ?_ e)
    show _ = FloatOps.cmpf .olt (FloatOps.hostAbsf (x1 i)) _
    rw [broadcastInDim_apply _ Cert.Pre_finite_inputs.Facts.bcast_S_S64x128x256 _ i ValueIdx.ix0 (fun a => a.elim0)]
    rfl

/-- Under the precondition the video and wifi arrays of every device are arrays of reals. -/
theorem reals_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ v w : Cert.ClipSpec.SClips.Idx → ℝ,
      m ((c.tc : Thread Cert.KernelIdeal.nD Cert.KernelIdeal.τ).loc Cert.KernelIdeal.main_arg0) = Cert.ClipSpec.lift v
      ∧ m ((c.tc : Thread Cert.KernelIdeal.nD Cert.KernelIdeal.τ).loc Cert.KernelIdeal.main_arg1) = Cert.ClipSpec.lift w := by
  obtain ⟨hv, hw⟩ := reals_of_fn _ _ _ (h c)
  choose v hv using hv
  choose w hw using hw
  exact ⟨v, w, funext hv, funext hw⟩

end Cert.KernelIdeal.Finite

end
-- ==== Proof.lean ====
/-
  The claim: a fused kernel for a CLIP-style dense-similarity loss against its plain reference, over the extended reals.

  Both programs form every pairwise similarity sim[i,j,p,q] = ∑_d video[i,p,d]·wifi[j,q,d] and pool it two ways with
  softmax weights at temperature 1/2 — over the wifi frames q (per video frame p), and over the video frames p (per
  wifi frame q) — and then apply the same 167 host operations (a second softmax pooling, a scale, two
  label-smoothed cross entropies) to the two pooled arrays and the scalar logit scale.  The reference subtracts each
  row's (column's) own maximum before exponentiating; the kernel subtracts ONE maximum per 1024 × 1024 tile and
  reuses the exponentials for both poolings.  Over finite real inputs every similarity is a real, the subtracted
  shift is a real, and softmax weights do not depend on the shift (the factor e^{-shift} is a positive real that
  cancels), so both programs produce the same two pooled arrays; the shared host operations then produce the same
  scalar.  Finiteness of the inputs is used exactly there.

  The three frame claims: each kernel program is a pipelined launch over 8 grid points followed by the host
  operations, which write only buffers of their own; the reference is a straight line of host operations.
  The idealization rewrote nothing, so its claim is trivial.
-/
import proofs.«176710_j10599979286745_2_alg».proof.Defs
import proofs.«176710_j10599979286745_2_alg».proof.Proof.Gen.Kernel
import proofs.«176710_j10599979286745_2_alg».proof.Proof.Gen.KernelIdeal
import proofs.«176710_j10599979286745_2_alg».proof.Proof.Gen.ReferenceIdeal
import proofs.«176710_j10599979286745_2_alg».proof.Proof.Gen.ReferenceIdeal.Run
import proofs.«176710_j10599979286745_2_alg».proof.Proof.Gen.ReferenceIdeal.Read
import proofs.«176710_j10599979286745_2_alg».proof.Proof.Gen.Pre_finite_inputs
import proofs.«176710_j10599979286745_2_alg».proof.Proof.BitsFrame
import proofs.«176710_j10599979286745_2_alg».proof.Proof.IdealFrame
import proofs.«176710_j10599979286745_2_alg».proof.Proof.IdealValue2a
import proofs.«176710_j10599979286745_2_alg».proof.Proof.IdealValue3
import proofs.«176710_j10599979286745_2_alg».proof.Proof.RefValue
import proofs.«176710_j10599979286745_2_alg».proof.Proof.RefRun
import proofs.«176710_j10599979286745_2_alg».proof.Proof.TailEq
import proofs.«176710_j10599979286745_2_alg».proof.Proof.Finite

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same scalar: the kernel's two result arrays and the reference's two pooled arrays are
    the specification's (the shift cancels over real inputs), and the host operations after them are the same. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ Cert.KernelIdeal.cfgs (Cert.KernelIdeal.Hand.dats m) 0 (Cert.KernelIdeal.Hand.V0 m)
      Cert.KernelIdeal.Hand.tailOps c Cert.KernelIdeal.main_v72, Cert.KernelIdeal.Hand.run_result m ρ, ?_⟩
  refine (θ_run Cert.ReferenceIdeal.defs _ _).mono (fun _ h c => ⟨(h c).1.trans ?_, (h c).2⟩)
    (Cert.ReferenceIdeal.RefRun.run_after (F := Ideal) m' ρ')
  obtain ⟨v, w, hv, hw⟩ := Cert.KernelIdeal.Finite.reals_of_pre m hpre c
  obtain ⟨ha0, ha1, ha2⟩ := hagree c
  have e0 : StableHlo.launchContents m' c (Proc.devRef .tc Cert.ReferenceIdeal.main_arg0) = Cert.ClipSpec.lift v := ha0.trans hv
  have e1 : StableHlo.launchContents m' c (Proc.devRef .tc Cert.ReferenceIdeal.main_arg1) = Cert.ClipSpec.lift w := ha1.trans hw
  unfold Pipeline.afterTail₀
  refine (Cert.TailEq.tail_eq _ _ ?_ ?_ ?_).symm
  · -- the first pooled array
    refine (Pipeline.withArrays_arr Cert.KernelIdeal.spec0 Cert.KernelIdeal.Gen.launch0.win.arr_inj c _ _ 2).trans ?_
    rw [Cert.KernelIdeal.Hand.final2 m c v w hv hw, Cert.ReferenceIdeal.RefRun.head_v16]
    rw [e0, e1, Cert.ReferenceIdeal.RefValue.ref_v2w]
  · -- the second pooled array
    refine (Pipeline.withArrays_arr Cert.KernelIdeal.spec0 Cert.KernelIdeal.Gen.launch0.win.arr_inj c _ _ 3).trans ?_
    rw [Cert.KernelIdeal.Hand.final3 m c v w hv hw, Cert.ReferenceIdeal.RefRun.head_v31]
    rw [e0, e1, Cert.ReferenceIdeal.RefValue.ref_w2v]
  · -- the scalar argument
    rw [Pipeline.withArrays_of_ne _ c _ _ Cert.KernelIdeal.main_arg2 (by exact (by decide : ∀ w, Pipeline.arrRef Cert.KernelIdeal.spec0 w ≠ Cert.KernelIdeal.main_arg2)),
      Cert.ReferenceIdeal.RefRun.head_arg2]
    exact ha2.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
